-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x6 : Shape := ⟨2, ![6, 6]⟩
abbrev S4x3 : Shape := ⟨2, ![4, 3]⟩
abbrev S3x4 : Shape := ⟨2, ![3, 4]⟩
abbrev S1 : Shape := ⟨1, ![1]⟩
abbrev S2x40 : Shape := ⟨2, ![2, 40]⟩
abbrev S6x4096 : Shape := ⟨2, ![6, 4096]⟩
abbrev S4096 : Shape := ⟨1, ![4096]⟩
abbrev S3x4096 : Shape := ⟨2, ![3, 4096]⟩
abbrev S4x4096 : Shape := ⟨2, ![4, 4096]⟩
abbrev S1x4096 : Shape := ⟨2, ![1, 4096]⟩
abbrev S4096x8192 : Shape := ⟨2, ![4096, 8192]⟩
abbrev S8192 : Shape := ⟨1, ![8192]⟩
abbrev S8192x1 : Shape := ⟨2, ![8192, 1]⟩
abbrev S14x1 : Shape := ⟨2, ![14, 1]⟩
abbrev S_ : Shape := ⟨0, ![]⟩

class Facts : Prop where
  bcast_S_S6x6 : S_.BroadcastsInDim S6x6 (![] : Fin 0 → Fin S6x6.rank)
  reducesTo_S6x6_S_d0_1 : S6x6.ReducesTo [0, 1] S_
  h_S_ : 0 < S_.numel
  bcast_S_S4x3 : S_.BroadcastsInDim S4x3 (![] : Fin 0 → Fin S4x3.rank)
  reducesTo_S4x3_S_d0_1 : S4x3.ReducesTo [0, 1] S_
  bcast_S_S3x4 : S_.BroadcastsInDim S3x4 (![] : Fin 0 → Fin S3x4.rank)
  reducesTo_S3x4_S_d0_1 : S3x4.ReducesTo [0, 1] S_
  bcast_S_S1 : S_.BroadcastsInDim S1 (![] : Fin 0 → Fin S1.rank)
  reducesTo_S1_S_d0 : S1.ReducesTo [0] S_
  bcast_S_S6x4096 : S_.BroadcastsInDim S6x4096 (![] : Fin 0 → Fin S6x4096.rank)
  reducesTo_S6x4096_S_d0_1 : S6x4096.ReducesTo [0, 1] S_
  bcast_S_S4096 : S_.BroadcastsInDim S4096 (![] : Fin 0 → Fin S4096.rank)
  reducesTo_S4096_S_d0 : S4096.ReducesTo [0] S_
  bcast_S_S3x4096 : S_.BroadcastsInDim S3x4096 (![] : Fin 0 → Fin S3x4096.rank)
  reducesTo_S3x4096_S_d0_1 : S3x4096.ReducesTo [0, 1] S_
  bcast_S_S4x4096 : S_.BroadcastsInDim S4x4096 (![] : Fin 0 → Fin S4x4096.rank)
  reducesTo_S4x4096_S_d0_1 : S4x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_
  bcast_S_S8192x1 : S_.BroadcastsInDim S8192x1 (![] : Fin 0 → Fin S8192x1.rank)
  reducesTo_S8192x1_S_d0_1 : S8192x1.ReducesTo [0, 1] S_
  bcast_S_S14x1 : S_.BroadcastsInDim S14x1 (![] : Fin 0 → Fin S14x1.rank)
  reducesTo_S14x1_S_d0_1 : S14x1.ReducesTo [0, 1] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S8192x1 .f32) (main_arg16 : FVec F S1 .f32) (main_arg17 : FVec F S14x1 .f32) (main_arg18 : FVec F S1 .f32) (main_v63 : IVec S_ 1) (main_v67 : IVec S_ 1) : IVec S_ 1 :=
  let main_v68 : IVec S_ 1 := andi main_v63 main_v67
  let main_v69 : FVec F S8192x1 .f32 := Host.absf main_arg15
  let main_cst_26 : FVec F S_ .f32 := constant S_ .f32 0x7F800000#32
  let main_v70 : FVec F S8192x1 .f32 := broadcastInDim S8192x1 ![] bcast_S_S8192x1 main_cst_26
  let main_v71 : IVec S8192x1 1 := cmpf .olt main_v69 main_v70
  let main_c_27 : IVec S_ 1 := constantI S_ 1 1#1
  let main_v72 : IVec S_ 1 := (fun x v => Host.reduce IntOp.andi x v reducesTo_S8192x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S14x1 .f32 := Host.absf main_arg17
  let main_cst_30 : FVec F S_ .f32 := constant S_ .f32 0x7F800000#32
  let main_v80 : FVec F S14x1 .f32 := broadcastInDim S14x1 ![] bcast_S_S14x1 main_cst_30
  let main_v81 : IVec S14x1 1 := cmpf .olt main_v79 main_v80
  let main_c_31 : IVec S_ 1 := constantI S_ 1 1#1
  let main_v82 : IVec S_ 1 := (fun x v => Host.reduce IntOp.andi x v reducesTo_S14x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S4096 .f32) (main_arg13 : FVec F S4096x8192 .f32) (main_arg14 : FVec F S8192 .f32) (main_arg15 : FVec F S8192x1 .f32) (main_arg16 : FVec F S1 .f32) (main_arg17 : FVec F S14x1 .f32) (main_arg18 : FVec F S1 .f32) (main_v48 : IVec S_ 1) (main_v49 : FVec F S1x4096 .f32) (main_v50 : FVec F S1x4096 .f32) : IVec S_ 1 :=
  let main_v51 : IVec S1x4096 1 := cmpf .olt main_v49 main_v50
  let main_c_19 : IVec S_ 1 := constantI S_ 1 1#1
  let main_v52 : IVec S_ 1 := (fun x v => Host.reduce IntOp.andi x v reducesTo_S1x4096_S_d0_1 h_S_) main_v51 main_c_19
  let main_v53 : IVec S_ 1 := andi main_v48 main_v52
  let main_v54 : FVec F S4096 .f32 := Host.absf main_arg12
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096x8192 .f32 := Host.absf main_arg13
  let main_cst_22 : FVec F S_ .f32 := constant S_ .f32 0x7F800000#32
  let main_v60 : FVec F S4096x8192 .f32 := broadcastInDim S4096x8192 ![] bcast_S_S4096x8192 main_cst_22
  let main_v61 : IVec S4096x8192 1 := cmpf .olt main_v59 main_v60
  let main_c_23 : IVec S_ 1 := constantI S_ 1 1#1
  let main_v62 : IVec S_ 1 := (fun x v => Host.reduce IntOp.andi x v reducesTo_S4096x8192_S_d0_1 h_S_) main_v61 main_c_23
  let main_v63 : IVec S_ 1 := andi main_v58 main_v62
  let main_v64 : FVec F S8192 .f32 := Host.absf main_arg14
  let main_cst_24 : FVec F S_ .f32 := constant S_ .f32 0x7F800000#32
  let main_v65 : FVec F S8192 .f32 := broadcastInDim S8192 ![] bcast_S_S8192 main_cst_24
  let main_v66 : IVec S8192 1 := cmpf .olt main_v64 main_v65
  let main_c_25 : IVec S_ 1 := constantI S_ 1 1#1
  let main_v67 : IVec S_ 1 := (fun x v => Host.reduce IntOp.andi x v reducesTo_S8192_S_d0 h_S_) main_v66 main_c_25
  fn_part4 (F := F) main_arg15 main_arg16 main_arg17 main_arg18 main_v63 main_v67

def fn_part2 {F : FTy → Type} [FloatOps F] (main_arg8 : FVec F S4096 .f32) (main_arg9 : FVec F S4x4096 .f32) (main_arg10 : FVec F S4096 .f32) (main_arg11 : FVec F S1x4096 .f32) (main_arg12 : FVec F S4096 .f32) (main_arg13 : FVec F S4096x8192 .f32) (main_arg14 : FVec F S8192 .f32) (main_arg15 : FVec F S8192x1 .f32) (main_arg16 : FVec F S1 .f32) (main_arg17 : FVec F S14x1 .f32) (main_arg18 : FVec F S1 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4x4096 .f32 := Host.absf main_arg9
  let main_cst_14 : FVec F S_ .f32 := constant S_ .f32 0x7F800000#32
  let main_v40 : FVec F S4x4096 .f32 := broadcastInDim S4x4096 ![] bcast_S_S4x4096 main_cst_14
  let main_v41 : IVec S4x4096 1 := cmpf .olt main_v39 main_v40
  let main_c_15 : IVec S_ 1 := constantI S_ 1 1#1
  let main_v42 : IVec S_ 1 := (fun x v => Host.reduce IntOp.andi x v reducesTo_S4x4096_S_d0_1 h_S_) main_v41 main_c_15
  let main_v43 : IVec S_ 1 := andi main_v38 main_v42
  let main_v44 : FVec F S4096 .f32 := Host.absf main_arg10
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S1x4096 .f32 := Host.absf main_arg11
  let main_cst_18 : FVec F S_ .f32 := constant S_ .f32 0x7F800000#32
  let main_v50 : FVec F S1x4096 .f32 := broadcastInDim S1x4096 ![] bcast_S_S1x4096 main_cst_18
  fn_part3 (F := F) main_arg12 main_arg13 main_arg14 main_arg15 main_arg16 main_arg17 main_arg18 main_v48 main_v49 main_v50

def fn_part1 {F : FTy → Type} [FloatOps F] (main_arg5 : FVec F S6x4096 .f32) (main_arg6 : FVec F S4096 .f32) (main_arg7 : FVec F S3x4096 .f32) (main_arg8 : FVec F S4096 .f32) (main_arg9 : FVec F S4x4096 .f32) (main_arg10 : FVec F S4096 .f32) (main_arg11 : FVec F S1x4096 .f32) (main_arg12 : FVec F S4096 .f32) (main_arg13 : FVec F S4096x8192 .f32) (main_arg14 : FVec F S8192 .f32) (main_arg15 : FVec F S8192x1 .f32) (main_arg16 : FVec F S1 .f32) (main_arg17 : FVec F S14x1 .f32) (main_arg18 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S6x4096 .f32 := Host.absf main_arg5
  let main_cst_6 : FVec F S_ .f32 := constant S_ .f32 0x7F800000#32
  let main_v20 : FVec F S6x4096 .f32 := broadcastInDim S6x4096 ![] bcast_S_S6x4096 main_cst_6
  let main_v21 : IVec S6x4096 1 := cmpf .olt main_v19 main_v20
  let main_c_7 : IVec S_ 1 := constantI S_ 1 1#1
  let main_v22 : IVec S_ 1 := (fun x v => Host.reduce IntOp.andi x v reducesTo_S6x4096_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S3x4096 .f32 := Host.absf main_arg7
  let main_cst_10 : FVec F S_ .f32 := constant S_ .f32 0x7F800000#32
  let main_v30 : FVec F S3x4096 .f32 := broadcastInDim S3x4096 ![] bcast_S_S3x4096 main_cst_10
  let main_v31 : IVec S3x4096 1 := cmpf .olt main_v29 main_v30
  let main_c_11 : IVec S_ 1 := constantI S_ 1 1#1
  let main_v32 : IVec S_ 1 := (fun x v => Host.reduce IntOp.andi x v reducesTo_S3x4096_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S6x6 .f32) (main_arg1 : FVec F S4x3 .f32) (main_arg2 : FVec F S3x4 .f32) (main_arg3 : FVec F S1 .f32) (main_arg4 : IVec S2x40 32) (main_arg5 : FVec F S6x4096 .f32) (main_arg6 : FVec F S4096 .f32) (main_arg7 : FVec F S3x4096 .f32) (main_arg8 : FVec F S4096 .f32) (main_arg9 : FVec F S4x4096 .f32) (main_arg10 : FVec F S4096 .f32) (main_arg11 : FVec F S1x4096 .f32) (main_arg12 : FVec F S4096 .f32) (main_arg13 : FVec F S4096x8192 .f32) (main_arg14 : FVec F S8192 .f32) (main_arg15 : FVec F S8192x1 .f32) (main_arg16 : FVec F S1 .f32) (main_arg17 : FVec F S14x1 .f32) (main_arg18 : FVec F S1 .f32) : IVec S_ 1 :=
  let main_v0 : FVec F S6x6 .f32 := Host.absf main_arg0
  let main_cst : FVec F S_ .f32 := constant S_ .f32 0x7F800000#32
  let main_v1 : FVec F S6x6 .f32 := broadcastInDim S6x6 ![] bcast_S_S6x6 main_cst
  let main_v2 : IVec S6x6 1 := cmpf .olt main_v0 main_v1
  let main_c : IVec S_ 1 := constantI S_ 1 1#1
  let main_v3 : IVec S_ 1 := (fun x v => Host.reduce IntOp.andi x v reducesTo_S6x6_S_d0_1 h_S_) main_v2 main_c
  let main_v4 : FVec F S4x3 .f32 := Host.absf main_arg1
  let main_cst_0 : FVec F S_ .f32 := constant S_ .f32 0x7F800000#32
  let main_v5 : FVec F S4x3 .f32 := broadcastInDim S4x3 ![] bcast_S_S4x3 main_cst_0
  let main_v6 : IVec S4x3 1 := cmpf .olt main_v4 main_v5
  let main_c_1 : IVec S_ 1 := constantI S_ 1 1#1
  let main_v7 : IVec S_ 1 := (fun x v => Host.reduce IntOp.andi x v reducesTo_S4x3_S_d0_1 h_S_) main_v6 main_c_1
  let main_v8 : IVec S_ 1 := andi main_v3 main_v7
  let main_v9 : FVec F S3x4 .f32 := Host.absf main_arg2
  let main_cst_2 : FVec F S_ .f32 := constant S_ .f32 0x7F800000#32
  let main_v10 : FVec F S3x4 .f32 := broadcastInDim S3x4 ![] bcast_S_S3x4 main_cst_2
  let main_v11 : IVec S3x4 1 := cmpf .olt main_v9 main_v10
  let main_c_3 : IVec S_ 1 := constantI S_ 1 1#1
  let main_v12 : IVec S_ 1 := (fun x v => Host.reduce IntOp.andi x v reducesTo_S3x4_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S6x6 : Shape := ⟨2, ![6, 6]⟩
abbrev S4x3 : Shape := ⟨2, ![4, 3]⟩
abbrev S3x4 : Shape := ⟨2, ![3, 4]⟩
abbrev S1 : Shape := ⟨1, ![1]⟩
abbrev S2x40 : Shape := ⟨2, ![2, 40]⟩
abbrev S6x4096 : Shape := ⟨2, ![6, 4096]⟩
abbrev S4096 : Shape := ⟨1, ![4096]⟩
abbrev S3x4096 : Shape := ⟨2, ![3, 4096]⟩
abbrev S4x4096 : Shape := ⟨2, ![4, 4096]⟩
abbrev S1x4096 : Shape := ⟨2, ![1, 4096]⟩
abbrev S4096x8192 : Shape := ⟨2, ![4096, 8192]⟩
abbrev S8192 : Shape := ⟨1, ![8192]⟩
abbrev S8192x1 : Shape := ⟨2, ![8192, 1]⟩
abbrev S14x1 : Shape := ⟨2, ![14, 1]⟩
abbrev S_ : Shape := ⟨0, ![]⟩
abbrev S6x8 : Shape := ⟨2, ![6, 8]⟩
abbrev S6x14 : Shape := ⟨2, ![6, 14]⟩
abbrev S4x6 : Shape := ⟨2, ![4, 6]⟩
abbrev S4x5 : Shape := ⟨2, ![4, 5]⟩
abbrev S4x14 : Shape := ⟨2, ![4, 14]⟩
abbrev S3x9 : Shape := ⟨2, ![3, 9]⟩
abbrev S3x1 : Shape := ⟨2, ![3, 1]⟩
abbrev S3x14 : Shape := ⟨2, ![3, 14]⟩
abbrev S1x1 : Shape := ⟨2, ![1, 1]⟩
abbrev S1x13 : Shape := ⟨2, ![1, 13]⟩
abbrev S1x14 : Shape := ⟨2, ![1, 14]⟩
abbrev S14x14 : Shape := ⟨2, ![14, 14]⟩
abbrev S14x4096 : Shape := ⟨2, ![14, 4096]⟩
abbrev S14 : Shape := ⟨1, ![14]⟩
abbrev S2x14 : Shape := ⟨2, ![2, 14]⟩
abbrev S2x54 : Shape := ⟨2, ![2, 54]⟩
abbrev S1x54 : Shape := ⟨2, ![1, 54]⟩
abbrev S54 : Shape := ⟨1, ![54]⟩
abbrev S14x8192 : Shape := ⟨2, ![14, 8192]⟩
abbrev S14x512 : Shape := ⟨2, ![14, 512]⟩
abbrev S512x4096 : Shape := ⟨2, ![512, 4096]⟩
abbrev S54x1 : Shape := ⟨2, ![54, 1]⟩
abbrev S54x8192 : Shape := ⟨2, ![54, 8192]⟩
abbrev S1x8192 : Shape := ⟨2, ![1, 8192]⟩

abbrev nBuf : Space → Nat
  | .hbm => 189
  | .vmem => 7
  | .smem => 0
  | _ => 0

abbrev hbmTy0_0 (i : Nat) : BufTy := match i % 128 with
  | 0 => ⟨S6x6, .f32⟩
  | 1 => ⟨S4x3, .f32⟩
  | 2 => ⟨S3x4, .f32⟩
  | 3 => ⟨S1, .f32⟩
  | 4 => ⟨S2x40, .i32⟩
  | 5 => ⟨S6x4096, .f32⟩
  | 6 => ⟨S4096, .f32⟩
  | 7 => ⟨S3x4096, .f32⟩
  | 8 => ⟨S4096, .f32⟩
  | 9 => ⟨S4x4096, .f32⟩
  | 10 => ⟨S4096, .f32⟩
  | 11 => ⟨S1x4096, .f32⟩
  | 12 => ⟨S4096, .f32⟩
  | 13 => ⟨S4096x8192, .f32⟩
  | 14 => ⟨S8192, .f32⟩
  | 15 => ⟨S8192x1, .f32⟩
  | 16 => ⟨S1, .f32⟩
  | 17 => ⟨S14x1, .f32⟩
  | 18 => ⟨S1, .f32⟩
  | 19 => ⟨S_, .f32⟩
  | 20 => ⟨S6x8, .f32⟩
  | 21 => ⟨S6x14, .f32⟩
  | 22 => ⟨S_, .f32⟩
  | 23 => ⟨S4x6, .f32⟩
  | 24 => ⟨S_, .f32⟩
  | 25 => ⟨S4x5, .f32⟩
  | 26 => ⟨S4x14, .f32⟩
  | 27 => ⟨S_, .f32⟩
  | 28 => ⟨S3x9, .f32⟩
  | 29 => ⟨S_, .f32⟩
  | 30 => ⟨S3x1, .f32⟩
  | 31 => ⟨S3x14, .f32⟩
  | 32 => ⟨S_, .f32⟩
  | 33 => ⟨S1, .f32⟩
  | 34 => ⟨S1, .f32⟩
  | 35 => ⟨S1x1, .f32⟩
  | 36 => ⟨S_, .f32⟩
  | 37 => ⟨S1x13, .f32⟩
  | 38 => ⟨S1x14, .f32⟩
  | 39 => ⟨S14x14, .f32⟩
  | 40 => ⟨S14x4096, .f32⟩
  | 41 => ⟨S6x4096, .f32⟩
  | 42 => ⟨S4x4096, .f32⟩
  | 43 => ⟨S3x4096, .f32⟩
  | 44 => ⟨S1x4096, .f32⟩
  | 45 => ⟨S14x4096, .f32⟩
  | 46 => ⟨S14x4096, .f32⟩
  | 47 => ⟨S14x4096, .f32⟩
  | 48 => ⟨S_, .f32⟩
  | 49 => ⟨S14x4096, .f32⟩
  | 50 => ⟨S14x4096, .f32⟩
  | 51 => ⟨S14, .i32⟩
  | 52 => ⟨S1x14, .i32⟩
  | 53 => ⟨S1x14, .i32⟩
  | 54 => ⟨S2x14, .i32⟩
  | 55 => ⟨S2x54, .i32⟩
  | 56 => ⟨S1x54, .i32⟩
  | 57 => ⟨S54, .i32⟩
  | 58 => ⟨S1x54, .i32⟩
  | 59 => ⟨S54, .i32⟩
  | 60 => ⟨S14x8192, .f32⟩
  | 61 => ⟨S_, .f32⟩
  | 62 => ⟨S54, .f32⟩
  | 63 => ⟨S_, .f32⟩
  | 64 => ⟨S14, .f32⟩
  | 65 => ⟨S54x1, .i32⟩
  | 66 => ⟨S14, .f32⟩
  | 67 => ⟨S_, .f32⟩
  | 68 => ⟨S14, .f32⟩
  | 69 => ⟨S14, .i1⟩
  | 70 => ⟨S_, .f32⟩
  | 71 => ⟨S14, .f32⟩
  | 72 => ⟨S14, .f32⟩
  | 73 => ⟨S14, .f32⟩
  | 74 => ⟨S_, .f32⟩
  | 75 => ⟨S_, .f32⟩
  | 76 => ⟨S14, .f32⟩
  | 77 => ⟨S14, .f32⟩
  | 78 => ⟨S_, .i32⟩
  | 79 => ⟨S54, .i32⟩
  | 80 => ⟨S54, .i1⟩
  | 81 => ⟨S_, .i32⟩
  | 82 => ⟨S54, .i32⟩
  | 83 => ⟨S54, .i32⟩
  | 84 => ⟨S54, .i32⟩
  | 85 => ⟨S54x1, .i32⟩
  | 86 => ⟨S54, .f32⟩
  | 87 => ⟨S_, .i32⟩
  | 88 => ⟨S54, .i32⟩
  | 89 => ⟨S54, .i1⟩
  | 90 => ⟨S_, .i32⟩
  | 91 => ⟨S54, .i32⟩
  | 92 => ⟨S54, .i32⟩
  | 93 => ⟨S54, .i32⟩
  | 94 => ⟨S54x1, .i32⟩
  | 95 => ⟨S54, .f32⟩
  | 96 => ⟨S54, .f32⟩
  | 97 => ⟨S_, .i32⟩
  | 98 => ⟨S54, .i32⟩
  | 99 => ⟨S54, .i1⟩
  | 100 => ⟨S_, .i32⟩
  | 101 => ⟨S54, .i32⟩
  | 102 => ⟨S54, .i32⟩
  | 103 => ⟨S54, .i32⟩
  | 104 => ⟨S54x1, .i32⟩
  | 105 => ⟨S54x8192, .f32⟩
  | 106 => ⟨S54x1, .f32⟩
  | 107 => ⟨S54x8192, .f32⟩
  | 108 => ⟨S54x8192, .f32⟩
  | 109 => ⟨S_, .f32⟩
  | 110 => ⟨S14x8192, .f32⟩
  | 111 => ⟨S54x1, .i32⟩
  | 112 => ⟨S14x8192, .f32⟩
  | 113 => ⟨S1x8192, .f32⟩
  | 114 => ⟨S14x8192, .f32⟩
  | 115 => ⟨S14x8192, .f32⟩
  | 116 => ⟨S14, .i32⟩
  | 117 => ⟨S1x14, .i32⟩
  | 118 => ⟨S1x14, .i32⟩
  | 119 => ⟨S2x14, .i32⟩
  | 120 => ⟨S2x54, .i32⟩
  | 121 => ⟨S1x54, .i32⟩
  | 122 => ⟨S54, .i32⟩
  | 123 => ⟨S1x54, .i32⟩
  | 124 => ⟨S54, .i32⟩
  | 125 => ⟨S14x1, .f32⟩
  | 126 => ⟨S_, .f32⟩
  | 127 => ⟨S54, .f32⟩
  | _ => ⟨S6x6, .f32⟩

abbrev hbmTy0_1 (i : Nat) : BufTy := match i % 128 with
  | 0 => ⟨S_, .f32⟩
  | 1 => ⟨S14, .f32⟩
  | 2 => ⟨S54x1, .i32⟩
  | 3 => ⟨S14, .f32⟩
  | 4 => ⟨S_, .f32⟩
  | 5 => ⟨S14, .f32⟩
  | 6 => ⟨S14, .i1⟩
  | 7 => ⟨S_, .f32⟩
  | 8 => ⟨S14, .f32⟩
  | 9 => ⟨S14, .f32⟩
  | 10 => ⟨S14, .f32⟩
  | 11 => ⟨S_, .f32⟩
  | 12 => ⟨S_, .f32⟩
  | 13 => ⟨S14, .f32⟩
  | 14 => ⟨S14, .f32⟩
  | 15 => ⟨S_, .i32⟩
  | 16 => ⟨S54, .i32⟩
  | 17 => ⟨S54, .i1⟩
  | 18 => ⟨S_, .i32⟩
  | 19 => ⟨S54, .i32⟩
  | 20 => ⟨S54, .i32⟩
  | 21 => ⟨S54, .i32⟩
  | 22 => ⟨S54x1, .i32⟩
  | 23 => ⟨S54, .f32⟩
  | 24 => ⟨S_, .i32⟩
  | 25 => ⟨S54, .i32⟩
  | 26 => ⟨S54, .i1⟩
  | 27 => ⟨S_, .i32⟩
  | 28 => ⟨S54, .i32⟩
  | 29 => ⟨S54, .i32⟩
  | 30 => ⟨S54, .i32⟩
  | 31 => ⟨S54x1, .i32⟩
  | 32 => ⟨S54, .f32⟩
  | 33 => ⟨S54, .f32⟩
  | 34 => ⟨S_, .i32⟩
  | 35 => ⟨S54, .i32⟩
  | 36 => ⟨S54, .i1⟩
  | 37 => ⟨S_, .i32⟩
  | 38 => ⟨S54, .i32⟩
  | 39 => ⟨S54, .i32⟩
  | 40 => ⟨S54, .i32⟩
  | 41 => ⟨S54x1, .i32⟩
  | 42 => ⟨S54x1, .f32⟩
  | 43 => ⟨S54x1, .f32⟩
  | 44 => ⟨S54x1, .f32⟩
  | 45 => ⟨S_, .f32⟩
  | 46 => ⟨S14x1, .f32⟩
  | 47 => ⟨S54x1, .i32⟩
  | 48 => ⟨S14x1, .f32⟩
  | 49 => ⟨S1x1, .f32⟩
  | 50 => ⟨S14x1, .f32⟩
  | 51 => ⟨S14x1, .f32⟩
  | 52 => ⟨S1x14, .f32⟩
  | 53 => ⟨S1x1, .f32⟩
  | 54 => ⟨S1x1, .f32⟩
  | 55 => ⟨S1x1, .f32⟩
  | 56 => ⟨S_, .f32⟩
  | 57 => ⟨S1, .f32⟩
  | 58 => ⟨S_, .f32⟩
  | 59 => ⟨S1, .f32⟩
  | 60 => ⟨S1, .f32⟩
  | _ => ⟨S6x6, .f32⟩

abbrev hbmTy (i : Nat) : BufTy := match i / 128 with
  | 0 => hbmTy0_0 i
  | 1 => hbmTy0_1 i
  | _ => ⟨S6x6, .f32⟩

abbrev bufTy : (tb : Table) → Fin (tcTables nBuf tb) → BufTy
  | .hbm, ⟨i, _⟩ => hbmTy i
  | .local _ .vmem, ⟨0, _⟩ => ⟨S14x512, .f32⟩
  | .local _ .vmem, ⟨1, _⟩ => ⟨S14x512, .f32⟩
  | .local _ .vmem, ⟨2, _⟩ => ⟨S512x4096, .f32⟩
  | .local _ .vmem, ⟨3, _⟩ => ⟨S512x4096, .f32⟩
  | .local _ .vmem, ⟨4, _⟩ => ⟨S14x4096, .f32⟩
  | .local _ .vmem, ⟨5, _⟩ => ⟨S14x4096, .f32⟩
  | .local _ .vmem, ⟨6, _⟩ => ⟨S14x4096, .f32⟩
  | _, _ => ⟨S6x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_cst_1 : Ref sig .tc := ⟨.hbm, 24, rfl⟩
abbrev main_v3 : Ref sig .tc := ⟨.hbm, 25, rfl⟩
abbrev main_v4 : Ref sig .tc := ⟨.hbm, 26, rfl⟩
abbrev main_cst_2 : Ref sig .tc := ⟨.hbm, 27, rfl⟩
abbrev main_v5 : Ref sig .tc := ⟨.hbm, 28, rfl⟩
abbrev main_cst_3 : Ref sig .tc := ⟨.hbm, 29, rfl⟩
abbrev main_v6 : Ref sig .tc := ⟨.hbm, 30, rfl⟩
abbrev main_v7 : Ref sig .tc := ⟨.hbm, 31, rfl⟩
abbrev main_cst_4 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call0_cst : Ref sig .tc := ⟨.hbm, 48, rfl⟩
abbrev main_call0_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_10 : Ref sig .tc := ⟨.hbm, 74, rfl⟩
abbrev main_call1_v0 : Ref sig .tc := ⟨.hbm, 75, rfl⟩
abbrev main_call1_v1 : Ref sig .tc := ⟨.hbm, 76, rfl⟩
abbrev main_v42 : Ref sig .tc := ⟨.hbm, 77, rfl⟩
abbrev main_c : Ref sig .tc := ⟨.hbm, 78, rfl⟩
abbrev main_v43 : Ref sig .tc := ⟨.hbm, 79, rfl⟩
abbrev main_v44 : Ref sig .tc := ⟨.hbm, 80, rfl⟩
abbrev main_c_11 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_12 : Ref sig .tc := ⟨.hbm, 87, rfl⟩
abbrev main_v50 : Ref sig .tc := ⟨.hbm, 88, rfl⟩
abbrev main_v51 : Ref sig .tc := ⟨.hbm, 89, rfl⟩
abbrev main_c_13 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_14 : Ref sig .tc := ⟨.hbm, 97, rfl⟩
abbrev main_v58 : Ref sig .tc := ⟨.hbm, 98, rfl⟩
abbrev main_v59 : Ref sig .tc := ⟨.hbm, 99, rfl⟩
abbrev main_c_15 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_16 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_cst_18 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_19 : Ref sig .tc := ⟨.hbm, 132, rfl⟩
abbrev main_v88 : Ref sig .tc := ⟨.hbm, 133, rfl⟩
abbrev main_v89 : Ref sig .tc := ⟨.hbm, 134, rfl⟩
abbrev main_cst_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_21 : Ref sig .tc := ⟨.hbm, 139, rfl⟩
abbrev main_call2_v0 : Ref sig .tc := ⟨.hbm, 140, rfl⟩
abbrev main_call2_v1 : Ref sig .tc := ⟨.hbm, 141, rfl⟩
abbrev main_v93 : Ref sig .tc := ⟨.hbm, 142, rfl⟩
abbrev main_c_22 : Ref sig .tc := ⟨.hbm, 143, rfl⟩
abbrev main_v94 : Ref sig .tc := ⟨.hbm, 144, rfl⟩
abbrev main_v95 : Ref sig .tc := ⟨.hbm, 145, rfl⟩
abbrev main_c_23 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_24 : Ref sig .tc := ⟨.hbm, 152, rfl⟩
abbrev main_v101 : Ref sig .tc := ⟨.hbm, 153, rfl⟩
abbrev main_v102 : Ref sig .tc := ⟨.hbm, 154, rfl⟩
abbrev main_c_25 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_c_26 : Ref sig .tc := ⟨.hbm, 162, rfl⟩
abbrev main_v109 : Ref sig .tc := ⟨.hbm, 163, rfl⟩
abbrev main_v110 : Ref sig .tc := ⟨.hbm, 164, rfl⟩
abbrev main_c_27 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_28 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_29 : Ref sig .tc := ⟨.hbm, 184, rfl⟩
abbrev main_v128 : Ref sig .tc := ⟨.hbm, 185, rfl⟩
abbrev main_cst_30 : Ref sig .tc := ⟨.hbm, 186, rfl⟩
abbrev main_v129 : Ref sig .tc := ⟨.hbm, 187, rfl⟩
abbrev main_v130 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S14x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S14x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S6x8 : S_.BroadcastsInDim S6x8 (![] : Fin 0 → Fin S6x8.rank)
  concatenates_S6x6_S6x8_S6x14_d1 : Shape.Concatenates [S6x6, S6x8] S6x14 1
  bcast_S_S4x6 : S_.BroadcastsInDim S4x6 (![] : Fin 0 → Fin S4x6.rank)
  bcast_S_S4x5 : S_.BroadcastsInDim S4x5 (![] : Fin 0 → Fin S4x5.rank)
  concatenates_S4x6_S4x3_S4x5_S4x14_d1 : Shape.Concatenates [S4x6, S4x3, S4x5] S4x14 1
  bcast_S_S3x9 : S_.BroadcastsInDim S3x9 (![] : Fin 0 → Fin S3x9.rank)
  bcast_S_S3x1 : S_.BroadcastsInDim S3x1 (![] : Fin 0 → Fin S3x1.rank)
  concatenates_S3x9_S3x4_S3x1_S3x14_d1 : Shape.Concatenates [S3x9, S3x4, S3x1] S3x14 1
  bcast_S_S1 : S_.BroadcastsInDim S1 (![] : Fin 0 → Fin S1.rank)
  bcast_S1_S1x1_1 : S1.BroadcastsInDim S1x1 (![1] : Fin 1 → Fin S1x1.rank)
  bcast_S_S1x13 : S_.BroadcastsInDim S1x13 (![] : Fin 0 → Fin S1x13.rank)
  concatenates_S1x13_S1x1_S1x14_d1 : Shape.Concatenates [S1x13, S1x1] S1x14 1
  concatenates_S6x14_S4x14_S3x14_S1x14_S14x14_d0 : Shape.Concatenates [S6x14, S4x14, S3x14, S1x14] S14x14 0
  concatenates_S6x4096_S3x4096_S4x4096_S1x4096_S14x4096_d0 : Shape.Concatenates [S6x4096, S3x4096, S4x4096, S1x4096] S14x4096 0
  bcast_S4096_S6x4096_1 : S4096.BroadcastsInDim S6x4096 (![1] : Fin 1 → Fin S6x4096.rank)
  bcast_S4096_S4x4096_1 : S4096.BroadcastsInDim S4x4096 (![1] : Fin 1 → Fin S4x4096.rank)
  bcast_S4096_S3x4096_1 : S4096.BroadcastsInDim S3x4096 (![1] : Fin 1 → Fin S3x4096.rank)
  bcast_S4096_S1x4096_1 : S4096.BroadcastsInDim S1x4096 (![1] : Fin 1 → Fin S1x4096.rank)
  concatenates_S6x4096_S4x4096_S3x4096_S1x4096_S14x4096_d0 : Shape.Concatenates [S6x4096, S4x4096, S3x4096, S1x4096] S14x4096 0
  bcast_S_S14x4096 : S_.BroadcastsInDim S14x4096 (![] : Fin 0 → Fin S14x4096.rank)
  bcast_S14_S1x14_1 : S14.BroadcastsInDim S1x14 (![1] : Fin 1 → Fin S1x14.rank)
  concatenates_S1x14_S1x14_S2x14_d0 : Shape.Concatenates [S1x14, S1x14] S2x14 0
  concatenates_S2x40_S2x14_S2x54_d1 : Shape.Concatenates [S2x40, S2x14] S2x54 1
  slices_S2x54_S1x54_0_0 : S2x54.Slices ![0, 0] S1x54
  shapeCasts_S1x54_S54 : S1x54.ShapeCasts S54
  slices_S2x54_S1x54_1_0 : S2x54.Slices ![1, 0] S1x54
  inb_S14x4096_S14x4096_0_0 : ∀ a, (![0, 0] : Fin 2 → Nat) a + S14x4096.size a ≤ S14x4096.size a
  h_S14x4096 : 0 < S14x4096.numel
  shapeCasts_S14x4096_S14x4096 : S14x4096.ShapeCasts S14x4096
  inb_S14x512_S14x512_0_0 : ∀ a, (![0, 0] : Fin 2 → Nat) a + S14x512.size a ≤ S14x512.size a
  h_S14x512 : 0 < S14x512.numel
  shapeCasts_S14x512_S14x512 : S14x512.ShapeCasts S14x512
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  bcast_S_S54 : S_.BroadcastsInDim S54 (![] : Fin 0 → Fin S54.rank)
  bcast_S_S14 : S_.BroadcastsInDim S14 (![] : Fin 0 → Fin S14.rank)
  bcast_S54_S54x1_0 : S54.BroadcastsInDim S54x1 (![0] : Fin 1 → Fin S54x1.rank)
  bcast_S54x1_S54x8192_0_1 : S54x1.BroadcastsInDim S54x8192 (![0, 1] : Fin 2 → Fin S54x8192.rank)
  bcast_S_S14x8192 : S_.BroadcastsInDim S14x8192 (![] : Fin 0 → Fin S14x8192.rank)
  bcast_S8192_S1x8192_1 : S8192.BroadcastsInDim S1x8192 (![1] : Fin 1 → Fin S1x8192.rank)
  bcast_S1x8192_S14x8192_0_1 : S1x8192.BroadcastsInDim S14x8192 (![0, 1] : Fin 2 → Fin S14x8192.rank)
  bcast_S_S14x1 : S_.BroadcastsInDim S14x1 (![] : Fin 0 → Fin S14x1.rank)
  bcast_S1x1_S14x1_0_1 : S1x1.BroadcastsInDim S14x1 (![0, 1] : Fin 2 → Fin S14x1.rank)
  transposes_S14x1_S1x14_1_0 : S14x1.Transposes [1, 0] S1x14
  reducesTo_S1x1_S1_d0 : S1x1.ReducesTo [0] S1
  h_S_ : 0 < S_.numel
  dot_S14x14_S14x4096_S14x4096_1_0_0_1_n_n_wf : DotDims.WF S14x14 S14x4096 S14x4096 [1] [0] [0] [1] [] []
  dot_S14x512_S512x4096_S14x4096_1_0_0_1_n_n_wf : DotDims.WF S14x512 S512x4096 S14x4096 [1] [0] [0] [1] [] []
  scatter_S14_S54x1_S54_n_0_0_1_wf : ScatterDims.WF S14 S54x1 S54 [] [0] [0] 1
  gather_S14_S54x1_S54_n_0_n_n_0_1_1_wf : GatherDims.WF S14 S54x1 S54 [] [0] [] [0] [] 1 ![1]
  gather_S14x8192_S54x1_S54x8192_1_0_n_n_0_1_18192_wf : GatherDims.WF S14x8192 S54x1 S54x8192 [1] [0] [] [0] [] 1 ![1, 8192]
  scatter_S14x8192_S54x1_S54x8192_1_0_0_1_wf : ScatterDims.WF S14x8192 S54x1 S54x8192 [1] [0] [0] 1
  dot_S14x8192_S8192x1_S14x1_1_0_0_1_n_n_wf : DotDims.WF S14x8192 S8192x1 S14x1 [1] [0] [0] [1] [] []
  gather_S14x1_S54x1_S54x1_1_0_n_n_0_1_11_wf : GatherDims.WF S14x1 S54x1 S54x1 [1] [0] [] [0] [] 1 ![1, 1]
  scatter_S14x1_S54x1_S54x1_1_0_0_1_wf : ScatterDims.WF S14x1 S54x1 S54x1 [1] [0] [0] 1
  dot_S1x14_S14x1_S1x1_1_0_0_1_n_n_wf : DotDims.WF S1x14 S14x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S14x512.size a ≤ S14x4096.size a
  hwx0_0 : ∀ i : grid0.Coords, EltTy.bits .f32 = 32 ∨ (Rect.block (s := S14x4096) S14x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x8192.size a
  hwx0_1 : ∀ i : grid0.Coords, EltTy.bits .f32 = 32 ∨ (Rect.block (s := S4096x8192) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S14x4096.size a ≤ S14x8192.size a
  hwx0_2 : ∀ i : grid0.Coords, EltTy.bits .f32 = 32 ∨ (Rect.block (s := S14x8192) S14x4096.size (cc0_transform_2 i) (hinb0_2 i)).WholeWords (EltTy.packing .f32)

variable [Facts₀]

def dot_S14x14_S14x4096_S14x4096_1_0_0_1_n_n : DotDims S14x14 S14x4096 S14x4096 where
  lhsContracting := [1]
  rhsContracting := [0]
  lhsNonContracting := [0]
  rhsNonContracting := [1]
  lhsBatch := []
  rhsBatch := []
  wf := dot_S14x14_S14x4096_S14x4096_1_0_0_1_n_n_wf
def dot_S14x512_S512x4096_S14x4096_1_0_0_1_n_n : DotDims S14x512 S512x4096 S14x4096 where
  lhsContracting := [1]
  rhsContracting := [0]
  lhsNonContracting := [0]
  rhsNonContracting := [1]
  lhsBatch := []
  rhsBatch := []
  wf := dot_S14x512_S512x4096_S14x4096_1_0_0_1_n_n_wf
def scatter_S14_S54x1_S54_n_0_0_1 : ScatterDims S14 S54x1 S54 where
  updateWindowDims := []
  insertedWindowDims := [0]
  scatterDimsToOperandDims := [0]
  indexVectorDim := 1
  wf := scatter_S14_S54x1_S54_n_0_0_1_wf
def gather_S14_S54x1_S54_n_0_n_n_0_1_1 : GatherDims S14 S54x1 S54 where
  offsetDims := []
  collapsedSliceDims := [0]
  operandBatchingDims := []
  startIndicesBatchingDims := []
  startIndexMap := [0]
  indexVectorDim := 1
  sliceSizes := ![1]
  wf := gather_S14_S54x1_S54_n_0_n_n_0_1_1_wf
def gather_S14x8192_S54x1_S54x8192_1_0_n_n_0_1_18192 : GatherDims S14x8192 S54x1 S54x8192 where
  offsetDims := [1]
  collapsedSliceDims := [0]
  operandBatchingDims := []
  startIndicesBatchingDims := []
  startIndexMap := [0]
  indexVectorDim := 1
  sliceSizes := ![1, 8192]
  wf := gather_S14x8192_S54x1_S54x8192_1_0_n_n_0_1_18192_wf
def scatter_S14x8192_S54x1_S54x8192_1_0_0_1 : ScatterDims S14x8192 S54x1 S54x8192 where
  updateWindowDims := [1]
  insertedWindowDims := [0]
  scatterDimsToOperandDims := [0]
  indexVectorDim := 1
  wf := scatter_S14x8192_S54x1_S54x8192_1_0_0_1_wf
def dot_S14x8192_S8192x1_S14x1_1_0_0_1_n_n : DotDims S14x8192 S8192x1 S14x1 where
  lhsContracting := [1]
  rhsContracting := [0]
  lhsNonContracting := [0]
  rhsNonContracting := [1]
  lhsBatch := []
  rhsBatch := []
  wf := dot_S14x8192_S8192x1_S14x1_1_0_0_1_n_n_wf
def gather_S14x1_S54x1_S54x1_1_0_n_n_0_1_11 : GatherDims S14x1 S54x1 S54x1 where
  offsetDims := [1]
  collapsedSliceDims := [0]
  operandBatchingDims := []
  startIndicesBatchingDims := []
  startIndexMap := [0]
  indexVectorDim := 1
  sliceSizes := ![1, 1]
  wf := gather_S14x1_S54x1_S54x1_1_0_n_n_0_1_11_wf
def scatter_S14x1_S54x1_S54x1_1_0_0_1 : ScatterDims S14x1 S54x1 S54x1 where
  updateWindowDims := [1]
  insertedWindowDims := [0]
  scatterDimsToOperandDims := [0]
  indexVectorDim := 1
  wf := scatter_S14x1_S54x1_S54x1_1_0_0_1_wf
def dot_S1x14_S14x1_S1x1_1_0_0_1_n_n : DotDims S1x14 S14x1 S1x1 where
  lhsContracting := [1]
  rhsContracting := [0]
  lhsNonContracting := [0]
  rhsNonContracting := [1]
  lhsBatch := []
  rhsBatch := []
  wf := dot_S1x14_S14x1_S1x1_1_0_0_1_n_n_wf

abbrev win0_0 : Pipeline.Window sig grid0 :=
  Pipeline.Window.ofSpec (Memref.whole main_v22) S14x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg13) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S14x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x6 : Shape := ⟨2, ![6, 6]⟩
abbrev S4x3 : Shape := ⟨2, ![4, 3]⟩
abbrev S3x4 : Shape := ⟨2, ![3, 4]⟩
abbrev S1 : Shape := ⟨1, ![1]⟩
abbrev S2x40 : Shape := ⟨2, ![2, 40]⟩
abbrev S6x4096 : Shape := ⟨2, ![6, 4096]⟩
abbrev S4096 : Shape := ⟨1, ![4096]⟩
abbrev S3x4096 : Shape := ⟨2, ![3, 4096]⟩
abbrev S4x4096 : Shape := ⟨2, ![4, 4096]⟩
abbrev S1x4096 : Shape := ⟨2, ![1, 4096]⟩
abbrev S4096x8192 : Shape := ⟨2, ![4096, 8192]⟩
abbrev S8192 : Shape := ⟨1, ![8192]⟩
abbrev S8192x1 : Shape := ⟨2, ![8192, 1]⟩
abbrev S14x1 : Shape := ⟨2, ![14, 1]⟩
abbrev S_ : Shape := ⟨0, ![]⟩
abbrev S1x1 : Shape := ⟨2, ![1, 1]⟩
abbrev S14x4096 : Shape := ⟨2, ![14, 4096]⟩
abbrev S14 : Shape := ⟨1, ![14]⟩
abbrev S1x14 : Shape := ⟨2, ![1, 14]⟩
abbrev S2x14 : Shape := ⟨2, ![2, 14]⟩
abbrev S2x54 : Shape := ⟨2, ![2, 54]⟩
abbrev S1x54 : Shape := ⟨2, ![1, 54]⟩
abbrev S54 : Shape := ⟨1, ![54]⟩
abbrev S14x8192 : Shape := ⟨2, ![14, 8192]⟩
abbrev S54x1 : Shape := ⟨2, ![54, 1]⟩
abbrev S54x8192 : Shape := ⟨2, ![54, 8192]⟩
abbrev S1x8192 : Shape := ⟨2, ![1, 8192]⟩

abbrev nBuf : Space → Nat
  | .hbm => 189
  | .vmem => 0
  | .smem => 0
  | _ => 0

abbrev hbmTy0_0 (i : Nat) : BufTy := match i % 128 with
  | 0 => ⟨S6x6, .f32⟩
  | 1 => ⟨S4x3, .f32⟩
  | 2 => ⟨S3x4, .f32⟩
  | 3 => ⟨S1, .f32⟩
  | 4 => ⟨S2x40, .i32⟩
  | 5 => ⟨S6x4096, .f32⟩
  | 6 => ⟨S4096, .f32⟩
  | 7 => ⟨S3x4096, .f32⟩
  | 8 => ⟨S4096, .f32⟩
  | 9 => ⟨S4x4096, .f32⟩
  | 10 => ⟨S4096, .f32⟩
  | 11 => ⟨S1x4096, .f32⟩
  | 12 => ⟨S4096, .f32⟩
  | 13 => ⟨S4096x8192, .f32⟩
  | 14 => ⟨S8192, .f32⟩
  | 15 => ⟨S8192x1, .f32⟩
  | 16 => ⟨S1, .f32⟩
  | 17 => ⟨S14x1, .f32⟩
  | 18 => ⟨S1, .f32⟩
  | 19 => ⟨S6x4096, .f32⟩
  | 20 => ⟨S1x4096, .f32⟩
  | 21 => ⟨S6x4096, .f32⟩
  | 22 => ⟨S6x4096, .f32⟩
  | 23 => ⟨S_, .f32⟩
  | 24 => ⟨S6x4096, .f32⟩
  | 25 => ⟨S6x4096, .f32⟩
  | 26 => ⟨S4x4096, .f32⟩
  | 27 => ⟨S1x4096, .f32⟩
  | 28 => ⟨S4x4096, .f32⟩
  | 29 => ⟨S4x4096, .f32⟩
  | 30 => ⟨S_, .f32⟩
  | 31 => ⟨S4x4096, .f32⟩
  | 32 => ⟨S4x4096, .f32⟩
  | 33 => ⟨S3x4096, .f32⟩
  | 34 => ⟨S1x4096, .f32⟩
  | 35 => ⟨S3x4096, .f32⟩
  | 36 => ⟨S3x4096, .f32⟩
  | 37 => ⟨S_, .f32⟩
  | 38 => ⟨S3x4096, .f32⟩
  | 39 => ⟨S3x4096, .f32⟩
  | 40 => ⟨S_, .f32⟩
  | 41 => ⟨S1, .f32⟩
  | 42 => ⟨S1, .f32⟩
  | 43 => ⟨S1x1, .f32⟩
  | 44 => ⟨S1x4096, .f32⟩
  | 45 => ⟨S1x4096, .f32⟩
  | 46 => ⟨S1x4096, .f32⟩
  | 47 => ⟨S_, .f32⟩
  | 48 => ⟨S1x4096, .f32⟩
  | 49 => ⟨S1x4096, .f32⟩
  | 50 => ⟨S14x4096, .f32⟩
  | 51 => ⟨S14, .i32⟩
  | 52 => ⟨S1x14, .i32⟩
  | 53 => ⟨S1x14, .i32⟩
  | 54 => ⟨S2x14, .i32⟩
  | 55 => ⟨S2x54, .i32⟩
  | 56 => ⟨S1x54, .i32⟩
  | 57 => ⟨S54, .i32⟩
  | 58 => ⟨S1x54, .i32⟩
  | 59 => ⟨S54, .i32⟩
  | 60 => ⟨S14x8192, .f32⟩
  | 61 => ⟨S_, .f32⟩
  | 62 => ⟨S54, .f32⟩
  | 63 => ⟨S_, .f32⟩
  | 64 => ⟨S14, .f32⟩
  | 65 => ⟨S54x1, .i32⟩
  | 66 => ⟨S14, .f32⟩
  | 67 => ⟨S_, .f32⟩
  | 68 => ⟨S14, .f32⟩
  | 69 => ⟨S14, .i1⟩
  | 70 => ⟨S_, .f32⟩
  | 71 => ⟨S14, .f32⟩
  | 72 => ⟨S14, .f32⟩
  | 73 => ⟨S14, .f32⟩
  | 74 => ⟨S_, .f32⟩
  | 75 => ⟨S_, .f32⟩
  | 76 => ⟨S14, .f32⟩
  | 77 => ⟨S14, .f32⟩
  | 78 => ⟨S_, .i32⟩
  | 79 => ⟨S54, .i32⟩
  | 80 => ⟨S54, .i1⟩
  | 81 => ⟨S_, .i32⟩
  | 82 => ⟨S54, .i32⟩
  | 83 => ⟨S54, .i32⟩
  | 84 => ⟨S54, .i32⟩
  | 85 => ⟨S54x1, .i32⟩
  | 86 => ⟨S54, .f32⟩
  | 87 => ⟨S_, .i32⟩
  | 88 => ⟨S54, .i32⟩
  | 89 => ⟨S54, .i1⟩
  | 90 => ⟨S_, .i32⟩
  | 91 => ⟨S54, .i32⟩
  | 92 => ⟨S54, .i32⟩
  | 93 => ⟨S54, .i32⟩
  | 94 => ⟨S54x1, .i32⟩
  | 95 => ⟨S54, .f32⟩
  | 96 => ⟨S54, .f32⟩
  | 97 => ⟨S_, .i32⟩
  | 98 => ⟨S54, .i32⟩
  | 99 => ⟨S54, .i1⟩
  | 100 => ⟨S_, .i32⟩
  | 101 => ⟨S54, .i32⟩
  | 102 => ⟨S54, .i32⟩
  | 103 => ⟨S54, .i32⟩
  | 104 => ⟨S54x1, .i32⟩
  | 105 => ⟨S54x8192, .f32⟩
  | 106 => ⟨S54x1, .f32⟩
  | 107 => ⟨S54x8192, .f32⟩
  | 108 => ⟨S54x8192, .f32⟩
  | 109 => ⟨S_, .f32⟩
  | 110 => ⟨S14x8192, .f32⟩
  | 111 => ⟨S54x1, .i32⟩
  | 112 => ⟨S14x8192, .f32⟩
  | 113 => ⟨S1x8192, .f32⟩
  | 114 => ⟨S14x8192, .f32⟩
  | 115 => ⟨S14x8192, .f32⟩
  | 116 => ⟨S14, .i32⟩
  | 117 => ⟨S1x14, .i32⟩
  | 118 => ⟨S1x14, .i32⟩
  | 119 => ⟨S2x14, .i32⟩
  | 120 => ⟨S2x54, .i32⟩
  | 121 => ⟨S1x54, .i32⟩
  | 122 => ⟨S54, .i32⟩
  | 123 => ⟨S1x54, .i32⟩
  | 124 => ⟨S54, .i32⟩
  | 125 => ⟨S14x1, .f32⟩
  | 126 => ⟨S_, .f32⟩
  | 127 => ⟨S54, .f32⟩
  | _ => ⟨S6x6, .f32⟩

abbrev hbmTy0_1 (i : Nat) : BufTy := match i % 128 with
  | 0 => ⟨S_, .f32⟩
  | 1 => ⟨S14, .f32⟩
  | 2 => ⟨S54x1, .i32⟩
  | 3 => ⟨S14, .f32⟩
  | 4 => ⟨S_, .f32⟩
  | 5 => ⟨S14, .f32⟩
  | 6 => ⟨S14, .i1⟩
  | 7 => ⟨S_, .f32⟩
  | 8 => ⟨S14, .f32⟩
  | 9 => ⟨S14, .f32⟩
  | 10 => ⟨S14, .f32⟩
  | 11 => ⟨S_, .f32⟩
  | 12 => ⟨S_, .f32⟩
  | 13 => ⟨S14, .f32⟩
  | 14 => ⟨S14, .f32⟩
  | 15 => ⟨S_, .i32⟩
  | 16 => ⟨S54, .i32⟩
  | 17 => ⟨S54, .i1⟩
  | 18 => ⟨S_, .i32⟩
  | 19 => ⟨S54, .i32⟩
  | 20 => ⟨S54, .i32⟩
  | 21 => ⟨S54, .i32⟩
  | 22 => ⟨S54x1, .i32⟩
  | 23 => ⟨S54, .f32⟩
  | 24 => ⟨S_, .i32⟩
  | 25 => ⟨S54, .i32⟩
  | 26 => ⟨S54, .i1⟩
  | 27 => ⟨S_, .i32⟩
  | 28 => ⟨S54, .i32⟩
  | 29 => ⟨S54, .i32⟩
  | 30 => ⟨S54, .i32⟩
  | 31 => ⟨S54x1, .i32⟩
  | 32 => ⟨S54, .f32⟩
  | 33 => ⟨S54, .f32⟩
  | 34 => ⟨S_, .i32⟩
  | 35 => ⟨S54, .i32⟩
  | 36 => ⟨S54, .i1⟩
  | 37 => ⟨S_, .i32⟩
  | 38 => ⟨S54, .i32⟩
  | 39 => ⟨S54, .i32⟩
  | 40 => ⟨S54, .i32⟩
  | 41 => ⟨S54x1, .i32⟩
  | 42 => ⟨S54x1, .f32⟩
  | 43 => ⟨S54x1, .f32⟩
  | 44 => ⟨S54x1, .f32⟩
  | 45 => ⟨S_, .f32⟩
  | 46 => ⟨S14x1, .f32⟩
  | 47 => ⟨S54x1, .i32⟩
  | 48 => ⟨S14x1, .f32⟩
  | 49 => ⟨S1x1, .f32⟩
  | 50 => ⟨S14x1, .f32⟩
  | 51 => ⟨S14x1, .f32⟩
  | 52 => ⟨S1x14, .f32⟩
  | 53 => ⟨S1x1, .f32⟩
  | 54 => ⟨S1x1, .f32⟩
  | 55 => ⟨S1x1, .f32⟩
  | 56 => ⟨S_, .f32⟩
  | 57 => ⟨S1, .f32⟩
  | 58 => ⟨S_, .f32⟩
  | 59 => ⟨S1, .f32⟩
  | 60 => ⟨S1, .f32⟩
  | _ => ⟨S6x6, .f32⟩

abbrev hbmTy (i : Nat) : BufTy := match i / 128 with
  | 0 => hbmTy0_0 i
  | 1 => hbmTy0_1 i
  | _ => ⟨S6x6, .f32⟩

abbrev bufTy : (tb : Table) → Fin (tcTables nBuf tb) → BufTy
  | .hbm, ⟨i, _⟩ => hbmTy i
  | _, _ => ⟨S6x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call2_cst : Ref sig .tc := ⟨.hbm, 37, rfl⟩
abbrev main_call2_v0 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call3_cst : Ref sig .tc := ⟨.hbm, 47, rfl⟩
abbrev main_call3_v0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_0 : Ref sig .tc := ⟨.hbm, 61, rfl⟩
abbrev main_v33 : Ref sig .tc := ⟨.hbm, 62, rfl⟩
abbrev main_cst_1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_2 : Ref sig .tc := ⟨.hbm, 67, rfl⟩
abbrev main_v37 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_4 : Ref sig .tc := ⟨.hbm, 74, rfl⟩
abbrev main_call4_v0 : Ref sig .tc := ⟨.hbm, 75, rfl⟩
abbrev main_call4_v1 : Ref sig .tc := ⟨.hbm, 76, rfl⟩
abbrev main_v42 : Ref sig .tc := ⟨.hbm, 77, rfl⟩
abbrev main_c : Ref sig .tc := ⟨.hbm, 78, rfl⟩
abbrev main_v43 : Ref sig .tc := ⟨.hbm, 79, rfl⟩
abbrev main_v44 : Ref sig .tc := ⟨.hbm, 80, rfl⟩
abbrev main_c_5 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_6 : Ref sig .tc := ⟨.hbm, 87, rfl⟩
abbrev main_v50 : Ref sig .tc := ⟨.hbm, 88, rfl⟩
abbrev main_v51 : Ref sig .tc := ⟨.hbm, 89, rfl⟩
abbrev main_c_7 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_8 : Ref sig .tc := ⟨.hbm, 97, rfl⟩
abbrev main_v58 : Ref sig .tc := ⟨.hbm, 98, rfl⟩
abbrev main_v59 : Ref sig .tc := ⟨.hbm, 99, rfl⟩
abbrev main_c_9 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_10 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_11 : Ref sig .tc := ⟨.hbm, 126, rfl⟩
abbrev main_v84 : Ref sig .tc := ⟨.hbm, 127, rfl⟩
abbrev main_cst_12 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_13 : Ref sig .tc := ⟨.hbm, 132, rfl⟩
abbrev main_v88 : Ref sig .tc := ⟨.hbm, 133, rfl⟩
abbrev main_v89 : Ref sig .tc := ⟨.hbm, 134, rfl⟩
abbrev main_cst_14 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_15 : Ref sig .tc := ⟨.hbm, 139, rfl⟩
abbrev main_call5_v0 : Ref sig .tc := ⟨.hbm, 140, rfl⟩
abbrev main_call5_v1 : Ref sig .tc := ⟨.hbm, 141, rfl⟩
abbrev main_v93 : Ref sig .tc := ⟨.hbm, 142, rfl⟩
abbrev main_c_16 : Ref sig .tc := ⟨.hbm, 143, rfl⟩
abbrev main_v94 : Ref sig .tc := ⟨.hbm, 144, rfl⟩
abbrev main_v95 : Ref sig .tc := ⟨.hbm, 145, rfl⟩
abbrev main_c_17 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_18 : Ref sig .tc := ⟨.hbm, 152, rfl⟩
abbrev main_v101 : Ref sig .tc := ⟨.hbm, 153, rfl⟩
abbrev main_v102 : Ref sig .tc := ⟨.hbm, 154, rfl⟩
abbrev main_c_19 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_c_20 : Ref sig .tc := ⟨.hbm, 162, rfl⟩
abbrev main_v109 : Ref sig .tc := ⟨.hbm, 163, rfl⟩
abbrev main_v110 : Ref sig .tc := ⟨.hbm, 164, rfl⟩
abbrev main_c_21 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_22 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_23 : Ref sig .tc := ⟨.hbm, 184, rfl⟩
abbrev main_v128 : Ref sig .tc := ⟨.hbm, 185, rfl⟩
abbrev main_cst_24 : Ref sig .tc := ⟨.hbm, 186, rfl⟩
abbrev main_v129 : Ref sig .tc := ⟨.hbm, 187, rfl⟩
abbrev main_v130 : Ref sig .tc := ⟨.hbm, 188, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S6x4096_0_1 : S1x4096.BroadcastsInDim S6x4096 (![0, 1] : Fin 2 → Fin S6x4096.rank)
  bcast_S_S6x4096 : S_.BroadcastsInDim S6x4096 (![] : Fin 0 → Fin S6x4096.rank)
  bcast_S1x4096_S4x4096_0_1 : S1x4096.BroadcastsInDim S4x4096 (![0, 1] : Fin 2 → Fin S4x4096.rank)
  bcast_S_S4x4096 : S_.BroadcastsInDim S4x4096 (![] : Fin 0 → Fin S4x4096.rank)
  bcast_S1x4096_S3x4096_0_1 : S1x4096.BroadcastsInDim S3x4096 (![0, 1] : Fin 2 → Fin S3x4096.rank)
  bcast_S_S3x4096 : S_.BroadcastsInDim S3x4096 (![] : Fin 0 → Fin S3x4096.rank)
  bcast_S_S1 : S_.BroadcastsInDim S1 (![] : Fin 0 → Fin S1.rank)
  bcast_S1_S1x1_1 : S1.BroadcastsInDim S1x1 (![1] : Fin 1 → Fin S1x1.rank)
  bcast_S_S1x4096 : S_.BroadcastsInDim S1x4096 (![] : Fin 0 → Fin S1x4096.rank)
  concatenates_S6x4096_S4x4096_S3x4096_S1x4096_S14x4096_d0 : Shape.Concatenates [S6x4096, S4x4096, S3x4096, S1x4096] S14x4096 0
  bcast_S14_S1x14_1 : S14.BroadcastsInDim S1x14 (![1] : Fin 1 → Fin S1x14.rank)
  concatenates_S1x14_S1x14_S2x14_d0 : Shape.Concatenates [S1x14, S1x14] S2x14 0
  concatenates_S2x40_S2x14_S2x54_d1 : Shape.Concatenates [S2x40, S2x14] S2x54 1
  slices_S2x54_S1x54_0_0 : S2x54.Slices ![0, 0] S1x54
  shapeCasts_S1x54_S54 : S1x54.ShapeCasts S54
  slices_S2x54_S1x54_1_0 : S2x54.Slices ![1, 0] S1x54
  bcast_S_S54 : S_.BroadcastsInDim S54 (![] : Fin 0 → Fin S54.rank)
  bcast_S_S14 : S_.BroadcastsInDim S14 (![] : Fin 0 → Fin S14.rank)
  bcast_S54_S54x1_0 : S54.BroadcastsInDim S54x1 (![0] : Fin 1 → Fin S54x1.rank)
  bcast_S54x1_S54x8192_0_1 : S54x1.BroadcastsInDim S54x8192 (![0, 1] : Fin 2 → Fin S54x8192.rank)
  bcast_S_S14x8192 : S_.BroadcastsInDim S14x8192 (![] : Fin 0 → Fin S14x8192.rank)
  bcast_S8192_S1x8192_1 : S8192.BroadcastsInDim S1x8192 (![1] : Fin 1 → Fin S1x8192.rank)
  bcast_S1x8192_S14x8192_0_1 : S1x8192.BroadcastsInDim S14x8192 (![0, 1] : Fin 2 → Fin S14x8192.rank)
  bcast_S_S14x1 : S_.BroadcastsInDim S14x1 (![] : Fin 0 → Fin S14x1.rank)
  bcast_S1x1_S14x1_0_1 : S1x1.BroadcastsInDim S14x1 (![0, 1] : Fin 2 → Fin S14x1.rank)
  transposes_S14x1_S1x14_1_0 : S14x1.Transposes [1, 0] S1x14
  reducesTo_S1x1_S1_d0 : S1x1.ReducesTo [0] S1
  h_S_ : 0 < S_.numel
  dot_S6x6_S6x4096_S6x4096_1_0_0_1_n_n_wf : DotDims.WF S6x6 S6x4096 S6x4096 [1] [0] [0] [1] [] []
  dot_S4x3_S3x4096_S4x4096_1_0_0_1_n_n_wf : DotDims.WF S4x3 S3x4096 S4x4096 [1] [0] [0] [1] [] []
  dot_S3x4_S4x4096_S3x4096_1_0_0_1_n_n_wf : DotDims.WF S3x4 S4x4096 S3x4096 [1] [0] [0] [1] [] []
  dot_S1x1_S1x4096_S1x4096_1_0_0_1_n_n_wf : DotDims.WF S1x1 S1x4096 S1x4096 [1] [0] [0] [1] [] []
  dot_S14x4096_S4096x8192_S14x8192_1_0_0_1_n_n_wf : DotDims.WF S14x4096 S4096x8192 S14x8192 [1] [0] [0] [1] [] []
  scatter_S14_S54x1_S54_n_0_0_1_wf : ScatterDims.WF S14 S54x1 S54 [] [0] [0] 1
  gather_S14_S54x1_S54_n_0_n_n_0_1_1_wf : GatherDims.WF S14 S54x1 S54 [] [0] [] [0] [] 1 ![1]
  gather_S14x8192_S54x1_S54x8192_1_0_n_n_0_1_18192_wf : GatherDims.WF S14x8192 S54x1 S54x8192 [1] [0] [] [0] [] 1 ![1, 8192]
  scatter_S14x8192_S54x1_S54x8192_1_0_0_1_wf : ScatterDims.WF S14x8192 S54x1 S54x8192 [1] [0] [0] 1
  dot_S14x8192_S8192x1_S14x1_1_0_0_1_n_n_wf : DotDims.WF S14x8192 S8192x1 S14x1 [1] [0] [0] [1] [] []
  gather_S14x1_S54x1_S54x1_1_0_n_n_0_1_11_wf : GatherDims.WF S14x1 S54x1 S54x1 [1] [0] [] [0] [] 1 ![1, 1]
  scatter_S14x1_S54x1_S54x1_1_0_0_1_wf : ScatterDims.WF S14x1 S54x1 S54x1 [1] [0] [0] 1
  dot_S1x14_S14x1_S1x1_1_0_0_1_n_n_wf : DotDims.WF S1x14 S14x1 S1x1 [1] [0] [0] [1] [] []

variable [Facts₀]

def dot_S6x6_S6x4096_S6x4096_1_0_0_1_n_n : DotDims S6x6 S6x4096 S6x4096 where
  lhsContracting := [1]
  rhsContracting := [0]
  lhsNonContracting := [0]
  rhsNonContracting := [1]
  lhsBatch := []
  rhsBatch := []
  wf := dot_S6x6_S6x4096_S6x4096_1_0_0_1_n_n_wf
def dot_S4x3_S3x4096_S4x4096_1_0_0_1_n_n : DotDims S4x3 S3x4096 S4x4096 where
  lhsContracting := [1]
  rhsContracting := [0]
  lhsNonContracting := [0]
  rhsNonContracting := [1]
  lhsBatch := []
  rhsBatch := []
  wf := dot_S4x3_S3x4096_S4x4096_1_0_0_1_n_n_wf
def dot_S3x4_S4x4096_S3x4096_1_0_0_1_n_n : DotDims S3x4 S4x4096 S3x4096 where
  lhsContracting := [1]
  rhsContracting := [0]
  lhsNonContracting := [0]
  rhsNonContracting := [1]
  lhsBatch := []
  rhsBatch := []
  wf := dot_S3x4_S4x4096_S3x4096_1_0_0_1_n_n_wf
def dot_S1x1_S1x4096_S1x4096_1_0_0_1_n_n : DotDims S1x1 S1x4096 S1x4096 where
  lhsContracting := [1]
  rhsContracting := [0]
  lhsNonContracting := [0]
  rhsNonContracting := [1]
  lhsBatch := []
  rhsBatch := []
  wf := dot_S1x1_S1x4096_S1x4096_1_0_0_1_n_n_wf
def dot_S14x4096_S4096x8192_S14x8192_1_0_0_1_n_n : DotDims S14x4096 S4096x8192 S14x8192 where
  lhsContracting := [1]
  rhsContracting := [0]
  lhsNonContracting := [0]
  rhsNonContracting := [1]
  lhsBatch := []
  rhsBatch := []
  wf := dot_S14x4096_S4096x8192_S14x8192_1_0_0_1_n_n_wf
def scatter_S14_S54x1_S54_n_0_0_1 : ScatterDims S14 S54x1 S54 where
  updateWindowDims := []
  insertedWindowDims := [0]
  scatterDimsToOperandDims := [0]
  indexVectorDim := 1
  wf := scatter_S14_S54x1_S54_n_0_0_1_wf
def gather_S14_S54x1_S54_n_0_n_n_0_1_1 : GatherDims S14 S54x1 S54 where
  offsetDims := []
  collapsedSliceDims := [0]
  operandBatchingDims := []
  startIndicesBatchingDims := []
  startIndexMap := [0]
  indexVectorDim := 1
  sliceSizes := ![1]
  wf := gather_S14_S54x1_S54_n_0_n_n_0_1_1_wf
def gather_S14x8192_S54x1_S54x8192_1_0_n_n_0_1_18192 : GatherDims S14x8192 S54x1 S54x8192 where
  offsetDims := [1]
  collapsedSliceDims := [0]
  operandBatchingDims := []
  startIndicesBatchingDims := []
  startIndexMap := [0]
  indexVectorDim := 1
  sliceSizes := ![1, 8192]
  wf := gather_S14x8192_S54x1_S54x8192_1_0_n_n_0_1_18192_wf
def scatter_S14x8192_S54x1_S54x8192_1_0_0_1 : ScatterDims S14x8192 S54x1 S54x8192 where
  updateWindowDims := [1]
  insertedWindowDims := [0]
  scatterDimsToOperandDims := [0]
  indexVectorDim := 1
  wf := scatter_S14x8192_S54x1_S54x8192_1_0_0_1_wf
def dot_S14x8192_S8192x1_S14x1_1_0_0_1_n_n : DotDims S14x8192 S8192x1 S14x1 where
  lhsContracting := [1]
  rhsContracting := [0]
  lhsNonContracting := [0]
  rhsNonContracting := [1]
  lhsBatch := []
  rhsBatch := []
  wf := dot_S14x8192_S8192x1_S14x1_1_0_0_1_n_n_wf
def gather_S14x1_S54x1_S54x1_1_0_n_n_0_1_11 : GatherDims S14x1 S54x1 S54x1 where
  offsetDims := [1]
  collapsedSliceDims := [0]
  operandBatchingDims := []
  startIndicesBatchingDims := []
  startIndexMap := [0]
  indexVectorDim := 1
  sliceSizes := ![1, 1]
  wf := gather_S14x1_S54x1_S54x1_1_0_n_n_0_1_11_wf
def scatter_S14x1_S54x1_S54x1_1_0_0_1 : ScatterDims S14x1 S54x1 S54x1 where
  updateWindowDims := [1]
  insertedWindowDims := [0]
  scatterDimsToOperandDims := [0]
  indexVectorDim := 1
  wf := scatter_S14x1_S54x1_S54x1_1_0_0_1_wf
def dot_S1x14_S14x1_S1x1_1_0_0_1_n_n : DotDims S1x14 S14x1 S1x1 where
  lhsContracting := [1]
  rhsContracting := [0]
  lhsNonContracting := [0]
  rhsNonContracting := [1]
  lhsBatch := []
  rhsBatch := []
  wf := dot_S1x14_S14x1_S1x1_1_0_0_1_n_n_wf

class Facts : Prop extends Facts₀ where

variable [Facts]
-- ==== Proof.BodyBits.lean ====
/-
  The kernel body at one grid point, run on whole staging buffers.

  The body accumulates a product of a 14 x 512 block of the left operand with a 512 x 4096 block of the right operand into a
  14 x 4096 accumulator kept in a scratch buffer between grid points, and copies the accumulator to the output block at every
  point.  At the first point of a reduction sweep (coordinate zero along the contracted axis) the accumulator is first reset to
  zero.  So after the body both the scratch buffer and the output block hold

      acc' = acc + x * w        (acc = 0 at the first point of a sweep, the previous contents otherwise)

  which is the payload `k0_pay2 x w acc`.  Both statements hold at any instance of the float operations.
-/
import proofs.«155736_j85968065397069_2_alg».proof.Proof.Gen.Kernel.Launch
import proofs.«155736_j85968065397069_2_alg».proof.Proof.Gen.Kernel.Skeleton
import proofs.«155736_j85968065397069_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, read off the grid coordinates: the point is the first of its reduction sweep
    (its coordinate along the contracted axis is zero). -/
abbrev isFirst (i : grid0.Coords) : Prop :=
  (Scalar.cmpi .ne (Scalar.extui (Scalar.cmpi .eq (BitVec.ofNat 32 (i 1).val) 0#32)) 0#32) = 1#1

theorem hz00 : (![0, 0] : Fin 2 → Nat) = fun _ => 0 := funext fun a => by fin_cases a <;> rfl

/-- A whole-block load after one whole-block store reads what was stored. -/
theorem readCov_one (v : View sig .tc .vmem S14x4096 .f32) (p : Vec F S14x4096 .f32) :
    v.readCov [(⟨Rect.unit (s := S14x4096) ![0, 0] S14x4096.size inb_S14x4096_S14x4096_0_0, p⟩ : View.Piece (Elt F) S14x4096 .f32)]
      (Rect.unit (s := S14x4096) ![0, 0] S14x4096.size inb_S14x4096_S14x4096_0_0).toLoadRect = p :=
  View.readCov_unit_zero v hz00 _ p

/-- A whole-block load after two whole-block stores reads the later one. -/
theorem readCov_two (v : View sig .tc .vmem S14x4096 .f32) (p q : Vec F S14x4096 .f32) :
    v.readCov [(⟨Rect.unit (s := S14x4096) ![0, 0] S14x4096.size inb_S14x4096_S14x4096_0_0, p⟩ : View.Piece (Elt F) S14x4096 .f32),
        ⟨Rect.unit (s := S14x4096) ![0, 0] S14x4096.size inb_S14x4096_S14x4096_0_0, q⟩]
      (Rect.unit (s := S14x4096) ![0, 0] S14x4096.size inb_S14x4096_S14x4096_0_0).toLoadRect = p := by
  rw [View.readCov_eq_canon_ld _ _ _ (fun y => ⟨_, List.mem_cons_self .., View.mem_set_unit_zero hz00 inb_S14x4096_S14x4096_0_0 y⟩),
    View.canon_cons_unit_zero hz00, View.ld_unit_zero hz00]

set_option maxHeartbeats 1000000 in
theorem run_first (c : Dev nD) (i : grid0.Coords)
    (arg2 : Memref sig .tc .vmem S14x512 .f32) (harg2 : arg2.IsWhole)
    (arg3 : Memref sig .tc .vmem S512x4096 .f32) (harg3 : arg3.IsWhole)
    (arg4 : Memref sig .tc .vmem S14x4096 .f32) (harg4 : arg4.IsWhole)
    (arg5 : Memref sig .tc .vmem S14x4096 .f32) (harg5 : arg5.IsWhole)
    (hc : isFirst i)
    (x0 : Vec F S14x512 .f32) (x1 : Vec F S512x4096 .f32) (o s : Vec F S14x4096 .f32)
    (E : Set ℕ) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 (k0_pay1 (F := F)))
            ∗ owns (c : Thread nD τ) arg5 fullShare (k0_pay2 x0 x1 (k0_pay1 (F := F)))) -∗ K ⟨⟩))
      ⊢ wp frame (wpE (defs₀ (F := F)) Variants.none c none) E (cc0__g1_matmul_kernel i arg2 harg2 arg3 harg3 arg4 harg4 arg5 harg5) K := by
  simp only [cc0__g1_matmul_kernel_eq_skeleton]; unfold cc0__g1_matmul_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons_self .., View.mem_set_unit_zero hz00 inb_S14x4096_S14x4096_0_0 y⟩),
      View.canon_unit_zero hz00]
    sl_unfold_words
    try rw [readCov_two]
    try rw [readCov_one]
    simp only [View.readAt_eq_ld, harg2.read_unread, harg3.read_unread, harg5.read_unread,
      View.ld_unit_zero (S := S14x512) hz00, View.ld_unit_zero (S := S512x4096) hz00, View.ld_unit_zero (S := S14x4096) hz00]
  · iexists _; isplitr
    swap; · iexact H3
    ipureintro
    sl_unfold_words
    rw [View.read_writes_eq_canon _ _ _ (fun y => ⟨_, List.mem_cons_self .., View.mem_set_unit_zero hz00 inb_S14x4096_S14x4096_0_0 y⟩),
      View.canon_cons_unit_zero hz00]
    try rw [readCov_two]
    try rw [readCov_one]
    simp only [View.readAt_eq_ld, harg2.read_unread, harg3.read_unread, harg5.read_unread,
      View.ld_unit_zero (S := S14x512) hz00, View.ld_unit_zero (S := S512x4096) hz00, View.ld_unit_zero (S := S14x4096) hz00]

set_option maxHeartbeats 1000000 in
theorem run_later (c : Dev nD) (i : grid0.Coords)
    (arg2 : Memref sig .tc .vmem S14x512 .f32) (harg2 : arg2.IsWhole)
    (arg3 : Memref sig .tc .vmem S512x4096 .f32) (harg3 : arg3.IsWhole)
    (arg4 : Memref sig .tc .vmem S14x4096 .f32) (harg4 : arg4.IsWhole)
    (arg5 : Memref sig .tc .vmem S14x4096 .f32) (harg5 : arg5.IsWhole)
    (hc : ¬ isFirst i)
    (x0 : Vec F S14x512 .f32) (x1 : Vec F S512x4096 .f32) (o s : Vec F S14x4096 .f32)
    (E : Set ℕ) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 s)
            ∗ owns (c : Thread nD τ) arg5 fullShare (k0_pay2 x0 x1 s)) -∗ K ⟨⟩))
      ⊢ wp frame (wpE (defs₀ (F := F)) Variants.none c none) E (cc0__g1_matmul_kernel i arg2 harg2 arg3 harg3 arg4 harg4 arg5 harg5) K := by
  simp only [cc0__g1_matmul_kernel_eq_skeleton]; unfold cc0__g1_matmul_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons_self .., View.mem_set_unit_zero hz00 inb_S14x4096_S14x4096_0_0 y⟩),
      View.canon_unit_zero hz00]
    sl_unfold_words
    try rw [readCov_two]
    try rw [readCov_one]
    simp only [View.readAt_eq_ld, harg2.read_unread, harg3.read_unread, harg5.read_unread,
      View.ld_unit_zero (S := S14x512) hz00, View.ld_unit_zero (S := S512x4096) hz00, View.ld_unit_zero (S := S14x4096) hz00]
  · iexists _; isplitr
    swap; · iexact H3
    ipureintro
    sl_unfold_words
    rw [View.read_writes_eq_canon _ _ _ (fun y => ⟨_, List.mem_cons_self .., View.mem_set_unit_zero hz00 inb_S14x4096_S14x4096_0_0 y⟩),
      View.canon_cons_unit_zero hz00]
    try rw [readCov_two]
    try rw [readCov_one]
    simp only [View.readAt_eq_ld, harg2.read_unread, harg3.read_unread, harg5.read_unread,
      View.ld_unit_zero (S := S14x512) hz00, View.ld_unit_zero (S := S512x4096) hz00, View.ld_unit_zero (S := S14x4096) hz00]

end Cert.Kernel.Hand

end
-- ==== Proof.LaunchSideBits.lean ====
/-
  The host program around the one kernel launch, and what the launch needs to know about it.

  The program is: host operations computing the launch's operands (the left operand of the product among them), the launch,
  then host operations consuming its result.  `V` is what every buffer holds when the launch is reached.  The operations
  after the launch touch only unscoped buffers, allocate nothing, and never write one of the three arrays the launch stages
  (the two operands and the result).  The grid has 16 points, point t = 8 n + k being column block n of the result at
  step k of the sum over the contracted axis; the body's branch is taken exactly when k = 0.
-/
import proofs.«155736_j85968065397069_2_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "preOps" => ([hostOps0, hostOps0_1, hostOps0_2] : List (List (HloOp τ sig (Elt F))))
local notation "postOps" => ([hostOps1, hostOps1_1, hostOps1_2, hostOps1_3, hostOps1_4] : List (List (HloOp τ sig (Elt F))))

variable (m : (ℓ : Loc nD τ sig) → Buf (Elt F) ℓ) (ρ : Dev nD → PrngReg)

/-! ## The buffers when the launch is reached -/

abbrev V0 (c : Dev nD) : Valuation τ sig (Elt F) := StableHlo.after (List.flatten preOps) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the operations before the launch, the launch, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq postOps)) :=
  Pipeline.hmain_around cfgs 0 defs₀ 𝒱₀ m main preOps postOps
    ⟨hostOps0_sub, hostOps0_1_sub, hostOps0_2_sub⟩ ⟨hostOps0_fresh, hostOps0_1_fresh, hostOps0_2_fresh⟩ main_chain

/-! ## The operations after the launch -/

theorem sfx_sub : ∀ ops ∈ postOps, ∀ op ∈ ops, op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ postOps, ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 1600000 in
theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
set_option maxHeartbeats 1600000 in
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
set_option maxHeartbeats 1600000 in
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
set_option maxHeartbeats 1600000 in
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
set_option maxHeartbeats 1600000 in
theorem hostOps1_4_keeps : (hostOps1_4 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))

theorem sfx_keeps : ∀ ops ∈ postOps, ∀ op ∈ ops, ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand's staging buffer holds its block at every point, fetched there or not. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The grid -/

/-- The body's branch is taken at the first step of each sweep over the contracted axis. -/
theorem hfirst : ∀ t : Fin cfg0.N, isFirst (grid0.coords t) ↔ t.val % 8 = 0 :=
  (by decide +kernel : ∀ t : Fin grid0.N, isFirst (grid0.coords t) ↔ t.val % 8 = 0)

/-- No window is ever idle: the body reads both operands and stores the result block at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-- Each window's current staging buffer at point `t`, and the accumulator's scratch buffer. -/
abbrev ms_0 (t : Fin cfg0.N) : Memref sig .tc .vmem S14x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S14x4096 .f32 := win0_2.stage (cfg0.slots t 2)
abbrev hs_2 (t : Fin cfg0.N) : (ms_2 t).IsWhole := hstage0_2 ((cfg0.slots t 2).cast nbuf0_2)
abbrev scM : Memref sig .tc .vmem S14x4096 .f32 := Memref.whole cc0_scratch0

/-- What the launch lends the body besides the windows: the scratch buffer at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.DataBits.lean ====
/-
  The launch: what the accumulator and the result block hold after every grid point, and the run of the whole program.

  `acc n` is the accumulator after point n: at the first point of a sweep (n = 0 mod 8) the product of that point's operand
  blocks added to zero, at a later point that product added to what the point before left.  The scratch buffer and the result
  window's staging buffer both hold `acc n` after point n; the result window is written back at the last point of each sweep.
-/
import proofs.«155736_j85968065397069_2_alg».proof.Proof.LaunchSideBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "preOps" => ([hostOps0, hostOps0_1, hostOps0_2] : List (List (HloOp τ sig (Elt F))))
local notation "postOps" => ([hostOps1, hostOps1_1, hostOps1_2, hostOps1_3, hostOps1_4] : List (List (HloOp τ sig (Elt F))))

variable (m : (ℓ : Loc nD τ sig) → Buf (Elt F) ℓ) (ρ : Dev nD → PrngReg)

/-- The accumulator after point `n`. -/
def acc (c : Dev nD) : (n : ℕ) → n < cfg0.N → Vec F S14x4096 .f32
  | 0, hn => k0_pay2 (iblk m c 0 ⟨0, hn⟩) (iblk m c 1 ⟨0, hn⟩) (k0_pay1 (F := F))
  | n + 1, hn =>
    if (n + 1) % 8 = 0 then k0_pay2 (iblk m c 0 ⟨n + 1, hn⟩) (iblk m c 1 ⟨n + 1, hn⟩) (k0_pay1 (F := F))
    else k0_pay2 (iblk m c 0 ⟨n + 1, hn⟩) (iblk m c 1 ⟨n + 1, hn⟩) (acc c n (Nat.lt_of_succ_lt hn))

theorem acc_first (c : Dev nD) (t : Fin cfg0.N) (h : t.val % 8 = 0) :
    acc m c t.val t.isLt = k0_pay2 (iblk m c 0 t) (iblk m c 1 t) (k0_pay1 (F := F)) := by
  obtain ⟨n, hn⟩ := t
  cases n with
  | zero => rfl
  | succ n => exact if_pos h

theorem acc_later (c : Dev nD) (t : Fin cfg0.N) (h : ¬ t.val % 8 = 0) :
    acc m c t.val t.isLt = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h
  | succ n => exact if_neg h

/-- What the body may use besides the windows, before position `n`: before the first point the scratch buffer at anything,
    afterwards at the accumulator the point before left. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = acc m c t.val t.isLt := by dsimp only [dats]
theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks, the scratch buffer what the point before left (anything at
    the very first point, where the body resets it before reading it back), and the body leaves the new accumulator in the
    scratch buffer and in the result's staging buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  have hN : t.val < 16 := lt_of_lt_of_eq t.isLt (show cfg0.N = 16 from N_0)
  by_cases h0 : t.val % 8 = 0
  · rw [acc_first m c t h0]
    by_cases hz : t.val = 0
    · rw [PhiS_castSucc m c t, PhiS_zero m c _ _ hz, PhiA_eq]
      iintro ⟨⟨⟨%s, HS⟩, Hg⟩, Ho, ⟨%d0, H0⟩, ⟨%d1, H1⟩, ⟨%d2, H2⟩⟩
      iapply (run_first c (grid0.coords t) _ (hs_0 t) _ (hs_1 t) _ (hs_2 t) scM (Memref.isWhole_whole _) ((hfirst t).mpr h0)
        (iblk m c 0 t) (iblk m c 1 t) _ s Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · rw [PhiS_castSucc m c t, PhiS_pos m c _ _ hz]
      iintro ⟨⟨HS, Hg⟩, Ho, ⟨%d0, H0⟩, ⟨%d1, H1⟩, ⟨%d2, H2⟩⟩
      iapply (run_first c (grid0.coords t) _ (hs_0 t) _ (hs_1 t) _ (hs_2 t) scM (Memref.isWhole_whole _) ((hfirst t).mpr h0)
        (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
  · rw [acc_later m c t h0]
    have hz : t.val ≠ 0 := fun e => h0 (by rw [e])
    rw [PhiS_castSucc m c t, PhiS_pos m c _ _ hz]
    iintro ⟨⟨HS, Hg⟩, Ho, ⟨%d0, H0⟩, ⟨%d1, H1⟩, ⟨%d2, H2⟩⟩
    iapply (run_later c (grid0.coords t) _ (hs_0 t) _ (hs_1 t) _ (hs_2 t) scM (Memref.isWhole_whole _) (fun h => h0 ((hfirst t).mp h))
      (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run -/

set_option backward.isDefEq.respectTransparency.types false in
/-- Every weakly fair execution of the program terminates; afterwards each staged array holds what the proof data say, and
    every other unscoped buffer what the operations after the launch leave in it. -/
theorem run_main : θ_run defs (onTc (τ := τ) (main (F := F))) (s₀ m ρ)
    (Pipeline.FramePost cfgs (dats m) 0 (Pipeline.afterTail₀ cfgs (dats m) 0 (V0 m) postOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hin := hin m) (hout := hout m)

end Cert.Kernel.Hand

end
-- ==== Proof.KeptBits.lean ====
/-
  The program leaves its nineteen argument arrays as it found them.

  No host operation writes an argument array (each writes only its own result buffer); the launch stages exactly one
  argument array, the right operand of the product, as an input, and an input's array is never written.  So after the run
  every argument array holds what it held at the start.
-/
import proofs.«155736_j85968065397069_2_alg».proof.Proof.DataBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "preOps" => ([hostOps0, hostOps0_1, hostOps0_2] : List (List (HloOp τ sig (Elt F))))
local notation "postOps" => ([hostOps1, hostOps1_1, hostOps1_2, hostOps1_3, hostOps1_4] : List (List (HloOp τ sig (Elt F))))

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

set_option maxHeartbeats 1600000 in
theorem hostOps0_args : (hostOps0 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps0_1_args : (hostOps0_1 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps0_2_args : (hostOps0_2 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_args : (hostOps1 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_1_args : (hostOps1_1 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_2_args : (hostOps1_2 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_3_args : (hostOps1_3 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_4_args : (hostOps1_4 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))

theorem pre_keeps {r : Ref sig .tc} (hr : r ∈ argRefs) : ∀ op ∈ List.flatten preOps, Proc.devRef .tc r ∉ op.writes := by
  intro op hop
  obtain ⟨l, hl, hop⟩ := List.mem_flatten.mp hop
  simp only [List.mem_cons, List.mem_nil_iff, or_false] at hl
  rcases hl with rfl | rfl | rfl
  · exact (List.forall_iff_forall_mem.mp hostOps0_args) op hop r hr
  · exact (List.forall_iff_forall_mem.mp hostOps0_1_args) op hop r hr
  · exact (List.forall_iff_forall_mem.mp hostOps0_2_args) op hop r hr

theorem post_keeps {r : Ref sig .tc} (hr : r ∈ argRefs) : ∀ op ∈ List.flatten postOps, Proc.devRef .tc r ∉ op.writes := by
  intro op hop
  obtain ⟨l, hl, hop⟩ := List.mem_flatten.mp hop
  simp only [List.mem_cons, List.mem_nil_iff, or_false] at hl
  rcases hl with rfl | rfl | rfl | rfl | rfl
  · exact (List.forall_iff_forall_mem.mp hostOps1_args) op hop r hr
  · exact (List.forall_iff_forall_mem.mp hostOps1_1_args) op hop r hr
  · exact (List.forall_iff_forall_mem.mp hostOps1_2_args) op hop r hr
  · exact (List.forall_iff_forall_mem.mp hostOps1_3_args) op hop r hr
  · exact (List.forall_iff_forall_mem.mp hostOps1_4_args) op hop r hr

/-- An argument array the launch does not stage: untouched by the operations before and after the launch. -/
theorem kept {r : Ref sig .tc} (hr : r ∈ argRefs) (hne : ∀ w, Pipeline.arrRef spec0 w ≠ r) (c : Dev nD) :
    Pipeline.afterTail₀ cfgs (dats m) 0 (V0 m) postOps c r = m ((c : Thread nD τ).loc r) := by
  unfold Pipeline.afterTail₀
  rw [StableHlo.after_of_forall_not_mem _ _ (post_keeps hr), Pipeline.withArrays_of_ne _ _ _ _ r hne]
  exact StableHlo.after_of_forall_not_mem _ _ (pre_keeps hr)

/-- The right operand's array as the launch finds it is the argument array. -/
theorem V_arg13 (c : Dev nD) : V m c main_arg13 = m ((c : Thread nD τ).loc main_arg13) :=
  StableHlo.after_of_forall_not_mem _ _ (pre_keeps (r := main_arg13) (by decide))

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (kept m (r := main_arg0) (by decide) (by intro w; fin_cases w <;> decide) c),
    ((h c).2 main_arg1 (Pipeline.mem_restRefs_of main_arg1 (by decide) (by decide))).trans (kept m (r := main_arg1) (by decide) (by intro w; fin_cases w <;> decide) c),
    ((h c).2 main_arg2 (Pipeline.mem_restRefs_of main_arg2 (by decide) (by decide))).trans (kept m (r := main_arg2) (by decide) (by intro w; fin_cases w <;> decide) c),
    ((h c).2 main_arg3 (Pipeline.mem_restRefs_of main_arg3 (by decide) (by decide))).trans (kept m (r := main_arg3) (by decide) (by intro w; fin_cases w <;> decide) c),
    ((h c).2 main_arg4 (Pipeline.mem_restRefs_of main_arg4 (by decide) (by decide))).trans (kept m (r := main_arg4) (by decide) (by intro w; fin_cases w <;> decide) c),
    ((h c).2 main_arg5 (Pipeline.mem_restRefs_of main_arg5 (by decide) (by decide))).trans (kept m (r := main_arg5) (by decide) (by intro w; fin_cases w <;> decide) c),
    ((h c).2 main_arg6 (Pipeline.mem_restRefs_of main_arg6 (by decide) (by decide))).trans (kept m (r := main_arg6) (by decide) (by intro w; fin_cases w <;> decide) c),
    ((h c).2 main_arg7 (Pipeline.mem_restRefs_of main_arg7 (by decide) (by decide))).trans (kept m (r := main_arg7) (by decide) (by intro w; fin_cases w <;> decide) c),
    ((h c).2 main_arg8 (Pipeline.mem_restRefs_of main_arg8 (by decide) (by decide))).trans (kept m (r := main_arg8) (by decide) (by intro w; fin_cases w <;> decide) c),
    ((h c).2 main_arg9 (Pipeline.mem_restRefs_of main_arg9 (by decide) (by decide))).trans (kept m (r := main_arg9) (by decide) (by intro w; fin_cases w <;> decide) c),
    ((h c).2 main_arg10 (Pipeline.mem_restRefs_of main_arg10 (by decide) (by decide))).trans (kept m (r := main_arg10) (by decide) (by intro w; fin_cases w <;> decide) c),
    ((h c).2 main_arg11 (Pipeline.mem_restRefs_of main_arg11 (by decide) (by decide))).trans (kept m (r := main_arg11) (by decide) (by intro w; fin_cases w <;> decide) c),
    ((h c).2 main_arg12 (Pipeline.mem_restRefs_of main_arg12 (by decide) (by decide))).trans (kept m (r := main_arg12) (by decide) (by intro w; fin_cases w <;> decide) c),
    ((h c).1 1).trans (((dats m 0 c).arrAt_in 1 rfl _).trans ((A_eq m c 1).trans (V_arg13 m c))),
    ((h c).2 main_arg14 (Pipeline.mem_restRefs_of main_arg14 (by decide) (by decide))).trans (kept m (r := main_arg14) (by decide) (by intro w; fin_cases w <;> decide) c),
    ((h c).2 main_arg15 (Pipeline.mem_restRefs_of main_arg15 (by decide) (by decide))).trans (kept m (r := main_arg15) (by decide) (by intro w; fin_cases w <;> decide) c),
    ((h c).2 main_arg16 (Pipeline.mem_restRefs_of main_arg16 (by decide) (by decide))).trans (kept m (r := main_arg16) (by decide) (by intro w; fin_cases w <;> decide) c),
    ((h c).2 main_arg17 (Pipeline.mem_restRefs_of main_arg17 (by decide) (by decide))).trans (kept m (r := main_arg17) (by decide) (by intro w; fin_cases w <;> decide) c),
    ((h c).2 main_arg18 (Pipeline.mem_restRefs_of main_arg18 (by decide) (by decide))).trans (kept m (r := main_arg18) (by decide) (by intro w; fin_cases w <;> decide) c)⟩) (run_main m ρ)

end Cert.Kernel.Hand

end
-- ==== Proof.BodyIdeal.lean ====
/-
  The kernel body at one grid point, run on whole staging buffers.

  The body accumulates a product of a 14 x 512 block of the left operand with a 512 x 4096 block of the right operand into a
  14 x 4096 accumulator kept in a scratch buffer between grid points, and copies the accumulator to the output block at every
  point.  At the first point of a reduction sweep (coordinate zero along the contracted axis) the accumulator is first reset to
  zero.  So after the body both the scratch buffer and the output block hold

      acc' = acc + x * w        (acc = 0 at the first point of a sweep, the previous contents otherwise)

  which is the payload `k0_pay2 x w acc`.  Both statements hold at any instance of the float operations.
-/
import proofs.«155736_j85968065397069_2_alg».proof.Proof.Gen.KernelIdeal.Launch
import proofs.«155736_j85968065397069_2_alg».proof.Proof.Gen.KernelIdeal.Skeleton
import proofs.«155736_j85968065397069_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, read off the grid coordinates: the point is the first of its reduction sweep
    (its coordinate along the contracted axis is zero). -/
abbrev isFirst (i : grid0.Coords) : Prop :=
  (Scalar.cmpi .ne (Scalar.extui (Scalar.cmpi .eq (BitVec.ofNat 32 (i 1).val) 0#32)) 0#32) = 1#1

theorem hz00 : (![0, 0] : Fin 2 → Nat) = fun _ => 0 := funext fun a => by fin_cases a <;> rfl

/-- A whole-block load after one whole-block store reads what was stored. -/
theorem readCov_one (v : View sig .tc .vmem S14x4096 .f32) (p : Vec F S14x4096 .f32) :
    v.readCov [(⟨Rect.unit (s := S14x4096) ![0, 0] S14x4096.size inb_S14x4096_S14x4096_0_0, p⟩ : View.Piece (Elt F) S14x4096 .f32)]
      (Rect.unit (s := S14x4096) ![0, 0] S14x4096.size inb_S14x4096_S14x4096_0_0).toLoadRect = p :=
  View.readCov_unit_zero v hz00 _ p

/-- A whole-block load after two whole-block stores reads the later one. -/
theorem readCov_two (v : View sig .tc .vmem S14x4096 .f32) (p q : Vec F S14x4096 .f32) :
    v.readCov [(⟨Rect.unit (s := S14x4096) ![0, 0] S14x4096.size inb_S14x4096_S14x4096_0_0, p⟩ : View.Piece (Elt F) S14x4096 .f32),
        ⟨Rect.unit (s := S14x4096) ![0, 0] S14x4096.size inb_S14x4096_S14x4096_0_0, q⟩]
      (Rect.unit (s := S14x4096) ![0, 0] S14x4096.size inb_S14x4096_S14x4096_0_0).toLoadRect = p := by
  rw [View.readCov_eq_canon_ld _ _ _ (fun y => ⟨_, List.mem_cons_self .., View.mem_set_unit_zero hz00 inb_S14x4096_S14x4096_0_0 y⟩),
    View.canon_cons_unit_zero hz00, View.ld_unit_zero hz00]

set_option maxHeartbeats 1000000 in
theorem run_first (c : Dev nD) (i : grid0.Coords)
    (arg2 : Memref sig .tc .vmem S14x512 .f32) (harg2 : arg2.IsWhole)
    (arg3 : Memref sig .tc .vmem S512x4096 .f32) (harg3 : arg3.IsWhole)
    (arg4 : Memref sig .tc .vmem S14x4096 .f32) (harg4 : arg4.IsWhole)
    (arg5 : Memref sig .tc .vmem S14x4096 .f32) (harg5 : arg5.IsWhole)
    (hc : isFirst i)
    (x0 : Vec F S14x512 .f32) (x1 : Vec F S512x4096 .f32) (o s : Vec F S14x4096 .f32)
    (E : Set ℕ) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 (k0_pay1 (F := F)))
            ∗ owns (c : Thread nD τ) arg5 fullShare (k0_pay2 x0 x1 (k0_pay1 (F := F)))) -∗ K ⟨⟩))
      ⊢ wp frame (wpE (defs₀ (F := F)) Variants.none c none) E (cc0__g1_matmul_kernel i arg2 harg2 arg3 harg3 arg4 harg4 arg5 harg5) K := by
  simp only [cc0__g1_matmul_kernel_eq_skeleton]; unfold cc0__g1_matmul_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons_self .., View.mem_set_unit_zero hz00 inb_S14x4096_S14x4096_0_0 y⟩),
      View.canon_unit_zero hz00]
    sl_unfold_words
    try rw [readCov_two]
    try rw [readCov_one]
    simp only [View.readAt_eq_ld, harg2.read_unread, harg3.read_unread, harg5.read_unread,
      View.ld_unit_zero (S := S14x512) hz00, View.ld_unit_zero (S := S512x4096) hz00, View.ld_unit_zero (S := S14x4096) hz00]
  · iexists _; isplitr
    swap; · iexact H3
    ipureintro
    sl_unfold_words
    rw [View.read_writes_eq_canon _ _ _ (fun y => ⟨_, List.mem_cons_self .., View.mem_set_unit_zero hz00 inb_S14x4096_S14x4096_0_0 y⟩),
      View.canon_cons_unit_zero hz00]
    try rw [readCov_two]
    try rw [readCov_one]
    simp only [View.readAt_eq_ld, harg2.read_unread, harg3.read_unread, harg5.read_unread,
      View.ld_unit_zero (S := S14x512) hz00, View.ld_unit_zero (S := S512x4096) hz00, View.ld_unit_zero (S := S14x4096) hz00]

set_option maxHeartbeats 1000000 in
theorem run_later (c : Dev nD) (i : grid0.Coords)
    (arg2 : Memref sig .tc .vmem S14x512 .f32) (harg2 : arg2.IsWhole)
    (arg3 : Memref sig .tc .vmem S512x4096 .f32) (harg3 : arg3.IsWhole)
    (arg4 : Memref sig .tc .vmem S14x4096 .f32) (harg4 : arg4.IsWhole)
    (arg5 : Memref sig .tc .vmem S14x4096 .f32) (harg5 : arg5.IsWhole)
    (hc : ¬ isFirst i)
    (x0 : Vec F S14x512 .f32) (x1 : Vec F S512x4096 .f32) (o s : Vec F S14x4096 .f32)
    (E : Set ℕ) (K : PUnit → sProp 𝕄) :
    iprop(owns (c : Thread nD τ) arg2 fullShare x0 ∗ owns (c : Thread nD τ) arg3 fullShare x1
        ∗ owns (c : Thread nD τ) arg4 fullShare o ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 s)
            ∗ owns (c : Thread nD τ) arg5 fullShare (k0_pay2 x0 x1 s)) -∗ K ⟨⟩))
      ⊢ wp frame (wpE (defs₀ (F := F)) Variants.none c none) E (cc0__g1_matmul_kernel i arg2 harg2 arg3 harg3 arg4 harg4 arg5 harg5) K := by
  simp only [cc0__g1_matmul_kernel_eq_skeleton]; unfold cc0__g1_matmul_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons_self .., View.mem_set_unit_zero hz00 inb_S14x4096_S14x4096_0_0 y⟩),
      View.canon_unit_zero hz00]
    sl_unfold_words
    try rw [readCov_two]
    try rw [readCov_one]
    simp only [View.readAt_eq_ld, harg2.read_unread, harg3.read_unread, harg5.read_unread,
      View.ld_unit_zero (S := S14x512) hz00, View.ld_unit_zero (S := S512x4096) hz00, View.ld_unit_zero (S := S14x4096) hz00]
  · iexists _; isplitr
    swap; · iexact H3
    ipureintro
    sl_unfold_words
    rw [View.read_writes_eq_canon _ _ _ (fun y => ⟨_, List.mem_cons_self .., View.mem_set_unit_zero hz00 inb_S14x4096_S14x4096_0_0 y⟩),
      View.canon_cons_unit_zero hz00]
    try rw [readCov_two]
    try rw [readCov_one]
    simp only [View.readAt_eq_ld, harg2.read_unread, harg3.read_unread, harg5.read_unread,
      View.ld_unit_zero (S := S14x512) hz00, View.ld_unit_zero (S := S512x4096) hz00, View.ld_unit_zero (S := S14x4096) hz00]

end Cert.KernelIdeal.Hand

end
-- ==== Proof.LaunchSideIdeal.lean ====
/-
  The host program around the one kernel launch, and what the launch needs to know about it.

  The program is: host operations computing the launch's operands (the left operand of the product among them), the launch,
  then host operations consuming its result.  `V` is what every buffer holds when the launch is reached.  The operations
  after the launch touch only unscoped buffers, allocate nothing, and never write one of the three arrays the launch stages
  (the two operands and the result).  The grid has 16 points, point t = 8 n + k being column block n of the result at
  step k of the sum over the contracted axis; the body's branch is taken exactly when k = 0.
-/
import proofs.«155736_j85968065397069_2_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "preOps" => ([hostOps0, hostOps0_1, hostOps0_2] : List (List (HloOp τ sig (Elt F))))
local notation "postOps" => ([hostOps1, hostOps1_1, hostOps1_2, hostOps1_3, hostOps1_4] : List (List (HloOp τ sig (Elt F))))

variable (m : (ℓ : Loc nD τ sig) → Buf (Elt F) ℓ) (ρ : Dev nD → PrngReg)

/-! ## The buffers when the launch is reached -/

abbrev V0 (c : Dev nD) : Valuation τ sig (Elt F) := StableHlo.after (List.flatten preOps) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the operations before the launch, the launch, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq postOps)) :=
  Pipeline.hmain_around cfgs 0 defs₀ 𝒱₀ m main preOps postOps
    ⟨hostOps0_sub, hostOps0_1_sub, hostOps0_2_sub⟩ ⟨hostOps0_fresh, hostOps0_1_fresh, hostOps0_2_fresh⟩ main_chain

/-! ## The operations after the launch -/

theorem sfx_sub : ∀ ops ∈ postOps, ∀ op ∈ ops, op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ postOps, ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 1600000 in
theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
set_option maxHeartbeats 1600000 in
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
set_option maxHeartbeats 1600000 in
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
set_option maxHeartbeats 1600000 in
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
set_option maxHeartbeats 1600000 in
theorem hostOps1_4_keeps : (hostOps1_4 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))

theorem sfx_keeps : ∀ ops ∈ postOps, ∀ op ∈ ops, ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand's staging buffer holds its block at every point, fetched there or not. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The grid -/

/-- The body's branch is taken at the first step of each sweep over the contracted axis. -/
theorem hfirst : ∀ t : Fin cfg0.N, isFirst (grid0.coords t) ↔ t.val % 8 = 0 :=
  (by decide +kernel : ∀ t : Fin grid0.N, isFirst (grid0.coords t) ↔ t.val % 8 = 0)

/-- No window is ever idle: the body reads both operands and stores the result block at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-- Each window's current staging buffer at point `t`, and the accumulator's scratch buffer. -/
abbrev ms_0 (t : Fin cfg0.N) : Memref sig .tc .vmem S14x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S14x4096 .f32 := win0_2.stage (cfg0.slots t 2)
abbrev hs_2 (t : Fin cfg0.N) : (ms_2 t).IsWhole := hstage0_2 ((cfg0.slots t 2).cast nbuf0_2)
abbrev scM : Memref sig .tc .vmem S14x4096 .f32 := Memref.whole cc0_scratch0

/-- What the launch lends the body besides the windows: the scratch buffer at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.DataIdeal.lean ====
/-
  The launch: what the accumulator and the result block hold after every grid point, and the run of the whole program.

  `acc n` is the accumulator after point n: at the first point of a sweep (n = 0 mod 8) the product of that point's operand
  blocks added to zero, at a later point that product added to what the point before left.  The scratch buffer and the result
  window's staging buffer both hold `acc n` after point n; the result window is written back at the last point of each sweep.
-/
import proofs.«155736_j85968065397069_2_alg».proof.Proof.LaunchSideIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "preOps" => ([hostOps0, hostOps0_1, hostOps0_2] : List (List (HloOp τ sig (Elt F))))
local notation "postOps" => ([hostOps1, hostOps1_1, hostOps1_2, hostOps1_3, hostOps1_4] : List (List (HloOp τ sig (Elt F))))

variable (m : (ℓ : Loc nD τ sig) → Buf (Elt F) ℓ) (ρ : Dev nD → PrngReg)

/-- The accumulator after point `n`. -/
def acc (c : Dev nD) : (n : ℕ) → n < cfg0.N → Vec F S14x4096 .f32
  | 0, hn => k0_pay2 (iblk m c 0 ⟨0, hn⟩) (iblk m c 1 ⟨0, hn⟩) (k0_pay1 (F := F))
  | n + 1, hn =>
    if (n + 1) % 8 = 0 then k0_pay2 (iblk m c 0 ⟨n + 1, hn⟩) (iblk m c 1 ⟨n + 1, hn⟩) (k0_pay1 (F := F))
    else k0_pay2 (iblk m c 0 ⟨n + 1, hn⟩) (iblk m c 1 ⟨n + 1, hn⟩) (acc c n (Nat.lt_of_succ_lt hn))

theorem acc_first (c : Dev nD) (t : Fin cfg0.N) (h : t.val % 8 = 0) :
    acc m c t.val t.isLt = k0_pay2 (iblk m c 0 t) (iblk m c 1 t) (k0_pay1 (F := F)) := by
  obtain ⟨n, hn⟩ := t
  cases n with
  | zero => rfl
  | succ n => exact if_pos h

theorem acc_later (c : Dev nD) (t : Fin cfg0.N) (h : ¬ t.val % 8 = 0) :
    acc m c t.val t.isLt = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h
  | succ n => exact if_neg h

/-- What the body may use besides the windows, before position `n`: before the first point the scratch buffer at anything,
    afterwards at the accumulator the point before left. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = acc m c t.val t.isLt := by dsimp only [dats]
theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks, the scratch buffer what the point before left (anything at
    the very first point, where the body resets it before reading it back), and the body leaves the new accumulator in the
    scratch buffer and in the result's staging buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  have hN : t.val < 16 := lt_of_lt_of_eq t.isLt (show cfg0.N = 16 from N_0)
  by_cases h0 : t.val % 8 = 0
  · rw [acc_first m c t h0]
    by_cases hz : t.val = 0
    · rw [PhiS_castSucc m c t, PhiS_zero m c _ _ hz, PhiA_eq]
      iintro ⟨⟨⟨%s, HS⟩, Hg⟩, Ho, ⟨%d0, H0⟩, ⟨%d1, H1⟩, ⟨%d2, H2⟩⟩
      iapply (run_first c (grid0.coords t) _ (hs_0 t) _ (hs_1 t) _ (hs_2 t) scM (Memref.isWhole_whole _) ((hfirst t).mpr h0)
        (iblk m c 0 t) (iblk m c 1 t) _ s Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · rw [PhiS_castSucc m c t, PhiS_pos m c _ _ hz]
      iintro ⟨⟨HS, Hg⟩, Ho, ⟨%d0, H0⟩, ⟨%d1, H1⟩, ⟨%d2, H2⟩⟩
      iapply (run_first c (grid0.coords t) _ (hs_0 t) _ (hs_1 t) _ (hs_2 t) scM (Memref.isWhole_whole _) ((hfirst t).mpr h0)
        (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
  · rw [acc_later m c t h0]
    have hz : t.val ≠ 0 := fun e => h0 (by rw [e])
    rw [PhiS_castSucc m c t, PhiS_pos m c _ _ hz]
    iintro ⟨⟨HS, Hg⟩, Ho, ⟨%d0, H0⟩, ⟨%d1, H1⟩, ⟨%d2, H2⟩⟩
    iapply (run_later c (grid0.coords t) _ (hs_0 t) _ (hs_1 t) _ (hs_2 t) scM (Memref.isWhole_whole _) (fun h => h0 ((hfirst t).mp h))
      (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run -/

set_option backward.isDefEq.respectTransparency.types false in
/-- Every weakly fair execution of the program terminates; afterwards each staged array holds what the proof data say, and
    every other unscoped buffer what the operations after the launch leave in it. -/
theorem run_main : θ_run defs (onTc (τ := τ) (main (F := F))) (s₀ m ρ)
    (Pipeline.FramePost cfgs (dats m) 0 (Pipeline.afterTail₀ cfgs (dats m) 0 (V0 m) postOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hin := hin m) (hout := hout m)

end Cert.KernelIdeal.Hand

end
-- ==== Proof.KeptIdeal.lean ====
/-
  The program leaves its nineteen argument arrays as it found them.

  No host operation writes an argument array (each writes only its own result buffer); the launch stages exactly one
  argument array, the right operand of the product, as an input, and an input's array is never written.  So after the run
  every argument array holds what it held at the start.
-/
import proofs.«155736_j85968065397069_2_alg».proof.Proof.DataIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "preOps" => ([hostOps0, hostOps0_1, hostOps0_2] : List (List (HloOp τ sig (Elt F))))
local notation "postOps" => ([hostOps1, hostOps1_1, hostOps1_2, hostOps1_3, hostOps1_4] : List (List (HloOp τ sig (Elt F))))

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

set_option maxHeartbeats 1600000 in
theorem hostOps0_args : (hostOps0 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps0_1_args : (hostOps0_1 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps0_2_args : (hostOps0_2 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_args : (hostOps1 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_1_args : (hostOps1_1 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_2_args : (hostOps1_2 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_3_args : (hostOps1_3 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))
set_option maxHeartbeats 1600000 in
theorem hostOps1_4_args : (hostOps1_4 : List (HloOp τ sig (Elt F))).Forall fun op => ∀ r ∈ argRefs, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; exact StableHlo.devRef_ne_of_ne (by revert r; decide))

theorem pre_keeps {r : Ref sig .tc} (hr : r ∈ argRefs) : ∀ op ∈ List.flatten preOps, Proc.devRef .tc r ∉ op.writes := by
  intro op hop
  obtain ⟨l, hl, hop⟩ := List.mem_flatten.mp hop
  simp only [List.mem_cons, List.mem_nil_iff, or_false] at hl
  rcases hl with rfl | rfl | rfl
  · exact (List.forall_iff_forall_mem.mp hostOps0_args) op hop r hr
  · exact (List.forall_iff_forall_mem.mp hostOps0_1_args) op hop r hr
  · exact (List.forall_iff_forall_mem.mp hostOps0_2_args) op hop r hr

theorem post_keeps {r : Ref sig .tc} (hr : r ∈ argRefs) : ∀ op ∈ List.flatten postOps, Proc.devRef .tc r ∉ op.writes := by
  intro op hop
  obtain ⟨l, hl, hop⟩ := List.mem_flatten.mp hop
  simp only [List.mem_cons, List.mem_nil_iff, or_false] at hl
  rcases hl with rfl | rfl | rfl | rfl | rfl
  · exact (List.forall_iff_forall_mem.mp hostOps1_args) op hop r hr
  · exact (List.forall_iff_forall_mem.mp hostOps1_1_args) op hop r hr
  · exact (List.forall_iff_forall_mem.mp hostOps1_2_args) op hop r hr
  · exact (List.forall_iff_forall_mem.mp hostOps1_3_args) op hop r hr
  · exact (List.forall_iff_forall_mem.mp hostOps1_4_args) op hop r hr

/-- An argument array the launch does not stage: untouched by the operations before and after the launch. -/
theorem kept {r : Ref sig .tc} (hr : r ∈ argRefs) (hne : ∀ w, Pipeline.arrRef spec0 w ≠ r) (c : Dev nD) :
    Pipeline.afterTail₀ cfgs (dats m) 0 (V0 m) postOps c r = m ((c : Thread nD τ).loc r) := by
  unfold Pipeline.afterTail₀
  rw [StableHlo.after_of_forall_not_mem _ _ (post_keeps hr), Pipeline.withArrays_of_ne _ _ _ _ r hne]
  exact StableHlo.after_of_forall_not_mem _ _ (pre_keeps hr)

/-- The right operand's array as the launch finds it is the argument array. -/
theorem V_arg13 (c : Dev nD) : V m c main_arg13 = m ((c : Thread nD τ).loc main_arg13) :=
  StableHlo.after_of_forall_not_mem _ _ (pre_keeps (r := main_arg13) (by decide))

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (kept m (r := main_arg0) (by decide) (by intro w; fin_cases w <;> decide) c),
    ((h c).2 main_arg1 (Pipeline.mem_restRefs_of main_arg1 (by decide) (by decide))).trans (kept m (r := main_arg1) (by decide) (by intro w; fin_cases w <;> decide) c),
    ((h c).2 main_arg2 (Pipeline.mem_restRefs_of main_arg2 (by decide) (by decide))).trans (kept m (r := main_arg2) (by decide) (by intro w; fin_cases w <;> decide) c),
    ((h c).2 main_arg3 (Pipeline.mem_restRefs_of main_arg3 (by decide) (by decide))).trans (kept m (r := main_arg3) (by decide) (by intro w; fin_cases w <;> decide) c),
    ((h c).2 main_arg4 (Pipeline.mem_restRefs_of main_arg4 (by decide) (by decide))).trans (kept m (r := main_arg4) (by decide) (by intro w; fin_cases w <;> decide) c),
    ((h c).2 main_arg5 (Pipeline.mem_restRefs_of main_arg5 (by decide) (by decide))).trans (kept m (r := main_arg5) (by decide) (by intro w; fin_cases w <;> decide) c),
    ((h c).2 main_arg6 (Pipeline.mem_restRefs_of main_arg6 (by decide) (by decide))).trans (kept m (r := main_arg6) (by decide) (by intro w; fin_cases w <;> decide) c),
    ((h c).2 main_arg7 (Pipeline.mem_restRefs_of main_arg7 (by decide) (by decide))).trans (kept m (r := main_arg7) (by decide) (by intro w; fin_cases w <;> decide) c),
    ((h c).2 main_arg8 (Pipeline.mem_restRefs_of main_arg8 (by decide) (by decide))).trans (kept m (r := main_arg8) (by decide) (by intro w; fin_cases w <;> decide) c),
    ((h c).2 main_arg9 (Pipeline.mem_restRefs_of main_arg9 (by decide) (by decide))).trans (kept m (r := main_arg9) (by decide) (by intro w; fin_cases w <;> decide) c),
    ((h c).2 main_arg10 (Pipeline.mem_restRefs_of main_arg10 (by decide) (by decide))).trans (kept m (r := main_arg10) (by decide) (by intro w; fin_cases w <;> decide) c),
    ((h c).2 main_arg11 (Pipeline.mem_restRefs_of main_arg11 (by decide) (by decide))).trans (kept m (r := main_arg11) (by decide) (by intro w; fin_cases w <;> decide) c),
    ((h c).2 main_arg12 (Pipeline.mem_restRefs_of main_arg12 (by decide) (by decide))).trans (kept m (r := main_arg12) (by decide) (by intro w; fin_cases w <;> decide) c),
    ((h c).1 1).trans (((dats m 0 c).arrAt_in 1 rfl _).trans ((A_eq m c 1).trans (V_arg13 m c))),
    ((h c).2 main_arg14 (Pipeline.mem_restRefs_of main_arg14 (by decide) (by decide))).trans (kept m (r := main_arg14) (by decide) (by intro w; fin_cases w <;> decide) c),
    ((h c).2 main_arg15 (Pipeline.mem_restRefs_of main_arg15 (by decide) (by decide))).trans (kept m (r := main_arg15) (by decide) (by intro w; fin_cases w <;> decide) c),
    ((h c).2 main_arg16 (Pipeline.mem_restRefs_of main_arg16 (by decide) (by decide))).trans (kept m (r := main_arg16) (by decide) (by intro w; fin_cases w <;> decide) c),
    ((h c).2 main_arg17 (Pipeline.mem_restRefs_of main_arg17 (by decide) (by decide))).trans (kept m (r := main_arg17) (by decide) (by intro w; fin_cases w <;> decide) c),
    ((h c).2 main_arg18 (Pipeline.mem_restRefs_of main_arg18 (by decide) (by decide))).trans (kept m (r := main_arg18) (by decide) (by intro w; fin_cases w <;> decide) c)⟩) (run_main m ρ)

end Cert.KernelIdeal.Hand

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«155736_j85968065397069_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.PayIdeal.lean ====
/-
  The body's two payloads read at an entry, at the ideal values.

  The reset payload is the zero block.  The accumulation payload of an operand block x (14 x 512), an operand block w
  (512 x 4096) and an accumulator a (14 x 4096) is, at entry (p, q),

      a(p, q) + sum over k < 512 of x(p, k) * w(k, q)

  (the narrowing of the operands to a shorter float format is the identity on extended reals, and the matrix unit's product
  into a zero accumulator is the plain sum of products).
-/
import proofs.«155736_j85968065397069_2_alg».proof.Proof.Gen.KernelIdeal.Skeleton
import proofs.«155736_j85968065397069_2_alg».proof.Proof.LibMatmulSum
import proofs.«155736_j85968065397069_2_alg».proof.Proof.LibPlainLists
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx
open Cert.LibMatmulSum

theorem plain512 : Plain dot_S14x512_S512x4096_S14x4096_1_0_0_1_n_n := Plain.of_lists _ rfl rfl rfl rfl rfl rfl

/-- The reset payload is zero everywhere. -/
theorem pay1_at (p : Fin 14) (q : Fin 4096) : (k0_pay1 (F := Ideal)) (ix2 p q) = 0 := by
  unfold k0_pay1
  rw [shapeCast_self]
  exact Ideal.ofBits_zero_f32

/-- The accumulation payload at entry (p, q). -/
theorem pay2_at (x : Vec Ideal S14x512 .f32) (w : Vec Ideal S512x4096 .f32) (a : Vec Ideal S14x4096 .f32) (p : Fin 14) (q : Fin 4096) :
    k0_pay2 x w a (ix2 p q) = a (ix2 p q) + ∑ k : Fin 512, x (ix2 p k) * w (ix2 k q) := by
  unfold k0_pay2
  rw [shapeCast_self, addf_apply]
  refine congrArg (a (ix2 p q) + ·) ?_
  refine (matmul_zero_at plain512 none _ _ p q).trans ?_
  simp only [truncf_apply, shapeCast_self]

end Cert.KernelIdeal.Val

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«155736_j85968065397069_2_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.LibBlockedSum.lean ====
/-
  Sums over an initial segment of the naturals, cut into blocks: the first (n + 1) · B terms are the first n · B
  and the next B; and a sum whose terms vanish from N on may stop at N.
-/
import Mathlib.Algebra.BigOperators.Fin
import Mathlib.Algebra.BigOperators.Intervals

namespace Cert.LibBlockedSum

open Finset

/-- The first `(n + 1) · B` terms: the first `n · B`, then the block of `B` terms starting at `n · B`. -/
theorem sum_range_succ_block {M : Type*} [AddCommMonoid M] (f : ℕ → M) (B n : ℕ) :
    ∑ k ∈ range ((n + 1) * B), f k = ∑ k ∈ range (n * B), f k + ∑ j : Fin B, f (n * B + j.val) := by
  rw [Nat.succ_mul, sum_range_add, Fin.sum_univ_eq_sum_range (fun j => f (n * B + j)) B]

/-- Terms that vanish from `N` on contribute nothing. -/
theorem sum_range_of_zero_tail {M : Type*} [AddCommMonoid M] (f : ℕ → M) {N L : ℕ} (h : N ≤ L) (hz : ∀ k, N ≤ k → f k = 0) :
    ∑ k ∈ range L, f k = ∑ k ∈ range N, f k := by
  obtain ⟨d, rfl⟩ := Nat.exists_eq_add_of_le h
  rw [sum_range_add, sum_eq_zero (fun x _ => hz _ (Nat.le_add_right _ _)), add_zero]

end Cert.LibBlockedSum
-- ==== Proof.ValueIdeal.lean ====
/-
  What the launch leaves in its result array, at the ideal values: the plain matrix product of its two operand arrays.

  Write X (14 x 4096) for the left operand array and W (4096 x 8192) for the right one, as the launch finds them.  Point
  t = 8 n + k of the grid reads columns 512 k .. 512 k + 511 of X and the block of W at rows 512 k .. and columns 4096 n ..,
  so after point t the accumulator holds, at entry (p, q),

      sum over kk < 512 (k + 1) of X(p, kk) * W(kk, 4096 n + q)

  (by induction on the point: the first point of a sweep starts from zero, a later one adds its block of 512 terms to what
  the point before left; addition of extended reals is associative, so the blocks' sums join into one).  At the last point
  of a sweep (k = 7) that is the full sum over kk < 4096, which is entry (p, 4096 n + q) of the product X W, and that is
  the point where the result block is written back; the two written-back blocks cover the result array.
-/
import proofs.«155736_j85968065397069_2_alg».proof.Proof.DataIdeal
import proofs.«155736_j85968065397069_2_alg».proof.Proof.PayIdeal
import proofs.«155736_j85968065397069_2_alg».proof.Proof.LibHostDotSum
import proofs.«155736_j85968065397069_2_alg».proof.Proof.LibBlockedSum
import proofs.«155736_j85968065397069_2_alg».proof.Proof.Gen.ReferenceIdeal

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe
open Idealize.SL.Sem
open Idealize.ShloMosaic.Pipeline (Dat Cfg Window)
open Cert.LibMatmulSum Cert.LibBlockedSum

variable (m : (ℓ : Loc nD τ sig) → Buf (Elt Ideal) ℓ)

/-- The printed index maps over the grid: point t = 8 n + k reads column block k of the left operand, block (k, n) of the
    right operand, and holds column block n of the result. -/
theorem idx_facts : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

/-- The two operand arrays as the launch finds them, and their blocks at a point, as extended-real valued functions. -/
abbrev X (c : Dev nD) : S14x4096.Idx → EReal := V m c main_v22
abbrev W (c : Dev nD) : S4096x8192.Idx → EReal := V m c main_arg13
abbrev xb (c : Dev nD) (t : Fin cfg0.N) : S14x512.Idx → EReal := iblk m c 0 t
abbrev wb (c : Dev nD) (t : Fin cfg0.N) : S512x4096.Idx → EReal := iblk m c 1 t

/-- The left operand array with its column index a natural number (zero past the array). -/
def xf (c : Dev nD) (p : Fin 14) (k : ℕ) : EReal :=
  if h : k < 4096 then X m c (ix2 p ⟨k, h⟩) else 0
/-- The right operand array with natural-number indices (zero past the array). -/
def wf (c : Dev nD) (k j : ℕ) : EReal :=
  if h : k < 4096 ∧ j < 8192 then W m c (ix2 ⟨k, h.1⟩ ⟨j, h.2⟩) else 0

/-- The left operand's block at point t, at (p, k). -/
theorem iblk0_at (c : Dev nD) (t : Fin cfg0.N) (p : Fin 14) (k : Fin 512) :
    xb m c t (ix2 p k) = xf m c p (t.val % 8 * 512 + k.val) := by
  have hk := k.isLt
  have e : t.val % 8 * 512 + k.val < 4096 := by omega
  unfold xf; rw [dif_pos e]
  unfold xb iblk
  rw [View.read_apply]
  show X m c _ = X m c _
  congr 1
  funext a; apply Fin.ext
  match a with
  | ⟨0, _⟩ => show win0_0.index t (0 : Fin 2) * 14 + 1 * p.val = p.val; rw [(idx_facts t).1]; omega
  | ⟨1, _⟩ => show win0_0.index t (1 : Fin 2) * 512 + 1 * k.val = t.val % 8 * 512 + k.val; rw [(idx_facts t).2.1]; omega

/-- The right operand's block at point t, at (k, q). -/
theorem iblk1_at (c : Dev nD) (t : Fin cfg0.N) (k : Fin 512) (q : Fin 4096) :
    wb m c t (ix2 k q) = wf m c (t.val % 8 * 512 + k.val) (4096 * (t.val / 8) + q.val) := by
  have hk := k.isLt
  have hq := q.isLt
  have ht : t.val < 16 := lt_of_lt_of_eq t.isLt N_0
  have e : t.val % 8 * 512 + k.val < 4096 ∧ 4096 * (t.val / 8) + q.val < 8192 := by omega
  unfold wf; rw [dif_pos e]
  unfold wb iblk
  rw [View.read_apply]
  show W m c _ = W m c _
  congr 1
  funext a; apply Fin.ext
  match a with
  | ⟨0, _⟩ => show win0_1.index t (0 : Fin 2) * 512 + 1 * k.val = t.val % 8 * 512 + k.val; rw [(idx_facts t).2.2.1]; omega
  | ⟨1, _⟩ => show win0_1.index t (1 : Fin 2) * 4096 + 1 * q.val = 4096 * (t.val / 8) + q.val; rw [(idx_facts t).2.2.2.1]; omega

/-- The block of 512 products point t adds, as terms of the one long sum. -/
theorem block_sum (c : Dev nD) (t : Fin cfg0.N) (p : Fin 14) (q : Fin 4096) :
    (∑ k : Fin 512, xb m c t (ix2 p k) * wb m c t (ix2 k q))
      = ∑ k : Fin 512, xf m c p (t.val % 8 * 512 + k.val) * wf m c (t.val % 8 * 512 + k.val) (4096 * (t.val / 8) + q.val) :=
  Finset.sum_congr rfl fun k _ => congrArg₂ (· * ·) (iblk0_at m c t p k) (iblk1_at m c t k q)

/-- The accumulator after point n, at (p, q): the sum so far. -/
theorem acc_at (c : Dev nD) : ∀ (n : ℕ) (hn : n < cfg0.N) (p : Fin 14) (q : Fin 4096),
    acc m c n hn (ix2 p q) = ∑ k ∈ Finset.range ((n % 8 + 1) * 512), xf m c p k * wf m c k (4096 * (n / 8) + q.val) := by
  intro n
  induction n with
  | zero =>
    intro hn p q
    rw [acc_first m c ⟨0, hn⟩ rfl, pay2_at, pay1_at, zero_add]
    refine (block_sum m c ⟨0, hn⟩ p q).trans ?_
    rw [sum_range_succ_block (fun k => xf m c p k * wf m c k (4096 * (0 / 8) + q.val)) 512 (0 % 8)]
    simp only [Nat.zero_mod, Nat.zero_mul, Finset.range_zero, Finset.sum_empty, zero_add]
  | succ n ih =>
    intro hn p q
    by_cases h0 : (n + 1) % 8 = 0
    · rw [acc_first m c ⟨n + 1, hn⟩ h0, pay2_at, pay1_at, zero_add]
      refine (block_sum m c ⟨n + 1, hn⟩ p q).trans ?_
      rw [sum_range_succ_block (fun k => xf m c p k * wf m c k (4096 * ((n + 1) / 8) + q.val)) 512 ((n + 1) % 8)]
      simp only [h0, Nat.zero_mul, Finset.range_zero, Finset.sum_empty, zero_add]
    · rw [acc_later m c ⟨n + 1, hn⟩ h0, pay2_at]
      refine (congrArg (_ + ·) (block_sum m c ⟨n + 1, hn⟩ p q)).trans ?_
      have e1 : n % 8 + 1 = (n + 1) % 8 := by omega
      have e2 : n / 8 = (n + 1) / 8 := by omega
      rw [show acc m c ((⟨n + 1, hn⟩ : Fin cfg0.N).val - 1) _ (ix2 p q) = acc m c n (Nat.lt_of_succ_lt hn) (ix2 p q) from rfl,
        ih (Nat.lt_of_succ_lt hn) p q, e1, e2]
      exact (sum_range_succ_block (fun k => xf m c p k * wf m c k (4096 * ((n + 1) / 8) + q.val)) 512 ((n + 1) % 8)).symm

/-! ## The product -/

/-- The product of the two operand arrays as the launch finds them, as ONE host contraction. -/
def G (c : Dev nD) : S14x8192.Idx → EReal :=
  Host.dotGeneral (F := Ideal) (φ₁ := .f32) (φ₂ := .f32) Cert.ReferenceIdeal.dot_S14x4096_S4096x8192_S14x8192_1_0_0_1_n_n none
    (X m c) (W m c)

theorem plainR : Plain Cert.ReferenceIdeal.dot_S14x4096_S4096x8192_S14x8192_1_0_0_1_n_n := Plain.of_lists _ rfl rfl rfl rfl rfl rfl

theorem G_at (c : Dev nD) (p : Fin 14) (j : Fin 8192) :
    G m c (ix2 p j) = ∑ k : Fin 4096, X m c (ix2 p k) * W m c (ix2 k j) :=
  hostDot_at (φ₁ := .f32) (φ₂ := .f32) plainR none (X m c) (W m c) p j

/-- At the last point of a sweep the accumulator is the product's block. -/
theorem acc_eq_G (c : Dev nD) (t : Fin cfg0.N) (h7 : t.val % 8 = 7) (y : S14x4096.Idx) :
    acc m c t.val t.isLt y = G m c (((cfg0.win 2).blk t).view.emb y) := by
  obtain ⟨p, q, rfl⟩ : ∃ (p : Fin 14) (q : Fin 4096), y = ix2 p q := ⟨y 0, y 1, eq_ix2 y⟩
  have hq := q.isLt
  have ht : t.val < 16 := lt_of_lt_of_eq t.isLt N_0
  have hj : 4096 * (t.val / 8) + q.val < 8192 := by omega
  have hemb : ((cfg0.win 2).blk t).view.emb (ix2 p q) = ix2 p ⟨4096 * (t.val / 8) + q.val, hj⟩ := by
    funext a; apply Fin.ext
    match a with
    | ⟨0, _⟩ => show win0_2.index t (0 : Fin 2) * 14 + 1 * p.val = p.val; rw [(idx_facts t).2.2.2.2.1]; omega
    | ⟨1, _⟩ => show win0_2.index t (1 : Fin 2) * 4096 + 1 * q.val = 4096 * (t.val / 8) + q.val; rw [(idx_facts t).2.2.2.2.2]; omega
  rw [hemb, G_at, acc_at m c t.val t.isLt p q, h7]
  rw [show (7 + 1) * 512 = 4096 from rfl, ← Fin.sum_univ_eq_sum_range (fun k => xf m c p k * wf m c k (4096 * (t.val / 8) + q.val)) 4096]
  refine Finset.sum_congr rfl fun k _ => ?_
  unfold xf wf
  rw [dif_pos k.isLt, dif_pos ⟨k.isLt, hj⟩]

/-- What a write-back writes is the product's block. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  show (cfg0.win 2).cut (grid0.coords t) ((dats m 0 c).after 2 t) = _
  rw [after_2]
  funext j
  exact acc_eq_G m c t h7 j

theorem mem_blk (t : Fin cfg0.N) (i : S14x8192.Idx) :
    i ∈ ((cfg0.win 2).blk t).view.set ↔ ∀ a : Fin 2, win0_2.index t a * S14x4096.size a ≤ (i a).val ∧ (i a).val < win0_2.index t a * S14x4096.size a + S14x4096.size a := by
  show i ∈ ((View.whole main_v32).slice (win0_2.rect t)).set ↔ _
  rw [View.set_slice_whole, Rect.mem_set_unit]
  exact Iff.rfl

/-- Every entry of the result array lies in the block written back at the end of its column block's sweep. -/
theorem cover (i : S14x8192.Idx) : ∃ t : Fin cfg0.N, (cfg0.win 2).flush t = true ∧ i ∈ ((cfg0.win 2).blk t).view.set := by
  have h0 : (i 0).val < 14 := (i 0).isLt
  have h1 : (i 1).val < 8192 := (i 1).isLt
  have hN : cfg0.N = 16 := N_0
  have hlt : 8 * ((i 1).val / 4096) + 7 < cfg0.N := by omega
  obtain ⟨-, -, -, -, e4, e5⟩ := idx_facts ⟨8 * ((i 1).val / 4096) + 7, hlt⟩
  refine ⟨⟨8 * ((i 1).val / 4096) + 7, hlt⟩, (flush0_2 _).mpr (by show (8 * ((i 1).val / 4096) + 7) % 8 = 7; omega), ?_⟩
  rw [mem_blk]
  intro a
  match a with
  | ⟨0, _⟩ =>
    show win0_2.index ⟨8 * ((i 1).val / 4096) + 7, hlt⟩ (0 : Fin 2) * 14 ≤ (i 0).val ∧ (i 0).val < win0_2.index ⟨8 * ((i 1).val / 4096) + 7, hlt⟩ (0 : Fin 2) * 14 + 14
    rw [e4]; omega
  | ⟨1, _⟩ =>
    show win0_2.index ⟨8 * ((i 1).val / 4096) + 7, hlt⟩ (1 : Fin 2) * 4096 ≤ (i 1).val ∧ (i 1).val < win0_2.index ⟨8 * ((i 1).val / 4096) + 7, hlt⟩ (1 : Fin 2) * 4096 + 4096
    rw [e5]; dsimp only; omega

/-- The result array after the run is the product. -/
theorem final (c : Dev nD) : (dats m 0 c).arrAt 2 cfg0.N = G m c :=
  (dats m 0 c).arrAt_eq_of_cover 2 (G m c) (flushed_eq m c) cover

end Cert.KernelIdeal.Val

end
-- ==== Proof.EncDefs.lean ====
/-
  The first layer of the two programs: four small dense encoders with a rectifier, their outputs stacked into a
  14 x 4096 matrix.  The reference computes the four layers one by one and joins them along the rows; the kernel's
  program pads the four inputs into one block-diagonal 14 x 14 matrix, stacks the four weight matrices and the four
  repeated biases, and computes one product.  Here: the two composed terms.
-/
import proofs.«155736_j85968065397069_2_alg».proof.Proof.Gen.KernelIdeal
import proofs.«155736_j85968065397069_2_alg».proof.Proof.Gen.ReferenceIdeal
import Idealize.ShloMosaic.PureOps.Ideal

noncomputable section

namespace Cert.Enc

open Idealize.ShloMosaic

section Kernel
open Cert.KernelIdeal Cert.KernelIdeal.Gen

/-- The kernel program's first layer: one product of the block-diagonal input matrix with the stacked weights, plus the
    stacked biases, rectified. -/
def xK (a0 : FVec Ideal S6x6 .f32) (a1 : FVec Ideal S4x3 .f32) (a2 : FVec Ideal S3x4 .f32) (a3 : FVec Ideal S1 .f32)
    (a5 : FVec Ideal S6x4096 .f32) (a6 : FVec Ideal S4096 .f32) (a7 : FVec Ideal S3x4096 .f32) (a8 : FVec Ideal S4096 .f32)
    (a9 : FVec Ideal S4x4096 .f32) (a10 : FVec Ideal S4096 .f32) (a11 : FVec Ideal S1x4096 .f32) (a12 : FVec Ideal S4096 .f32) :
    FVec Ideal S14x4096 .f32 :=
  maximumf
    (addf
      (Host.dotGeneral dot_S14x14_S14x4096_S14x4096_1_0_0_1_n_n none
        (concatenate S14x14 0
          [⟨S6x14, concatenate S6x14 1 [⟨S6x6, a0⟩, ⟨S6x8, broadcastInDim S6x8 ![] bcast_S_S6x8 (constant S_ .f32 0x00000000#32)⟩] concatenates_S6x6_S6x8_S6x14_d1⟩,
           ⟨S4x14, concatenate S4x14 1 [⟨S4x6, broadcastInDim S4x6 ![] bcast_S_S4x6 (constant S_ .f32 0x00000000#32)⟩, ⟨S4x3, a1⟩, ⟨S4x5, broadcastInDim S4x5 ![] bcast_S_S4x5 (constant S_ .f32 0x00000000#32)⟩] concatenates_S4x6_S4x3_S4x5_S4x14_d1⟩,
           ⟨S3x14, concatenate S3x14 1 [⟨S3x9, broadcastInDim S3x9 ![] bcast_S_S3x9 (constant S_ .f32 0x00000000#32)⟩, ⟨S3x4, a2⟩, ⟨S3x1, broadcastInDim S3x1 ![] bcast_S_S3x1 (constant S_ .f32 0x00000000#32)⟩] concatenates_S3x9_S3x4_S3x1_S3x14_d1⟩,
           ⟨S1x14, concatenate S1x14 1 [⟨S1x13, broadcastInDim S1x13 ![] bcast_S_S1x13 (constant S_ .f32 0x00000000#32)⟩, ⟨S1x1, broadcastInDim S1x1 ![1] bcast_S1_S1x1_1 (Host.divf a3 (broadcastInDim S1 ![] bcast_S_S1 (constant S_ .f32 0x461C4000#32)))⟩] concatenates_S1x13_S1x1_S1x14_d1⟩]
          concatenates_S6x14_S4x14_S3x14_S1x14_S14x14_d0)
        (concatenate S14x4096 0 [⟨S6x4096, a5⟩, ⟨S3x4096, a7⟩, ⟨S4x4096, a9⟩, ⟨S1x4096, a11⟩] concatenates_S6x4096_S3x4096_S4x4096_S1x4096_S14x4096_d0))
      (concatenate S14x4096 0
        [⟨S6x4096, broadcastInDim S6x4096 ![1] bcast_S4096_S6x4096_1 a6⟩, ⟨S4x4096, broadcastInDim S4x4096 ![1] bcast_S4096_S4x4096_1 a8⟩,
         ⟨S3x4096, broadcastInDim S3x4096 ![1] bcast_S4096_S3x4096_1 a10⟩, ⟨S1x4096, broadcastInDim S1x4096 ![1] bcast_S4096_S1x4096_1 a12⟩]
        concatenates_S6x4096_S4x4096_S3x4096_S1x4096_S14x4096_d0))
    (broadcastInDim S14x4096 ![] bcast_S_S14x4096 (constant S_ .f32 0x00000000#32))

end Kernel

section Reference
open Cert.ReferenceIdeal Cert.ReferenceIdeal.Gen

/-- The reference's first layer: the four rectified layers joined along the rows. -/
def xR (a0 : FVec Ideal S6x6 .f32) (a1 : FVec Ideal S4x3 .f32) (a2 : FVec Ideal S3x4 .f32) (a3 : FVec Ideal S1 .f32)
    (a5 : FVec Ideal S6x4096 .f32) (a6 : FVec Ideal S4096 .f32) (a7 : FVec Ideal S3x4096 .f32) (a8 : FVec Ideal S4096 .f32)
    (a9 : FVec Ideal S4x4096 .f32) (a10 : FVec Ideal S4096 .f32) (a11 : FVec Ideal S1x4096 .f32) (a12 : FVec Ideal S4096 .f32) :
    FVec Ideal S14x4096 .f32 :=
  (concatenate S14x4096 0 [⟨S6x4096, (maximumf (addf (Host.dotGeneral dot_S6x6_S6x4096_S6x4096_1_0_0_1_n_n none a0 a5) (broadcastInDim S6x4096 ![0, 1] bcast_S1x4096_S6x4096_0_1 (broadcastInDim S1x4096 ![1] bcast_S4096_S1x4096_1 a6))) (broadcastInDim S6x4096 ![] bcast_S_S6x4096 (constant S_ .f32 0x00000000#32)))⟩, ⟨S4x4096, (maximumf (addf (Host.dotGeneral dot_S4x3_S3x4096_S4x4096_1_0_0_1_n_n none a1 a7) (broadcastInDim S4x4096 ![0, 1] bcast_S1x4096_S4x4096_0_1 (broadcastInDim S1x4096 ![1] bcast_S4096_S1x4096_1 a8))) (broadcastInDim S4x4096 ![] bcast_S_S4x4096 (constant S_ .f32 0x00000000#32)))⟩, ⟨S3x4096, (maximumf (addf (Host.dotGeneral dot_S3x4_S4x4096_S3x4096_1_0_0_1_n_n none a2 a9) (broadcastInDim S3x4096 ![0, 1] bcast_S1x4096_S3x4096_0_1 (broadcastInDim S1x4096 ![1] bcast_S4096_S1x4096_1 a10))) (broadcastInDim S3x4096 ![] bcast_S_S3x4096 (constant S_ .f32 0x00000000#32)))⟩, ⟨S1x4096, (maximumf (addf (Host.dotGeneral dot_S1x1_S1x4096_S1x4096_1_0_0_1_n_n none (broadcastInDim S1x1 ![1] bcast_S1_S1x1_1 (Host.divf a3 (broadcastInDim S1 ![] bcast_S_S1 (constant S_ .f32 0x461C4000#32)))) a11) (broadcastInDim S1x4096 ![1] bcast_S4096_S1x4096_1 a12)) (broadcastInDim S1x4096 ![] bcast_S_S1x4096 (constant S_ .f32 0x00000000#32)))⟩] concatenates_S6x4096_S4x4096_S3x4096_S1x4096_S14x4096_d0)

end Reference

end Cert.Enc

end
-- ==== Proof.LibJoinRead.lean ====
/-
  Readings at an index, at any extents, of the layout operations a layer of small dense encoders is written with:
  matrices joined along the rows or along the columns (the piece that holds the row or the column, at the row or the
  column counted from the piece's first), a vector repeated down the rows, a one-row matrix repeated down the rows, a
  scalar repeated everywhere, the zero scalar; and a finite sum over  m + n  positions cut after the first  m.
-/
import Idealize.ShloMosaic.Lib.Pipeline.Value
import Idealize.ShloMosaic.Lib.ValueIdx
import Idealize.ShloMosaic.Lib.IdealHost

noncomputable section

namespace Cert.EncRead

open Idealize.ShloMosaic Idealize.ShloMosaic.ValueIdx

variable {α : Type}

/-- Matrices of one width joined along the rows: entry (p, q) is piece k's entry (i, q), where the pieces before piece k
    have `pre` rows in all and p = pre + i. -/
theorem catRows_at {N w nk : ℕ} (xs : List ((s : Shape) × (s.Idx → α)))
    (h : Shape.Concatenates (xs.map (·.1)) ⟨2, ![N, w]⟩ 0) (k : ℕ) (hk : k < xs.length)
    (x : (⟨2, ![nk, w]⟩ : Shape).Idx → α) (hxk : xs[k] = ⟨⟨2, ![nk, w]⟩, x⟩) (pre : ℕ)
    (hpre : (((xs.take k).map (·.1)).map fun s => if h : s.rank = (⟨2, ![N, w]⟩ : Shape).rank then
        s.size ((0 : Fin (⟨2, ![N, w]⟩ : Shape).rank).cast h.symm) else 0).sum = pre)
    (p : Fin N) (q : Fin w) (i : Fin nk) (hp : pre + i.val = p.val) :
    concatenate ⟨2, ![N, w]⟩ 0 xs h (ix2 p q) = x (ix2 i q) :=
  concatenate_apply_piece 0 xs h (ix2 p q) k hk _ x hxk rfl pre hpre (ix2 i q)
    (fun b hb => match b, hb with
      | ⟨0, _⟩, hb => absurd rfl hb
      | ⟨1, _⟩, _ => rfl) hp

/-- Matrices of one height joined along the columns: entry (p, q) is piece k's entry (p, i), where the pieces before
    piece k have `pre` columns in all and q = pre + i. -/
theorem catCols_at {n W wk : ℕ} (xs : List ((s : Shape) × (s.Idx → α)))
    (h : Shape.Concatenates (xs.map (·.1)) ⟨2, ![n, W]⟩ 1) (k : ℕ) (hk : k < xs.length)
    (x : (⟨2, ![n, wk]⟩ : Shape).Idx → α) (hxk : xs[k] = ⟨⟨2, ![n, wk]⟩, x⟩) (pre : ℕ)
    (hpre : (((xs.take k).map (·.1)).map fun s => if h : s.rank = (⟨2, ![n, W]⟩ : Shape).rank then
        s.size ((1 : Fin (⟨2, ![n, W]⟩ : Shape).rank).cast h.symm) else 0).sum = pre)
    (p : Fin n) (q : Fin W) (i : Fin wk) (hq : pre + i.val = q.val) :
    concatenate ⟨2, ![n, W]⟩ 1 xs h (ix2 p q) = x (ix2 p i) :=
  concatenate_apply_piece 1 xs h (ix2 p q) k hk _ x hxk rfl pre hpre (ix2 p i)
    (fun b hb => match b, hb with
      | ⟨0, _⟩, _ => rfl
      | ⟨1, _⟩, hb => absurd rfl hb) hq

/-- A vector repeated down the rows: entry (p, c) is the vector's entry c. -/
theorem bcastRow_at {a b : ℕ} (v : (⟨1, ![b]⟩ : Shape).Idx → α)
    (h : (⟨1, ![b]⟩ : Shape).BroadcastsInDim ⟨2, ![a, b]⟩ ![1]) (p : Fin a) (c : Fin b) :
    broadcastInDim ⟨2, ![a, b]⟩ ![1] h v (ix2 p c) = v (ix1 c) :=
  broadcastInDim_apply _ h v (ix2 p c) (ix1 c) (fun ax => match ax with
    | ⟨0, _⟩ => by
      show c.val = if b = 1 then 0 else c.val
      split
      · have := c.isLt; omega
      · rfl)

/-- A one-row matrix repeated down the rows: entry (p, c) is the row's entry c. -/
theorem bcastOneRow_at {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v (ix2 p c) (ix2 (0 : Fin 1) c) (fun ax => match ax with
    | ⟨0, _⟩ => rfl
    | ⟨1, _⟩ => by
      show c.val = if b = 1 then 0 else c.val
      split
      · have := c.isLt; omega
      · rfl)

/-- A scalar repeated to any shape: every entry is the scalar. -/
theorem bcastScalar_at {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 (fun ax => ax.elim0)

/-- The zero scalar repeated to any shape, at the ideal values: every entry is zero. -/
theorem zeros_at {t : Shape} (h : (⟨0, ![]⟩ : Shape).BroadcastsInDim t ![]) (i : t.Idx) :
    broadcastInDim t ![] h (constant (F := Ideal) ⟨0, ![]⟩ .f32 0x00000000#32) i = (0 : EReal) :=
  (bcastScalar_at _ h i).trans Ideal.ofBits_zero_f32

/-- A sum over m + n positions: the first m, then the last n. -/
theorem sum_cut {N : ℕ} (m n : ℕ) (hN : m + n = N) (f : Fin N → EReal) :
    ∑ k, f k = ∑ k : Fin m, f ⟨k.val, by omega⟩ + ∑ k : Fin n, f ⟨m + k.val, by omega⟩ := by
  subst hN
  rw [Fin.sum_univ_add]
  rfl

end Cert.EncRead

end
-- ==== Proof.Encoders.lean ====
/-
  The two first layers are one matrix.

  Entry (p, q) of the kernel program's matrix is  max (sum over k < 14 of B(p, k) * W(k, q) + bias(p, q), 0),  where B is the
  block-diagonal 14 x 14 input matrix, W the four weight matrices stacked (rows 0-5, 6-8, 9-12, 13) and bias the four
  bias vectors repeated down their groups' rows (rows 0-5, 6-9, 10-12, 13).  Row p lies in one group; in that row B is
  zero outside the group's columns, and a zero factor makes the product zero in the extended reals whatever the other
  factor is, so the sum over 14 positions is the sum over the group's columns of input(p', k') * weight(k', q): the
  entry of the group's own small product that the reference computes.  Bias and rectifier agree entry by entry.
-/
import proofs.«155736_j85968065397069_2_alg».proof.Proof.EncDefs
import proofs.«155736_j85968065397069_2_alg».proof.Proof.LibJoinRead
import proofs.«155736_j85968065397069_2_alg».proof.Proof.LibHostDotSum
import proofs.«155736_j85968065397069_2_alg».proof.Proof.LibPlainLists

noncomputable section

namespace Cert.Enc

open Idealize.ShloMosaic Idealize.ShloMosaic.ValueIdx Cert.EncRead Cert.LibMatmulSum

/-- A sum over m + (n + r) positions of a function that is zero on the first m and on the last r positions. -/
theorem sum_mid {N : ℕ} (m n r : ℕ) (hN : m + (n + r) = N) (f : Fin N → EReal) (g : Fin n → EReal)
    (h0 : ∀ k : Fin m, f ⟨k.val, by omega⟩ = 0) (h1 : ∀ k : Fin n, f ⟨m + k.val, by omega⟩ = g k)
    (h2 : ∀ k : Fin r, f ⟨m + (n + k.val), by omega⟩ = 0) :
    ∑ k, f k = ∑ k, g k := by
  subst hN
  rw [sum_cut m (n + r) rfl f, sum_cut n r rfl (fun k : Fin (n + r) => f ⟨m + k.val, by omega⟩)]
  rw [Finset.sum_eq_zero (fun k _ => h0 k), Finset.sum_congr rfl (fun k _ => h1 k), Finset.sum_eq_zero (fun k _ => h2 k),
    zero_add, add_zero]

/-- The scaled power, as a 1 x 1 matrix. -/
def pw (a3 : FVec Ideal ⟨1, ![1]⟩ .f32) : FVec Ideal ⟨2, ![1, 1]⟩ .f32 :=
  broadcastInDim ⟨2, ![1, 1]⟩ ![1] Cert.KernelIdeal.Gen.bcast_S1_S1x1_1
    (Host.divf a3 (broadcastInDim ⟨1, ![1]⟩ ![] Cert.KernelIdeal.Gen.bcast_S_S1 (constant ⟨0, ![]⟩ .f32 0x461C4000#32)))

section Kernel
open Cert.KernelIdeal Cert.KernelIdeal.Gen

variable (a0 : FVec Ideal S6x6 .f32) (a1 : FVec Ideal S4x3 .f32) (a2 : FVec Ideal S3x4 .f32) (a3 : FVec Ideal S1 .f32)
    (a5 : FVec Ideal S6x4096 .f32) (a6 : FVec Ideal S4096 .f32) (a7 : FVec Ideal S3x4096 .f32) (a8 : FVec Ideal S4096 .f32)
    (a9 : FVec Ideal S4x4096 .f32) (a10 : FVec Ideal S4096 .f32) (a11 : FVec Ideal S1x4096 .f32) (a12 : FVec Ideal S4096 .f32)

/-- The pieces of the four padded row groups, left to right. -/
def colsMat : List ((s : Shape) × (s.Idx → Ideal .f32)) := [⟨S6x6, a0⟩, ⟨S6x8, broadcastInDim S6x8 ![] bcast_S_S6x8 (constant S_ .f32 0x00000000#32)⟩]
def colsCyl : List ((s : Shape) × (s.Idx → Ideal .f32)) := [⟨S4x6, broadcastInDim S4x6 ![] bcast_S_S4x6 (constant S_ .f32 0x00000000#32)⟩, ⟨S4x3, a1⟩, ⟨S4x5, broadcastInDim S4x5 ![] bcast_S_S4x5 (constant S_ .f32 0x00000000#32)⟩]
def colsPl : List ((s : Shape) × (s.Idx → Ideal .f32)) := [⟨S3x9, broadcastInDim S3x9 ![] bcast_S_S3x9 (constant S_ .f32 0x00000000#32)⟩, ⟨S3x4, a2⟩, ⟨S3x1, broadcastInDim S3x1 ![] bcast_S_S3x1 (constant S_ .f32 0x00000000#32)⟩]
def colsPw : List ((s : Shape) × (s.Idx → Ideal .f32)) := [⟨S1x13, broadcastInDim S1x13 ![] bcast_S_S1x13 (constant S_ .f32 0x00000000#32)⟩, ⟨S1x1, pw a3⟩]

/-- The four padded row groups, top to bottom. -/
def rowsBD : List ((s : Shape) × (s.Idx → Ideal .f32)) :=
  [⟨S6x14, concatenate S6x14 1 (colsMat a0) concatenates_S6x6_S6x8_S6x14_d1⟩,
   ⟨S4x14, concatenate S4x14 1 (colsCyl a1) concatenates_S4x6_S4x3_S4x5_S4x14_d1⟩,
   ⟨S3x14, concatenate S3x14 1 (colsPl a2) concatenates_S3x9_S3x4_S3x1_S3x14_d1⟩,
   ⟨S1x14, concatenate S1x14 1 (colsPw a3) concatenates_S1x13_S1x1_S1x14_d1⟩]

/-- The block-diagonal input matrix. -/
def BD : FVec Ideal S14x14 .f32 := concatenate S14x14 0 (rowsBD a0 a1 a2 a3) concatenates_S6x14_S4x14_S3x14_S1x14_S14x14_d0

/-- The four weight matrices, top to bottom, and their stack. -/
def rowsWS : List ((s : Shape) × (s.Idx → Ideal .f32)) := [⟨S6x4096, a5⟩, ⟨S3x4096, a7⟩, ⟨S4x4096, a9⟩, ⟨S1x4096, a11⟩]
def WS : FVec Ideal S14x4096 .f32 := concatenate S14x4096 0 (rowsWS a5 a7 a9 a11) concatenates_S6x4096_S3x4096_S4x4096_S1x4096_S14x4096_d0

/-- The four repeated biases, top to bottom, and their stack. -/
def rowsBS : List ((s : Shape) × (s.Idx → Ideal .f32)) :=
  [⟨S6x4096, broadcastInDim S6x4096 ![1] bcast_S4096_S6x4096_1 a6⟩, ⟨S4x4096, broadcastInDim S4x4096 ![1] bcast_S4096_S4x4096_1 a8⟩,
   ⟨S3x4096, broadcastInDim S3x4096 ![1] bcast_S4096_S3x4096_1 a10⟩, ⟨S1x4096, broadcastInDim S1x4096 ![1] bcast_S4096_S1x4096_1 a12⟩]
def BS : FVec Ideal S14x4096 .f32 := concatenate S14x4096 0 (rowsBS a6 a8 a10 a12) concatenates_S6x4096_S4x4096_S3x4096_S1x4096_S14x4096_d0

theorem plainK : Plain dot_S14x14_S14x4096_S14x4096_1_0_0_1_n_n := Plain.of_lists _ rfl rfl rfl rfl rfl rfl

/-- The kernel program's matrix at entry (p, q). -/
theorem xK_at (p : Fin 14) (q : Fin 4096) :
    xK a0 a1 a2 a3 a5 a6 a7 a8 a9 a10 a11 a12 (ix2 p q)
      = max ((∑ k : Fin 14, BD a0 a1 a2 a3 (ix2 p k) * WS a5 a7 a9 a11 (ix2 k q)) + BS a6 a8 a10 a12 (ix2 p q)) 0 := by
  have e1 := hostDot_at plainK none (BD a0 a1 a2 a3) (WS a5 a7 a9 a11) p q
  have e2 := zeros_at bcast_S_S14x4096 (ix2 p q)
  show max (Host.dotGeneral dot_S14x14_S14x4096_S14x4096_1_0_0_1_n_n none (BD a0 a1 a2 a3) (WS a5 a7 a9 a11) (ix2 p q)
      + BS a6 a8 a10 a12 (ix2 p q))
    (broadcastInDim S14x4096 ![] bcast_S_S14x4096 (constant (F := Ideal) S_ .f32 0x00000000#32) (ix2 p q)) = _
  rw [e1, e2]

/-! ### The stacked weights and biases, row group by row group -/

theorem WS_mat (k : Fin 14) (k' : Fin 6) (hk : 0 + k'.val = k.val) (q : Fin 4096) : WS a5 a7 a9 a11 (ix2 k q) = a5 (ix2 k' q) :=
  catRows_at (rowsWS a5 a7 a9 a11) concatenates_S6x4096_S3x4096_S4x4096_S1x4096_S14x4096_d0 0 (show 0 < 4 by decide) a5 rfl 0 rfl k q k' hk
theorem WS_cyl (k : Fin 14) (k' : Fin 3) (hk : 6 + k'.val = k.val) (q : Fin 4096) : WS a5 a7 a9 a11 (ix2 k q) = a7 (ix2 k' q) :=
  catRows_at (rowsWS a5 a7 a9 a11) concatenates_S6x4096_S3x4096_S4x4096_S1x4096_S14x4096_d0 1 (show 1 < 4 by decide) a7 rfl 6 rfl k q k' hk
theorem WS_pl (k : Fin 14) (k' : Fin 4) (hk : 9 + k'.val = k.val) (q : Fin 4096) : WS a5 a7 a9 a11 (ix2 k q) = a9 (ix2 k' q) :=
  catRows_at (rowsWS a5 a7 a9 a11) concatenates_S6x4096_S3x4096_S4x4096_S1x4096_S14x4096_d0 2 (show 2 < 4 by decide) a9 rfl 9 rfl k q k' hk
theorem WS_pw (k : Fin 14) (k' : Fin 1) (hk : 13 + k'.val = k.val) (q : Fin 4096) : WS a5 a7 a9 a11 (ix2 k q) = a11 (ix2 k' q) :=
  catRows_at (rowsWS a5 a7 a9 a11) concatenates_S6x4096_S3x4096_S4x4096_S1x4096_S14x4096_d0 3 (show 3 < 4 by decide) a11 rfl 13 rfl k q k' hk

theorem BS_mat (p : Fin 14) (i : Fin 6) (hp : 0 + i.val = p.val) (q : Fin 4096) : BS a6 a8 a10 a12 (ix2 p q) = a6 (ix1 q) :=
  (catRows_at (rowsBS a6 a8 a10 a12) concatenates_S6x4096_S4x4096_S3x4096_S1x4096_S14x4096_d0 0 (show 0 < 4 by decide) _ rfl 0 rfl p q i hp).trans (bcastRow_at a6 bcast_S4096_S6x4096_1 i q)
theorem BS_cyl (p : Fin 14) (i : Fin 4) (hp : 6 + i.val = p.val) (q : Fin 4096) : BS a6 a8 a10 a12 (ix2 p q) = a8 (ix1 q) :=
  (catRows_at (rowsBS a6 a8 a10 a12) concatenates_S6x4096_S4x4096_S3x4096_S1x4096_S14x4096_d0 1 (show 1 < 4 by decide) _ rfl 6 rfl p q i hp).trans (bcastRow_at a8 bcast_S4096_S4x4096_1 i q)
theorem BS_pl (p : Fin 14) (i : Fin 3) (hp : 10 + i.val = p.val) (q : Fin 4096) : BS a6 a8 a10 a12 (ix2 p q) = a10 (ix1 q) :=
  (catRows_at (rowsBS a6 a8 a10 a12) concatenates_S6x4096_S4x4096_S3x4096_S1x4096_S14x4096_d0 2 (show 2 < 4 by decide) _ rfl 10 rfl p q i hp).trans (bcastRow_at a10 bcast_S4096_S3x4096_1 i q)
theorem BS_pw (p : Fin 14) (i : Fin 1) (hp : 13 + i.val = p.val) (q : Fin 4096) : BS a6 a8 a10 a12 (ix2 p q) = a12 (ix1 q) :=
  (catRows_at (rowsBS a6 a8 a10 a12) concatenates_S6x4096_S4x4096_S3x4096_S1x4096_S14x4096_d0 3 (show 3 < 4 by decide) _ rfl 13 rfl p q i hp).trans (bcastRow_at a12 bcast_S4096_S1x4096_1 i q)

/-! ### The block-diagonal matrix, row group by row group and column block by column block -/

theorem BD_mat_in (p : Fin 14) (i : Fin 6) (hp : 0 + i.val = p.val) (k : Fin 14) (k' : Fin 6) (hk : 0 + k'.val = k.val) :
    BD a0 a1 a2 a3 (ix2 p k) = a0 (ix2 i k') :=
  (catRows_at (rowsBD a0 a1 a2 a3) concatenates_S6x14_S4x14_S3x14_S1x14_S14x14_d0 0 (show 0 < 4 by decide) _ rfl 0 rfl p k i hp).trans
    (catCols_at (colsMat a0) concatenates_S6x6_S6x8_S6x14_d1 0 (show 0 < 2 by decide) _ rfl 0 rfl i k k' hk)

theorem BD_mat_out (p : Fin 14) (i : Fin 6) (hp : 0 + i.val = p.val) (k : Fin 14) (k' : Fin 8) (hk : 6 + k'.val = k.val) :
    BD a0 a1 a2 a3 (ix2 p k) = 0 :=
  (catRows_at (rowsBD a0 a1 a2 a3) concatenates_S6x14_S4x14_S3x14_S1x14_S14x14_d0 0 (show 0 < 4 by decide) _ rfl 0 rfl p k i hp).trans
    ((catCols_at (colsMat a0) concatenates_S6x6_S6x8_S6x14_d1 1 (show 1 < 2 by decide) _ rfl 6 rfl i k k' hk).trans (zeros_at bcast_S_S6x8 _))

theorem BD_cyl_lo (p : Fin 14) (i : Fin 4) (hp : 6 + i.val = p.val) (k : Fin 14) (k' : Fin 6) (hk : 0 + k'.val = k.val) :
    BD a0 a1 a2 a3 (ix2 p k) = 0 :=
  (catRows_at (rowsBD a0 a1 a2 a3) concatenates_S6x14_S4x14_S3x14_S1x14_S14x14_d0 1 (show 1 < 4 by decide) _ rfl 6 rfl p k i hp).trans
    ((catCols_at (colsCyl a1) concatenates_S4x6_S4x3_S4x5_S4x14_d1 0 (show 0 < 3 by decide) _ rfl 0 rfl i k k' hk).trans (zeros_at bcast_S_S4x6 _))

theorem BD_cyl_in (p : Fin 14) (i : Fin 4) (hp : 6 + i.val = p.val) (k : Fin 14) (k' : Fin 3) (hk : 6 + k'.val = k.val) :
    BD a0 a1 a2 a3 (ix2 p k) = a1 (ix2 i k') :=
  (catRows_at (rowsBD a0 a1 a2 a3) concatenates_S6x14_S4x14_S3x14_S1x14_S14x14_d0 1 (show 1 < 4 by decide) _ rfl 6 rfl p k i hp).trans
    (catCols_at (colsCyl a1) concatenates_S4x6_S4x3_S4x5_S4x14_d1 1 (show 1 < 3 by decide) _ rfl 6 rfl i k k' hk)

theorem BD_cyl_hi (p : Fin 14) (i : Fin 4) (hp : 6 + i.val = p.val) (k : Fin 14) (k' : Fin 5) (hk : 9 + k'.val = k.val) :
    BD a0 a1 a2 a3 (ix2 p k) = 0 :=
  (catRows_at (rowsBD a0 a1 a2 a3) concatenates_S6x14_S4x14_S3x14_S1x14_S14x14_d0 1 (show 1 < 4 by decide) _ rfl 6 rfl p k i hp).trans
    ((catCols_at (colsCyl a1) concatenates_S4x6_S4x3_S4x5_S4x14_d1 2 (show 2 < 3 by decide) _ rfl 9 rfl i k k' hk).trans (zeros_at bcast_S_S4x5 _))

theorem BD_pl_lo (p : Fin 14) (i : Fin 3) (hp : 10 + i.val = p.val) (k : Fin 14) (k' : Fin 9) (hk : 0 + k'.val = k.val) :
    BD a0 a1 a2 a3 (ix2 p k) = 0 :=
  (catRows_at (rowsBD a0 a1 a2 a3) concatenates_S6x14_S4x14_S3x14_S1x14_S14x14_d0 2 (show 2 < 4 by decide) _ rfl 10 rfl p k i hp).trans
    ((catCols_at (colsPl a2) concatenates_S3x9_S3x4_S3x1_S3x14_d1 0 (show 0 < 3 by decide) _ rfl 0 rfl i k k' hk).trans (zeros_at bcast_S_S3x9 _))

theorem BD_pl_in (p : Fin 14) (i : Fin 3) (hp : 10 + i.val = p.val) (k : Fin 14) (k' : Fin 4) (hk : 9 + k'.val = k.val) :
    BD a0 a1 a2 a3 (ix2 p k) = a2 (ix2 i k') :=
  (catRows_at (rowsBD a0 a1 a2 a3) concatenates_S6x14_S4x14_S3x14_S1x14_S14x14_d0 2 (show 2 < 4 by decide) _ rfl 10 rfl p k i hp).trans
    (catCols_at (colsPl a2) concatenates_S3x9_S3x4_S3x1_S3x14_d1 1 (show 1 < 3 by decide) _ rfl 9 rfl i k k' hk)

theorem BD_pl_hi (p : Fin 14) (i : Fin 3) (hp : 10 + i.val = p.val) (k : Fin 14) (k' : Fin 1) (hk : 13 + k'.val = k.val) :
    BD a0 a1 a2 a3 (ix2 p k) = 0 :=
  (catRows_at (rowsBD a0 a1 a2 a3) concatenates_S6x14_S4x14_S3x14_S1x14_S14x14_d0 2 (show 2 < 4 by decide) _ rfl 10 rfl p k i hp).trans
    ((catCols_at (colsPl a2) concatenates_S3x9_S3x4_S3x1_S3x14_d1 2 (show 2 < 3 by decide) _ rfl 13 rfl i k k' hk).trans (zeros_at bcast_S_S3x1 _))

theorem BD_pw_lo (p : Fin 14) (i : Fin 1) (hp : 13 + i.val = p.val) (k : Fin 14) (k' : Fin 13) (hk : 0 + k'.val = k.val) :
    BD a0 a1 a2 a3 (ix2 p k) = 0 :=
  (catRows_at (rowsBD a0 a1 a2 a3) concatenates_S6x14_S4x14_S3x14_S1x14_S14x14_d0 3 (show 3 < 4 by decide) _ rfl 13 rfl p k i hp).trans
    ((catCols_at (colsPw a3) concatenates_S1x13_S1x1_S1x14_d1 0 (show 0 < 2 by decide) _ rfl 0 rfl i k k' hk).trans (zeros_at bcast_S_S1x13 _))

theorem BD_pw_in (p : Fin 14) (i : Fin 1) (hp : 13 + i.val = p.val) (k : Fin 14) (k' : Fin 1) (hk : 13 + k'.val = k.val) :
    BD a0 a1 a2 a3 (ix2 p k) = pw a3 (ix2 i k') :=
  (catRows_at (rowsBD a0 a1 a2 a3) concatenates_S6x14_S4x14_S3x14_S1x14_S14x14_d0 3 (show 3 < 4 by decide) _ rfl 13 rfl p k i hp).trans
    (catCols_at (colsPw a3) concatenates_S1x13_S1x1_S1x14_d1 1 (show 1 < 2 by decide) _ rfl 13 rfl i k k' hk)

end Kernel

section Reference
open Cert.ReferenceIdeal Cert.ReferenceIdeal.Gen

variable (a0 : FVec Ideal S6x6 .f32) (a1 : FVec Ideal S4x3 .f32) (a2 : FVec Ideal S3x4 .f32) (a3 : FVec Ideal S1 .f32)
    (a5 : FVec Ideal S6x4096 .f32) (a6 : FVec Ideal S4096 .f32) (a7 : FVec Ideal S3x4096 .f32) (a8 : FVec Ideal S4096 .f32)
    (a9 : FVec Ideal S4x4096 .f32) (a10 : FVec Ideal S4096 .f32) (a11 : FVec Ideal S1x4096 .f32) (a12 : FVec Ideal S4096 .f32)

theorem plainMat : Plain dot_S6x6_S6x4096_S6x4096_1_0_0_1_n_n := Plain.of_lists _ rfl rfl rfl rfl rfl rfl
theorem plainCyl : Plain dot_S4x3_S3x4096_S4x4096_1_0_0_1_n_n := Plain.of_lists _ rfl rfl rfl rfl rfl rfl
theorem plainPl : Plain dot_S3x4_S4x4096_S3x4096_1_0_0_1_n_n := Plain.of_lists _ rfl rfl rfl rfl rfl rfl
theorem plainPw : Plain dot_S1x1_S1x4096_S1x4096_1_0_0_1_n_n := Plain.of_lists _ rfl rfl rfl rfl rfl rfl

/-- The reference's four rectified layers, top to bottom. -/
def rowsR : List ((s : Shape) × (s.Idx → Ideal .f32)) :=
  [⟨S6x4096, (maximumf (addf (Host.dotGeneral dot_S6x6_S6x4096_S6x4096_1_0_0_1_n_n none a0 a5) (broadcastInDim S6x4096 ![0, 1] bcast_S1x4096_S6x4096_0_1 (broadcastInDim S1x4096 ![1] bcast_S4096_S1x4096_1 a6))) (broadcastInDim S6x4096 ![] bcast_S_S6x4096 (constant S_ .f32 0x00000000#32)))⟩, ⟨S4x4096, (maximumf (addf (Host.dotGeneral dot_S4x3_S3x4096_S4x4096_1_0_0_1_n_n none a1 a7) (broadcastInDim S4x4096 ![0, 1] bcast_S1x4096_S4x4096_0_1 (broadcastInDim S1x4096 ![1] bcast_S4096_S1x4096_1 a8))) (broadcastInDim S4x4096 ![] bcast_S_S4x4096 (constant S_ .f32 0x00000000#32)))⟩, ⟨S3x4096, (maximumf (addf (Host.dotGeneral dot_S3x4_S4x4096_S3x4096_1_0_0_1_n_n none a2 a9) (broadcastInDim S3x4096 ![0, 1] bcast_S1x4096_S3x4096_0_1 (broadcastInDim S1x4096 ![1] bcast_S4096_S1x4096_1 a10))) (broadcastInDim S3x4096 ![] bcast_S_S3x4096 (constant S_ .f32 0x00000000#32)))⟩, ⟨S1x4096, (maximumf (addf (Host.dotGeneral dot_S1x1_S1x4096_S1x4096_1_0_0_1_n_n none (broadcastInDim S1x1 ![1] bcast_S1_S1x1_1 (Host.divf a3 (broadcastInDim S1 ![] bcast_S_S1 (constant S_ .f32 0x461C4000#32)))) a11) (broadcastInDim S1x4096 ![1] bcast_S4096_S1x4096_1 a12)) (broadcastInDim S1x4096 ![] bcast_S_S1x4096 (constant S_ .f32 0x00000000#32)))⟩]

/-! ### The reference's matrix, row group by row group -/

theorem xR_mat (p : Fin 14) (i : Fin 6) (hp : 0 + i.val = p.val) (q : Fin 4096) :
    xR a0 a1 a2 a3 a5 a6 a7 a8 a9 a10 a11 a12 (ix2 p q) = max ((∑ k : Fin 6, a0 (ix2 i k) * a5 (ix2 k q)) + a6 (ix1 q)) 0 := by
  refine (catRows_at (rowsR a0 a1 a2 a3 a5 a6 a7 a8 a9 a10 a11 a12) concatenates_S6x4096_S4x4096_S3x4096_S1x4096_S14x4096_d0 0 (show 0 < 4 by decide) _ rfl 0 rfl p q i hp).trans ?_
  have e1 := hostDot_at plainMat none a0 a5 i q
  have e2 := bcastOneRow_at (broadcastInDim S1x4096 ![1] bcast_S4096_S1x4096_1 a6) bcast_S1x4096_S6x4096_0_1 i q
  have e3 := bcastRow_at a6 bcast_S4096_S1x4096_1 (0 : Fin 1) q
  have e4 := zeros_at bcast_S_S6x4096 (ix2 i q)
  show max (Host.dotGeneral dot_S6x6_S6x4096_S6x4096_1_0_0_1_n_n none a0 a5 (ix2 i q)
      + broadcastInDim S6x4096 ![0, 1] bcast_S1x4096_S6x4096_0_1 (broadcastInDim S1x4096 ![1] bcast_S4096_S1x4096_1 a6) (ix2 i q))
    (broadcastInDim S6x4096 ![] bcast_S_S6x4096 (constant (F := Ideal) S_ .f32 0x00000000#32) (ix2 i q)) = _
  rw [e1, e2, e3, e4]

theorem xR_cyl (p : Fin 14) (i : Fin 4) (hp : 6 + i.val = p.val) (q : Fin 4096) :
    xR a0 a1 a2 a3 a5 a6 a7 a8 a9 a10 a11 a12 (ix2 p q) = max ((∑ k : Fin 3, a1 (ix2 i k) * a7 (ix2 k q)) + a8 (ix1 q)) 0 := by
  refine (catRows_at (rowsR a0 a1 a2 a3 a5 a6 a7 a8 a9 a10 a11 a12) concatenates_S6x4096_S4x4096_S3x4096_S1x4096_S14x4096_d0 1 (show 1 < 4 by decide) _ rfl 6 rfl p q i hp).trans ?_
  have e1 := hostDot_at plainCyl none a1 a7 i q
  have e2 := bcastOneRow_at (broadcastInDim S1x4096 ![1] bcast_S4096_S1x4096_1 a8) bcast_S1x4096_S4x4096_0_1 i q
  have e3 := bcastRow_at a8 bcast_S4096_S1x4096_1 (0 : Fin 1) q
  have e4 := zeros_at bcast_S_S4x4096 (ix2 i q)
  show max (Host.dotGeneral dot_S4x3_S3x4096_S4x4096_1_0_0_1_n_n none a1 a7 (ix2 i q)
      + broadcastInDim S4x4096 ![0, 1] bcast_S1x4096_S4x4096_0_1 (broadcastInDim S1x4096 ![1] bcast_S4096_S1x4096_1 a8) (ix2 i q))
    (broadcastInDim S4x4096 ![] bcast_S_S4x4096 (constant (F := Ideal) S_ .f32 0x00000000#32) (ix2 i q)) = _
  rw [e1, e2, e3, e4]

theorem xR_pl (p : Fin 14) (i : Fin 3) (hp : 10 + i.val = p.val) (q : Fin 4096) :
    xR a0 a1 a2 a3 a5 a6 a7 a8 a9 a10 a11 a12 (ix2 p q) = max ((∑ k : Fin 4, a2 (ix2 i k) * a9 (ix2 k q)) + a10 (ix1 q)) 0 := by
  refine (catRows_at (rowsR a0 a1 a2 a3 a5 a6 a7 a8 a9 a10 a11 a12) concatenates_S6x4096_S4x4096_S3x4096_S1x4096_S14x4096_d0 2 (show 2 < 4 by decide) _ rfl 10 rfl p q i hp).trans ?_
  have e1 := hostDot_at plainPl none a2 a9 i q
  have e2 := bcastOneRow_at (broadcastInDim S1x4096 ![1] bcast_S4096_S1x4096_1 a10) bcast_S1x4096_S3x4096_0_1 i q
  have e3 := bcastRow_at a10 bcast_S4096_S1x4096_1 (0 : Fin 1) q
  have e4 := zeros_at bcast_S_S3x4096 (ix2 i q)
  show max (Host.dotGeneral dot_S3x4_S4x4096_S3x4096_1_0_0_1_n_n none a2 a9 (ix2 i q)
      + broadcastInDim S3x4096 ![0, 1] bcast_S1x4096_S3x4096_0_1 (broadcastInDim S1x4096 ![1] bcast_S4096_S1x4096_1 a10) (ix2 i q))
    (broadcastInDim S3x4096 ![] bcast_S_S3x4096 (constant (F := Ideal) S_ .f32 0x00000000#32) (ix2 i q)) = _
  rw [e1, e2, e3, e4]

theorem xR_pw (p : Fin 14) (i : Fin 1) (hp : 13 + i.val = p.val) (q : Fin 4096) :
    xR a0 a1 a2 a3 a5 a6 a7 a8 a9 a10 a11 a12 (ix2 p q) = max ((∑ k : Fin 1, pw a3 (ix2 i k) * a11 (ix2 k q)) + a12 (ix1 q)) 0 := by
  refine (catRows_at (rowsR a0 a1 a2 a3 a5 a6 a7 a8 a9 a10 a11 a12) concatenates_S6x4096_S4x4096_S3x4096_S1x4096_S14x4096_d0 3 (show 3 < 4 by decide) _ rfl 13 rfl p q i hp).trans ?_
  have e1 := hostDot_at plainPw none (pw a3) a11 i q
  have e3 := bcastRow_at a12 bcast_S4096_S1x4096_1 i q
  have e4 := zeros_at bcast_S_S1x4096 (ix2 i q)
  show max (Host.dotGeneral dot_S1x1_S1x4096_S1x4096_1_0_0_1_n_n none (pw a3) a11 (ix2 i q)
      + broadcastInDim S1x4096 ![1] bcast_S4096_S1x4096_1 a12 (ix2 i q))
    (broadcastInDim S1x4096 ![] bcast_S_S1x4096 (constant (F := Ideal) S_ .f32 0x00000000#32) (ix2 i q)) = _
  rw [e1, e3, e4]

end Reference

section Kernel
open Cert.KernelIdeal Cert.KernelIdeal.Gen

variable (a0 : FVec Ideal S6x6 .f32) (a1 : FVec Ideal S4x3 .f32) (a2 : FVec Ideal S3x4 .f32) (a3 : FVec Ideal S1 .f32)
    (a5 : FVec Ideal S6x4096 .f32) (a6 : FVec Ideal S4096 .f32) (a7 : FVec Ideal S3x4096 .f32) (a8 : FVec Ideal S4096 .f32)
    (a9 : FVec Ideal S4x4096 .f32) (a10 : FVec Ideal S4096 .f32) (a11 : FVec Ideal S1x4096 .f32) (a12 : FVec Ideal S4096 .f32)

/-! ### The kernel program's matrix, row group by row group -/

theorem xK_mat (p : Fin 14) (i : Fin 6) (hp : 0 + i.val = p.val) (q : Fin 4096) :
    xK a0 a1 a2 a3 a5 a6 a7 a8 a9 a10 a11 a12 (ix2 p q) = max ((∑ k : Fin 6, a0 (ix2 i k) * a5 (ix2 k q)) + a6 (ix1 q)) 0 := by
  rw [xK_at, BS_mat a6 a8 a10 a12 p i hp q,
    sum_mid 0 6 8 rfl (fun k : Fin 14 => BD a0 a1 a2 a3 (ix2 p k) * WS a5 a7 a9 a11 (ix2 k q)) (fun k : Fin 6 => a0 (ix2 i k) * a5 (ix2 k q))
      (fun k => k.elim0)
      (fun k => by
        show BD a0 a1 a2 a3 (ix2 p _) * WS a5 a7 a9 a11 (ix2 _ q) = _
        rw [BD_mat_in a0 a1 a2 a3 p i hp _ k rfl, WS_mat a5 a7 a9 a11 _ k rfl])
      (fun k => by
        show BD a0 a1 a2 a3 (ix2 p _) * WS a5 a7 a9 a11 (ix2 _ q) = _
        rw [BD_mat_out a0 a1 a2 a3 p i hp _ k (show 6 + k.val = 0 + (6 + k.val) by omega), zero_mul])]

theorem xK_cyl (p : Fin 14) (i : Fin 4) (hp : 6 + i.val = p.val) (q : Fin 4096) :
    xK a0 a1 a2 a3 a5 a6 a7 a8 a9 a10 a11 a12 (ix2 p q) = max ((∑ k : Fin 3, a1 (ix2 i k) * a7 (ix2 k q)) + a8 (ix1 q)) 0 := by
  rw [xK_at, BS_cyl a6 a8 a10 a12 p i hp q,
    sum_mid 6 3 5 rfl (fun k : Fin 14 => BD a0 a1 a2 a3 (ix2 p k) * WS a5 a7 a9 a11 (ix2 k q)) (fun k : Fin 3 => a1 (ix2 i k) * a7 (ix2 k q))
      (fun k => by
        show BD a0 a1 a2 a3 (ix2 p _) * WS a5 a7 a9 a11 (ix2 _ q) = _
        rw [BD_cyl_lo a0 a1 a2 a3 p i hp _ k (show 0 + k.val = k.val by omega), zero_mul])
      (fun k => by
        show BD a0 a1 a2 a3 (ix2 p _) * WS a5 a7 a9 a11 (ix2 _ q) = _
        rw [BD_cyl_in a0 a1 a2 a3 p i hp _ k rfl, WS_cyl a5 a7 a9 a11 _ k rfl])
      (fun k => by
        show BD a0 a1 a2 a3 (ix2 p _) * WS a5 a7 a9 a11 (ix2 _ q) = _
        rw [BD_cyl_hi a0 a1 a2 a3 p i hp _ k (show 9 + k.val = 6 + (3 + k.val) by omega), zero_mul])]

theorem xK_pl (p : Fin 14) (i : Fin 3) (hp : 10 + i.val = p.val) (q : Fin 4096) :
    xK a0 a1 a2 a3 a5 a6 a7 a8 a9 a10 a11 a12 (ix2 p q) = max ((∑ k : Fin 4, a2 (ix2 i k) * a9 (ix2 k q)) + a10 (ix1 q)) 0 := by
  rw [xK_at, BS_pl a6 a8 a10 a12 p i hp q,
    sum_mid 9 4 1 rfl (fun k : Fin 14 => BD a0 a1 a2 a3 (ix2 p k) * WS a5 a7 a9 a11 (ix2 k q)) (fun k : Fin 4 => a2 (ix2 i k) * a9 (ix2 k q))
      (fun k => by
        show BD a0 a1 a2 a3 (ix2 p _) * WS a5 a7 a9 a11 (ix2 _ q) = _
        rw [BD_pl_lo a0 a1 a2 a3 p i hp _ k (show 0 + k.val = k.val by omega), zero_mul])
      (fun k => by
        show BD a0 a1 a2 a3 (ix2 p _) * WS a5 a7 a9 a11 (ix2 _ q) = _
        rw [BD_pl_in a0 a1 a2 a3 p i hp _ k rfl, WS_pl a5 a7 a9 a11 _ k rfl])
      (fun k => by
        show BD a0 a1 a2 a3 (ix2 p _) * WS a5 a7 a9 a11 (ix2 _ q) = _
        rw [BD_pl_hi a0 a1 a2 a3 p i hp _ k (show 13 + k.val = 9 + (4 + k.val) by omega), zero_mul])]

theorem xK_pw (p : Fin 14) (i : Fin 1) (hp : 13 + i.val = p.val) (q : Fin 4096) :
    xK a0 a1 a2 a3 a5 a6 a7 a8 a9 a10 a11 a12 (ix2 p q) = max ((∑ k : Fin 1, pw a3 (ix2 i k) * a11 (ix2 k q)) + a12 (ix1 q)) 0 := by
  rw [xK_at, BS_pw a6 a8 a10 a12 p i hp q,
    sum_mid 13 1 0 rfl (fun k : Fin 14 => BD a0 a1 a2 a3 (ix2 p k) * WS a5 a7 a9 a11 (ix2 k q)) (fun k : Fin 1 => pw a3 (ix2 i k) * a11 (ix2 k q))
      (fun k => by
        show BD a0 a1 a2 a3 (ix2 p _) * WS a5 a7 a9 a11 (ix2 _ q) = _
        rw [BD_pw_lo a0 a1 a2 a3 p i hp _ k (show 0 + k.val = k.val by omega), zero_mul])
      (fun k => by
        show BD a0 a1 a2 a3 (ix2 p _) * WS a5 a7 a9 a11 (ix2 _ q) = _
        rw [BD_pw_in a0 a1 a2 a3 p i hp _ k rfl, WS_pw a5 a7 a9 a11 _ k rfl])
      (fun k => k.elim0)]

/-- **The two first layers are the same matrix.** -/
theorem xK_eq_xR : xK a0 a1 a2 a3 a5 a6 a7 a8 a9 a10 a11 a12 = xR a0 a1 a2 a3 a5 a6 a7 a8 a9 a10 a11 a12 := by
  funext j
  obtain ⟨p, q, rfl⟩ : ∃ (p : Fin 14) (q : Fin 4096), j = ix2 p q := ⟨j 0, j 1, eq_ix2 j⟩
  by_cases h1 : p.val < 6
  · have hp : 0 + p.val = p.val := Nat.zero_add _
    exact (xK_mat a0 a1 a2 a3 a5 a6 a7 a8 a9 a10 a11 a12 p ⟨p.val, h1⟩ hp q).trans (xR_mat a0 a1 a2 a3 a5 a6 a7 a8 a9 a10 a11 a12 p ⟨p.val, h1⟩ hp q).symm
  by_cases h2 : p.val < 10
  · have hp : 6 + (p.val - 6) = p.val := by omega
    exact (xK_cyl a0 a1 a2 a3 a5 a6 a7 a8 a9 a10 a11 a12 p ⟨p.val - 6, by omega⟩ hp q).trans (xR_cyl a0 a1 a2 a3 a5 a6 a7 a8 a9 a10 a11 a12 p ⟨p.val - 6, by omega⟩ hp q).symm
  by_cases h3 : p.val < 13
  · have hp : 10 + (p.val - 10) = p.val := by omega
    exact (xK_pl a0 a1 a2 a3 a5 a6 a7 a8 a9 a10 a11 a12 p ⟨p.val - 10, by omega⟩ hp q).trans (xR_pl a0 a1 a2 a3 a5 a6 a7 a8 a9 a10 a11 a12 p ⟨p.val - 10, by omega⟩ hp q).symm
  · have hp : 13 + (p.val - 13) = p.val := by omega
    have hlt : p.val - 13 < 1 := by have := p.isLt; omega
    exact (xK_pw a0 a1 a2 a3 a5 a6 a7 a8 a9 a10 a11 a12 p ⟨p.val - 13, hlt⟩ hp q).trans (xR_pw a0 a1 a2 a3 a5 a6 a7 a8 a9 a10 a11 a12 p ⟨p.val - 13, hlt⟩ hp q).symm

end Kernel

end Cert.Enc

end
-- ==== Proof.EncodersK.lean ====
/-
  The host operations the kernel program runs before its launch leave, in the launch's left operand, the first layer's
  matrix: the operations' composed term is the term `Cert.Enc.xK` of the arguments' contents.
-/
import proofs.«155736_j85968065397069_2_alg».proof.Proof.EncDefs
import proofs.«155736_j85968065397069_2_alg».proof.Proof.Gen.KernelIdeal.Launch
import Idealize.ShloMosaic.Lib.StableHlo.Run

set_option maxRecDepth 16384

noncomputable section

namespace Cert.Enc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-- After the host operations that precede the launch, the buffer the launch reads as its left operand holds the first
    layer's matrix. -/
theorem v22_eq (m : (ℓ : Loc nD τ sig) → Buf (Elt Ideal) ℓ) (c : Dev nD) :
    StableHlo.after (List.flatten [hostOps0, hostOps0_1, hostOps0_2]) (fun b => m (c, b)) (Proc.devRef .tc main_v22)
      = xK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  simp only [hostOps0, hostOps0_1, hostOps0_2, List.flatten_cons, List.flatten_nil, List.append_nil, List.cons_append, List.nil_append]
  after_results
  rfl

end Cert.Enc

end
-- ==== Proof.TailEq.lean ====
/-
  The two programs compute the same result, at the ideal values.

  Seen from the host, the launch is one operation: it leaves its two operand arrays as they were and puts their product into
  its result array.  So the kernel program's result is what a straight line of host operations computes from the argument
  arrays: the operations before the launch, that product, the operations after the launch.  The reference is such a straight
  line too, and the two lines differ in one place only: the kernel program builds the 14 x 4096 feature matrix by one product
  of a block-diagonal matrix with the stacked weights, the reference by four small products joined along the rows; these are
  the same matrix.  Everything after that matrix is the same chain of operations on both sides.
-/
import proofs.«155736_j85968065397069_2_alg».proof.Proof.ValueIdeal
import proofs.«155736_j85968065397069_2_alg».proof.Proof.KeptIdeal
import proofs.«155736_j85968065397069_2_alg».proof.Proof.RefRunPatched
import proofs.«155736_j85968065397069_2_alg».proof.Proof.Encoders
import proofs.«155736_j85968065397069_2_alg».proof.Proof.EncodersK
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe Idealize.ShloMosaic.StableHlo
open Idealize.SL.Sem
open Idealize.ShloMosaic.Pipeline (Dat Cfg Window)

local notation "postOps" => ([hostOps1, hostOps1_1, hostOps1_2, hostOps1_3, hostOps1_4] : List (List (HloOp τ sig (Elt Ideal))))

variable (m : (ℓ : Loc nD τ sig) → Buf (Elt Ideal) ℓ)

/-- The launch as one host operation: the result array receives the product of the two operand arrays. -/
def regionOp : HloOp τ sig (Elt Ideal) :=
  StableHlo.binary main_v22 main_arg13 main_v32
    ((fun l r => Host.dotGeneral (F := Ideal) (φ₁ := .f32) (φ₂ := .f32) Cert.ReferenceIdeal.dot_S14x4096_S4096x8192_S14x8192_1_0_0_1_n_n none l r) :
      (⟨S14x4096, .f32⟩ : BufTy).Contents (Elt Ideal) → (⟨S4096x8192, .f32⟩ : BufTy).Contents (Elt Ideal) → (⟨S14x8192, .f32⟩ : BufTy).Contents (Elt Ideal))

/-- What the launch leaves in the buffers is what that one operation leaves. -/
theorem region_as_op (c : Dev nD) :
    Pipeline.withArrays spec0 c (V0 m c) (fun w => (dats m 0 c).arrAt w cfg0.N) = (regionOp).result (V0 m c) := by
  funext b
  by_cases hb : ∃ w, Proc.devRef .tc (Pipeline.arrRef spec0 w) = b
  · obtain ⟨w, rfl⟩ := hb
    rw [Pipeline.withArrays_arr spec0 launch0.win.arr_inj c _ _ w]
    fin_cases w
    · show (dats m 0 c).arrAt 0 cfg0.N = (regionOp).result (V0 m c) (Proc.devRef .tc main_v22)
      unfold regionOp
      rw [StableHlo.binary_result_ne (r := main_v22) (h := by decide)]
      exact ((dats m 0 c).arrAt_in 0 rfl _).trans (A_eq m c 0)
    · show (dats m 0 c).arrAt 1 cfg0.N = (regionOp).result (V0 m c) (Proc.devRef .tc main_arg13)
      unfold regionOp
      rw [StableHlo.binary_result_ne (r := main_arg13) (h := by decide)]
      exact ((dats m 0 c).arrAt_in 1 rfl _).trans (A_eq m c 1)
    · show (dats m 0 c).arrAt 2 cfg0.N = (regionOp).result (V0 m c) (Proc.devRef .tc main_v32)
      unfold regionOp
      rw [StableHlo.binary_result]
      exact final m c
  · have hne : b ∉ (regionOp).writes := by
      unfold regionOp
      rw [StableHlo.binary_writes, Finset.mem_singleton]
      intro e
      exact hb ⟨2, e.symm⟩
    rw [HloOp.result_of_not_mem _ _ hne]
    unfold Pipeline.withArrays
    rw [dif_neg hb]

/-- The kernel program's result: the operations after the launch, run from what that one operation leaves. -/
theorem tail_as_ops (c : Dev nD) :
    Pipeline.afterTail₀ cfgs (dats m) 0 (V0 m) postOps c main_v130
      = StableHlo.after (regionOp :: List.flatten postOps) (V0 m c) (Proc.devRef .tc main_v130) := by
  unfold Pipeline.afterTail₀
  show StableHlo.after (List.flatten postOps) (Pipeline.withArrays spec0 c (V0 m c) fun w => (dats m 0 c).arrAt w cfg0.N) (Proc.devRef .tc main_v130) = _
  rw [region_as_op]
  rfl

/-- The feature matrix when the launch is reached is the reference's. -/
theorem v22_is_xR (c : Dev nD) : V0 m c (Proc.devRef .tc main_v22)
    = Cert.Enc.xR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (Cert.Enc.v22_eq m c).trans (Cert.Enc.xK_eq_xR _ _ _ _ _ _ _ _ _ _ _ _)

theorem V0_arg13 (c : Dev nD) : V0 m c (Proc.devRef .tc main_arg13) = m ((c.tc : Thread nD τ).loc main_arg13) :=
  StableHlo.after_of_forall_not_mem _ _ (pre_keeps (r := main_arg13) (by decide))
theorem V0_arg14 (c : Dev nD) : V0 m c (Proc.devRef .tc main_arg14) = m ((c.tc : Thread nD τ).loc main_arg14) :=
  StableHlo.after_of_forall_not_mem _ _ (pre_keeps (r := main_arg14) (by decide))
theorem V0_arg15 (c : Dev nD) : V0 m c (Proc.devRef .tc main_arg15) = m ((c.tc : Thread nD τ).loc main_arg15) :=
  StableHlo.after_of_forall_not_mem _ _ (pre_keeps (r := main_arg15) (by decide))
theorem V0_arg16 (c : Dev nD) : V0 m c (Proc.devRef .tc main_arg16) = m ((c.tc : Thread nD τ).loc main_arg16) :=
  StableHlo.after_of_forall_not_mem _ _ (pre_keeps (r := main_arg16) (by decide))
theorem V0_arg17 (c : Dev nD) : V0 m c (Proc.devRef .tc main_arg17) = m ((c.tc : Thread nD τ).loc main_arg17) :=
  StableHlo.after_of_forall_not_mem _ _ (pre_keeps (r := main_arg17) (by decide))
theorem V0_arg18 (c : Dev nD) : V0 m c (Proc.devRef .tc main_arg18) = m ((c.tc : Thread nD τ).loc main_arg18) :=
  StableHlo.after_of_forall_not_mem _ _ (pre_keeps (r := main_arg18) (by decide))
theorem V0_arg4 (c : Dev nD) : V0 m c (Proc.devRef .tc main_arg4) = m ((c.tc : Thread nD τ).loc main_arg4) :=
  StableHlo.after_of_forall_not_mem _ _ (pre_keeps (r := main_arg4) (by decide))

set_option maxHeartbeats 16000000 in
/-- The reference's result is the kernel program's, from memories that agree on the argument arrays. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18)) :
    Cert.ReferenceIdeal.GenP.Value.res_main_v130 (F := Ideal) m' c
      = Pipeline.afterTail₀ cfgs (dats m) 0 (V0 m) postOps c main_v130 := by
  rw [tail_as_ops]
  unfold regionOp
  simp only [hostOps1, hostOps1_1, hostOps1_2, hostOps1_3, hostOps1_4, List.flatten_cons, List.flatten_nil, List.append_nil, List.cons_append, List.nil_append]
  after_results_simp
  rw [v22_is_xR]
  rw [V0_arg13 m c, V0_arg14 m c, V0_arg15 m c, V0_arg16 m c, V0_arg17 m c, V0_arg18 m c]
  simp only [V0, hostOps0, hostOps0_1, hostOps0_2, List.flatten_cons, List.flatten_nil, List.append_nil, List.cons_append, List.nil_append]
  after_results_simp
  unfold Cert.ReferenceIdeal.GenP.Value.res_main_v130
  rw [h0, h1, h2, h3, h4, h5, h6, h7, h8, h9, h10, h11, h12, h13, h14, h15, h16, h17, h18]
  rfl

/-- The kernel program's run, with its result named: what the operations after the launch leave in the result buffer. -/
theorem run_result (ρ : Dev nD → PrngReg) :
    θ_run defs (onTc (τ := τ) (main (F := Ideal))) ⟨m, fun _ => 0, ρ⟩ (fun r => ∀ c : Dev nD,
      r.2.mem ((c.tc : Thread nD τ).loc main_v130) = Pipeline.afterTail₀ cfgs (dats m) 0 (V0 m) postOps c main_v130
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).2 main_v130 (Pipeline.mem_restRefs_of main_v130 (by decide) (by decide)),
    ((h c).2 main_arg0 (Pipeline.mem_restRefs_of main_arg0 (by decide) (by decide))).trans (kept m (r := main_arg0) (by decide) (by intro w; fin_cases w <;> decide) c),
    ((h c).2 main_arg1 (Pipeline.mem_restRefs_of main_arg1 (by decide) (by decide))).trans (kept m (r := main_arg1) (by decide) (by intro w; fin_cases w <;> decide) c),
    ((h c).2 main_arg2 (Pipeline.mem_restRefs_of main_arg2 (by decide) (by decide))).trans (kept m (r := main_arg2) (by decide) (by intro w; fin_cases w <;> decide) c),
    ((h c).2 main_arg3 (Pipeline.mem_restRefs_of main_arg3 (by decide) (by decide))).trans (kept m (r := main_arg3) (by decide) (by intro w; fin_cases w <;> decide) c),
    ((h c).2 main_arg4 (Pipeline.mem_restRefs_of main_arg4 (by decide) (by decide))).trans (kept m (r := main_arg4) (by decide) (by intro w; fin_cases w <;> decide) c),
    ((h c).2 main_arg5 (Pipeline.mem_restRefs_of main_arg5 (by decide) (by decide))).trans (kept m (r := main_arg5) (by decide) (by intro w; fin_cases w <;> decide) c),
    ((h c).2 main_arg6 (Pipeline.mem_restRefs_of main_arg6 (by decide) (by decide))).trans (kept m (r := main_arg6) (by decide) (by intro w; fin_cases w <;> decide) c),
    ((h c).2 main_arg7 (Pipeline.mem_restRefs_of main_arg7 (by decide) (by decide))).trans (kept m (r := main_arg7) (by decide) (by intro w; fin_cases w <;> decide) c),
    ((h c).2 main_arg8 (Pipeline.mem_restRefs_of main_arg8 (by decide) (by decide))).trans (kept m (r := main_arg8) (by decide) (by intro w; fin_cases w <;> decide) c),
    ((h c).2 main_arg9 (Pipeline.mem_restRefs_of main_arg9 (by decide) (by decide))).trans (kept m (r := main_arg9) (by decide) (by intro w; fin_cases w <;> decide) c),
    ((h c).2 main_arg10 (Pipeline.mem_restRefs_of main_arg10 (by decide) (by decide))).trans (kept m (r := main_arg10) (by decide) (by intro w; fin_cases w <;> decide) c),
    ((h c).2 main_arg11 (Pipeline.mem_restRefs_of main_arg11 (by decide) (by decide))).trans (kept m (r := main_arg11) (by decide) (by intro w; fin_cases w <;> decide) c),
    ((h c).2 main_arg12 (Pipeline.mem_restRefs_of main_arg12 (by decide) (by decide))).trans (kept m (r := main_arg12) (by decide) (by intro w; fin_cases w <;> decide) c),
    ((h c).1 1).trans (((dats m 0 c).arrAt_in 1 rfl _).trans ((A_eq m c 1).trans (V_arg13 m c))),
    ((h c).2 main_arg14 (Pipeline.mem_restRefs_of main_arg14 (by decide) (by decide))).trans (kept m (r := main_arg14) (by decide) (by intro w; fin_cases w <;> decide) c),
    ((h c).2 main_arg15 (Pipeline.mem_restRefs_of main_arg15 (by decide) (by decide))).trans (kept m (r := main_arg15) (by decide) (by intro w; fin_cases w <;> decide) c),
    ((h c).2 main_arg16 (Pipeline.mem_restRefs_of main_arg16 (by decide) (by decide))).trans (kept m (r := main_arg16) (by decide) (by intro w; fin_cases w <;> decide) c),
    ((h c).2 main_arg17 (Pipeline.mem_restRefs_of main_arg17 (by decide) (by decide))).trans (kept m (r := main_arg17) (by decide) (by intro w; fin_cases w <;> decide) c),
    ((h c).2 main_arg18 (Pipeline.mem_restRefs_of main_arg18 (by decide) (by decide))).trans (kept m (r := main_arg18) (by decide) (by intro w; fin_cases w <;> decide) c)⟩) (run_main m ρ)

end Cert.KernelIdeal.Val

end
-- ==== Proof.lean ====
/-
  The kernel program and the reference compute the same number, at the ideal values, and each program runs to the end
  without a fault and leaves its argument arrays unchanged.

  Both programs are a small graph network on 14 nodes: four linear encoders with a rectifier give a 14 x 4096 feature matrix
  x; a first graph layer multiplies x by a 4096 x 8192 weight matrix and aggregates over the edges with the symmetric degree
  normalisation; a second layer does the same with an 8192 x 1 weight; a linear head and a mean give the result.

  They differ in two places.  (1) The kernel program computes the four encoders as ONE product of a block-diagonal 14 x 14
  input matrix with the row-stacked weights; an entry of that product is a sum of 14 terms of which all but one encoder's
  are zero times a weight, hence zero, so the product is the four small products joined along the rows.  (2) The kernel
  program computes x times the big weight matrix in a kernel launched over a 2 x 8 grid: for each of the 2 column blocks of
  the result it sweeps the 8 blocks of 512 along the contracted axis, adding each block's product to an accumulator that
  starts at zero, and writes the block back at the end of the sweep.  Extended-real addition is associative, so the eight
  partial sums of 512 terms are the one sum of 4096 terms, and the launch leaves exactly the matrix product in its result
  array.  All the other operations are the same on both sides, so the results agree; no finiteness of the inputs is needed.

  The frames: the kernel body is run symbolically at a generic grid point (the two cases: first point of a sweep, later
  point), the accumulator's contents after each point are tracked by recursion on the point, and the launch theorem of the
  library for a kernel with a carried scratch buffer and host operations after the launch gives the run; no host operation
  writes an argument array.  The same text, read at the word-level instance, is the printed kernel program's frame.  The
  reference is a straight line of host operations.  The idealization rewrote nothing, so there is nothing to preserve.
-/
import proofs.«155736_j85968065397069_2_alg».proof.Defs
import proofs.«155736_j85968065397069_2_alg».proof.Proof.KeptBits
import proofs.«155736_j85968065397069_2_alg».proof.Proof.KeptIdeal
import proofs.«155736_j85968065397069_2_alg».proof.Proof.TailEq
import proofs.«155736_j85968065397069_2_alg».proof.Proof.Gen.Kernel
import proofs.«155736_j85968065397069_2_alg».proof.Proof.Gen.KernelIdeal
import proofs.«155736_j85968065397069_2_alg».proof.Proof.Gen.ReferenceIdeal
import proofs.«155736_j85968065397069_2_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.GenP.Value.run (F := Ideal) m ρ)

theorem algebraic : Cert.algebraic_KernelIdeal_ReferenceIdeal := by
  intro m ρ m' ρ' _ hagree
  refine ⟨_, Cert.KernelIdeal.Val.run_result m ρ, ?_⟩
  refine (θ_run Cert.ReferenceIdeal.defs _ _).mono (fun _ h c => ⟨(h c).1.trans ?_, (h c).2⟩)
    (Cert.ReferenceIdeal.GenP.Value.run (F := Ideal) m' ρ')
  obtain ⟨h0, h1, h2, h3, h4, h5, h6, h7, h8, h9, h10, h11, h12, h13, h14, h15, h16, h17, h18⟩ := hagree c
  exact Cert.KernelIdeal.Val.result_eq m m' c h0 h1 h2 h3 h4 h5 h6 h7 h8 h9 h10 h11 h12 h13 h14 h15 h16 h17 h18

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
